-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)) →
    ∃ (v0 : (c : Dev Cert.KernelIdeal.nD) → Buf (Elt Ideal) ((c.tc : Thread Cert.KernelIdeal.nD Cert.KernelIdeal.τ).loc Cert.KernelIdeal.main_v72)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v72) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v78) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8x128x32000 : Shape := ⟨3, ![8, 128, 32000]⟩
abbrev S8x14 : Shape := ⟨2, ![8, 14]⟩
abbrev S8 : Shape := ⟨1, ![8]⟩
abbrev S8x128 : Shape := ⟨2, ![8, 128]⟩
abbrev S6 : Shape := ⟨1, ![6]⟩
abbrev S5 : Shape := ⟨1, ![5]⟩
abbrev S_ : Shape := ⟨0, ![]⟩

class Facts : Prop where
  bcast_S_S8x128x32000 : S_.BroadcastsInDim S8x128x32000 (![] : Fin 0 → Fin S8x128x32000.rank)
  reducesTo_S8x128x32000_S_d0_1_2 : S8x128x32000.ReducesTo [0, 1, 2] S_
  h_S_ : 0 < S_.numel
  bcast_S_S8x14 : S_.BroadcastsInDim S8x14 (![] : Fin 0 → Fin S8x14.rank)
  reducesTo_S8x14_S_d0_1 : S8x14.ReducesTo [0, 1] S_
  bcast_S_S8 : S_.BroadcastsInDim S8 (![] : Fin 0 → Fin S8.rank)
  reducesTo_S8_S_d0 : S8.ReducesTo [0] S_

variable [Facts]

def fn_part1 {F : FTy → Type} [FloatOps F] (main_v13 : IVec S_ 1) (main_v16 : IVec S8 1) : IVec S_ 1 :=
  let main_c_5 : IVec S_ 1 := constantI S_ 1 1#1
  let main_v17 : IVec S_ 1 := (fun x v => Host.reduce IntOp.andi x v reducesTo_S8_S_d0 h_S_) main_v16 main_c_5
  let main_v18 : IVec S_ 1 := andi main_v13 main_v17
  main_v18

def fn {F : FTy → Type} [FloatOps F] (main_arg0 : FVec F S8x128x32000 .f32) (main_arg1 : FVec F S8x14 .f32) (main_arg2 : FVec F S8x14 .f32) (main_arg3 : FVec F S8 .f32) (main_arg4 : IVec S8x128 32) (main_arg5 : IVec S6 32) (main_arg6 : IVec S6 32) (main_arg7 : IVec S5 32) : IVec S_ 1 :=
  let main_v0 : FVec F S8x128x32000 .f32 := Host.absf main_arg0
  let main_cst : FVec F S_ .f32 := constant S_ .f32 0x7F800000#32
  let main_v1 : FVec F S8x128x32000 .f32 := broadcastInDim S8x128x32000 ![] bcast_S_S8x128x32000 main_cst
  let main_v2 : IVec S8x128x32000 1 := cmpf .olt main_v0 main_v1
  let main_c : IVec S_ 1 := constantI S_ 1 1#1
  let main_v3 : IVec S_ 1 := (fun x v => Host.reduce IntOp.andi x v reducesTo_S8x128x32000_S_d0_1_2 h_S_) main_v2 main_c
  let main_v4 : FVec F S8x14 .f32 := Host.absf main_arg1
  let main_cst_0 : FVec F S_ .f32 := constant S_ .f32 0x7F800000#32
  let main_v5 : FVec F S8x14 .f32 := broadcastInDim S8x14 ![] bcast_S_S8x14 main_cst_0
  let main_v6 : IVec S8x14 1 := cmpf .olt main_v4 main_v5
  let main_c_1 : IVec S_ 1 := constantI S_ 1 1#1
  let main_v7 : IVec S_ 1 := (fun x v => Host.reduce IntOp.andi x v reducesTo_S8x14_S_d0_1 h_S_) main_v6 main_c_1
  let main_v8 : IVec S_ 1 := andi main_v3 main_v7
  let main_v9 : FVec F S8x14 .f32 := Host.absf main_arg2
  let main_cst_2 : FVec F S_ .f32 := constant S_ .f32 0x7F800000#32
  let main_v10 : FVec F S8x14 .f32 := broadcastInDim S8x14 ![] bcast_S_S8x14 main_cst_2
  let main_v11 : IVec S8x14 1 := cmpf .olt main_v9 main_v10
  let main_c_3 : IVec S_ 1 := constantI S_ 1 1#1
  let main_v12 : IVec S_ 1 := (fun x v => Host.reduce IntOp.andi x v reducesTo_S8x14_S_d0_1 h_S_) main_v11 main_c_3
  let main_v13 : IVec S_ 1 := andi main_v8 main_v12
  let main_v14 : FVec F S8 .f32 := Host.absf main_arg3
  let main_cst_4 : FVec F S_ .f32 := constant S_ .f32 0x7F800000#32
  let main_v15 : FVec F S8 .f32 := broadcastInDim S8 ![] bcast_S_S8 main_cst_4
  let main_v16 : IVec S8 1 := cmpf .olt main_v14 main_v15
  fn_part1 (F := F) main_v13 main_v16
-- ==== Kernel.lean ====
abbrev S8x128x32000 : Shape := ⟨3, ![8, 128, 32000]⟩
abbrev S8x14 : Shape := ⟨2, ![8, 14]⟩
abbrev S8 : Shape := ⟨1, ![8]⟩
abbrev S8x128 : Shape := ⟨2, ![8, 128]⟩
abbrev S6 : Shape := ⟨1, ![6]⟩
abbrev S5 : Shape := ⟨1, ![5]⟩
abbrev S_ : Shape := ⟨0, ![]⟩
abbrev S1024x32000 : Shape := ⟨2, ![1024, 32000]⟩
abbrev S1024x1 : Shape := ⟨2, ![1024, 1]⟩
abbrev S256x6400 : Shape := ⟨2, ![256, 6400]⟩
abbrev S256x1 : Shape := ⟨2, ![256, 1]⟩
abbrev S256 : Shape := ⟨1, ![256]⟩
abbrev S1024 : Shape := ⟨1, ![1024]⟩
abbrev S8x128x1 : Shape := ⟨3, ![8, 128, 1]⟩
abbrev S1x1x6 : Shape := ⟨3, ![1, 1, 6]⟩
abbrev S8x128x6 : Shape := ⟨3, ![8, 128, 6]⟩
abbrev S1x1x5 : Shape := ⟨3, ![1, 1, 5]⟩
abbrev S8x128x5 : Shape := ⟨3, ![8, 128, 5]⟩

abbrev nBuf : Space → Nat
  | .hbm => 118
  | .vmem => 6
  | .smem => 0
  | _ => 0

abbrev bufTy : (tb : Table) → Fin (tcTables nBuf tb) → BufTy
  | .hbm, ⟨0, _⟩ => ⟨S8x128x32000, .f32⟩
  | .hbm, ⟨1, _⟩ => ⟨S8x14, .f32⟩
  | .hbm, ⟨2, _⟩ => ⟨S8x14, .f32⟩
  | .hbm, ⟨3, _⟩ => ⟨S8, .f32⟩
  | .hbm, ⟨4, _⟩ => ⟨S8x128, .i32⟩
  | .hbm, ⟨5, _⟩ => ⟨S6, .i32⟩
  | .hbm, ⟨6, _⟩ => ⟨S6, .i32⟩
  | .hbm, ⟨7, _⟩ => ⟨S5, .i32⟩
  | .hbm, ⟨8, _⟩ => ⟨S_, .f32⟩
  | .hbm, ⟨9, _⟩ => ⟨S8, .f32⟩
  | .hbm, ⟨10, _⟩ => ⟨S_, .f32⟩
  | .hbm, ⟨11, _⟩ => ⟨S8, .f32⟩
  | .hbm, ⟨12, _⟩ => ⟨S8, .f32⟩
  | .hbm, ⟨13, _⟩ => ⟨S_, .f32⟩
  | .hbm, ⟨14, _⟩ => ⟨S8, .f32⟩
  | .hbm, ⟨15, _⟩ => ⟨S_, .f32⟩
  | .hbm, ⟨16, _⟩ => ⟨S8, .f32⟩
  | .hbm, ⟨17, _⟩ => ⟨S8, .f32⟩
  | .hbm, ⟨18, _⟩ => ⟨S1024x32000, .f32⟩
  | .hbm, ⟨19, _⟩ => ⟨S1024x1, .f32⟩
  | .hbm, ⟨20, _⟩ => ⟨S1024, .f32⟩
  | .hbm, ⟨21, _⟩ => ⟨S8x128, .f32⟩
  | .hbm, ⟨22, _⟩ => ⟨S_, .f32⟩
  | .hbm, ⟨23, _⟩ => ⟨S8x128, .f32⟩
  | .hbm, ⟨24, _⟩ => ⟨S8x128, .f32⟩
  | .hbm, ⟨25, _⟩ => ⟨S_, .f32⟩
  | .hbm, ⟨26, _⟩ => ⟨S8, .f32⟩
  | .hbm, ⟨27, _⟩ => ⟨S_, .f32⟩
  | .hbm, ⟨28, _⟩ => ⟨S8, .f32⟩
  | .hbm, ⟨29, _⟩ => ⟨S8, .f32⟩
  | .hbm, ⟨30, _⟩ => ⟨S8, .f32⟩
  | .hbm, ⟨31, _⟩ => ⟨S_, .f32⟩
  | .hbm, ⟨32, _⟩ => ⟨S_, .f32⟩
  | .hbm, ⟨33, _⟩ => ⟨S_, .f32⟩
  | .hbm, ⟨34, _⟩ => ⟨S_, .f32⟩
  | .hbm, ⟨35, _⟩ => ⟨S8, .f32⟩
  | .hbm, ⟨36, _⟩ => ⟨S8, .f32⟩
  | .hbm, ⟨37, _⟩ => ⟨S_, .f32⟩
  | .hbm, ⟨38, _⟩ => ⟨S8, .f32⟩
  | .hbm, ⟨39, _⟩ => ⟨S8, .f32⟩
  | .hbm, ⟨40, _⟩ => ⟨S8, .f32⟩
  | .hbm, ⟨41, _⟩ => ⟨S8, .f32⟩
  | .hbm, ⟨42, _⟩ => ⟨S_, .f32⟩
  | .hbm, ⟨43, _⟩ => ⟨S_, .f32⟩
  | .hbm, ⟨44, _⟩ => ⟨S_, .f32⟩
  | .hbm, ⟨45, _⟩ => ⟨S_, .f32⟩
  | .hbm, ⟨46, _⟩ => ⟨S8x128x1, .i32⟩
  | .hbm, ⟨47, _⟩ => ⟨S1x1x6, .i32⟩
  | .hbm, ⟨48, _⟩ => ⟨S8x128x6, .i32⟩
  | .hbm, ⟨49, _⟩ => ⟨S8x128x6, .i32⟩
  | .hbm, ⟨50, _⟩ => ⟨S8x128x6, .i1⟩
  | .hbm, ⟨51, _⟩ => ⟨S_, .i1⟩
  | .hbm, ⟨52, _⟩ => ⟨S8x128, .i1⟩
  | .hbm, ⟨53, _⟩ => ⟨S8x128, .i32⟩
  | .hbm, ⟨54, _⟩ => ⟨S_, .i32⟩
  | .hbm, ⟨55, _⟩ => ⟨S8, .i32⟩
  | .hbm, ⟨56, _⟩ => ⟨S8x128x1, .i32⟩
  | .hbm, ⟨57, _⟩ => ⟨S1x1x6, .i32⟩
  | .hbm, ⟨58, _⟩ => ⟨S8x128x6, .i32⟩
  | .hbm, ⟨59, _⟩ => ⟨S8x128x6, .i32⟩
  | .hbm, ⟨60, _⟩ => ⟨S8x128x6, .i1⟩
  | .hbm, ⟨61, _⟩ => ⟨S_, .i1⟩
  | .hbm, ⟨62, _⟩ => ⟨S8x128, .i1⟩
  | .hbm, ⟨63, _⟩ => ⟨S8x128, .i32⟩
  | .hbm, ⟨64, _⟩ => ⟨S_, .i32⟩
  | .hbm, ⟨65, _⟩ => ⟨S8, .i32⟩
  | .hbm, ⟨66, _⟩ => ⟨S8x128x1, .i32⟩
  | .hbm, ⟨67, _⟩ => ⟨S1x1x5, .i32⟩
  | .hbm, ⟨68, _⟩ => ⟨S8x128x5, .i32⟩
  | .hbm, ⟨69, _⟩ => ⟨S8x128x5, .i32⟩
  | .hbm, ⟨70, _⟩ => ⟨S8x128x5, .i1⟩
  | .hbm, ⟨71, _⟩ => ⟨S_, .i1⟩
  | .hbm, ⟨72, _⟩ => ⟨S8x128, .i1⟩
  | .hbm, ⟨73, _⟩ => ⟨S8x128, .i32⟩
  | .hbm, ⟨74, _⟩ => ⟨S_, .i32⟩
  | .hbm, ⟨75, _⟩ => ⟨S8, .i32⟩
  | .hbm, ⟨76, _⟩ => ⟨S_, .f32⟩
  | .hbm, ⟨77, _⟩ => ⟨S8, .f32⟩
  | .hbm, ⟨78, _⟩ => ⟨S8, .i1⟩
  | .hbm, ⟨79, _⟩ => ⟨S8, .i1⟩
  | .hbm, ⟨80, _⟩ => ⟨S8, .i1⟩
  | .hbm, ⟨81, _⟩ => ⟨S_, .f32⟩
  | .hbm, ⟨82, _⟩ => ⟨S_, .f32⟩
  | .hbm, ⟨83, _⟩ => ⟨S8, .f32⟩
  | .hbm, ⟨84, _⟩ => ⟨S8, .f32⟩
  | .hbm, ⟨85, _⟩ => ⟨S8, .f32⟩
  | .hbm, ⟨86, _⟩ => ⟨S_, .f32⟩
  | .hbm, ⟨87, _⟩ => ⟨S8, .f32⟩
  | .hbm, ⟨88, _⟩ => ⟨S8, .i1⟩
  | .hbm, ⟨89, _⟩ => ⟨S8, .i1⟩
  | .hbm, ⟨90, _⟩ => ⟨S8, .i1⟩
  | .hbm, ⟨91, _⟩ => ⟨S_, .f32⟩
  | .hbm, ⟨92, _⟩ => ⟨S_, .f32⟩
  | .hbm, ⟨93, _⟩ => ⟨S8, .f32⟩
  | .hbm, ⟨94, _⟩ => ⟨S8, .f32⟩
  | .hbm, ⟨95, _⟩ => ⟨S8, .f32⟩
  | .hbm, ⟨96, _⟩ => ⟨S8, .f32⟩
  | .hbm, ⟨97, _⟩ => ⟨S_, .f32⟩
  | .hbm, ⟨98, _⟩ => ⟨S8, .f32⟩
  | .hbm, ⟨99, _⟩ => ⟨S8, .i1⟩
  | .hbm, ⟨100, _⟩ => ⟨S_, .i32⟩
  | .hbm, ⟨101, _⟩ => ⟨S8, .i32⟩
  | .hbm, ⟨102, _⟩ => ⟨S8, .i1⟩
  | .hbm, ⟨103, _⟩ => ⟨S8, .i1⟩
  | .hbm, ⟨104, _⟩ => ⟨S_, .f32⟩
  | .hbm, ⟨105, _⟩ => ⟨S_, .f32⟩
  | .hbm, ⟨106, _⟩ => ⟨S8, .f32⟩
  | .hbm, ⟨107, _⟩ => ⟨S8, .f32⟩
  | .hbm, ⟨108, _⟩ => ⟨S8, .f32⟩
  | .hbm, ⟨109, _⟩ => ⟨S8, .f32⟩
  | .hbm, ⟨110, _⟩ => ⟨S8, .f32⟩
  | .hbm, ⟨111, _⟩ => ⟨S_, .f32⟩
  | .hbm, ⟨112, _⟩ => ⟨S_, .f32⟩
  | .hbm, ⟨113, _⟩ => ⟨S_, .f32⟩
  | .hbm, ⟨114, _⟩ => ⟨S_, .f32⟩
  | .hbm, ⟨115, _⟩ => ⟨S_, .f32⟩
  | .hbm, ⟨116, _⟩ => ⟨S_, .f32⟩
  | .hbm, ⟨117, _⟩ => ⟨S_, .f32⟩
  | .local _ .vmem, ⟨0, _⟩ => ⟨S256x6400, .f32⟩
  | .local _ .vmem, ⟨1, _⟩ => ⟨S256x6400, .f32⟩
  | .local _ .vmem, ⟨2, _⟩ => ⟨S256x1, .f32⟩
  | .local _ .vmem, ⟨3, _⟩ => ⟨S256x1, .f32⟩
  | .local _ .vmem, ⟨4, _⟩ => ⟨S256x1, .f32⟩
  | .local _ .vmem, ⟨5, _⟩ => ⟨S256x1, .f32⟩
  | _, _ => ⟨S8x128x32000, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 4 → Bool
  | ⟨0, _⟩ => true
  | ⟨1, _⟩ => true
  | ⟨2, _⟩ => true
  | ⟨3, _⟩ => true
  | _ => false

abbrev sig : RefSig :=
  ofTc nBuf bufTy 0 4 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_cst : Ref sig .tc := ⟨.hbm, 8, rfl⟩
abbrev main_v0 : Ref sig .tc := ⟨.hbm, 9, rfl⟩
abbrev main_cst_0 : Ref sig .tc := ⟨.hbm, 10, rfl⟩
abbrev main_v1 : Ref sig .tc := ⟨.hbm, 11, rfl⟩
abbrev main_v2 : Ref sig .tc := ⟨.hbm, 12, rfl⟩
abbrev main_cst_1 : Ref sig .tc := ⟨.hbm, 13, rfl⟩
abbrev main_v3 : Ref sig .tc := ⟨.hbm, 14, rfl⟩
abbrev main_cst_2 : Ref sig .tc := ⟨.hbm, 15, rfl⟩
abbrev main_v4 : Ref sig .tc := ⟨.hbm, 16, rfl⟩
abbrev main_v5 : Ref sig .tc := ⟨.hbm, 17, rfl⟩
abbrev main_v6 : Ref sig .tc := ⟨.hbm, 18, rfl⟩
abbrev main_v7 : Ref sig .tc := ⟨.hbm, 19, rfl⟩
abbrev main_v8 : Ref sig .tc := ⟨.hbm, 20, rfl⟩
abbrev main_v9 : Ref sig .tc := ⟨.hbm, 21, rfl⟩
abbrev main_cst_3 : Ref sig .tc := ⟨.hbm, 22, rfl⟩
abbrev main_v10 : Ref sig .tc := ⟨.hbm, 23, rfl⟩
abbrev main_v11 : Ref sig .tc := ⟨.hbm, 24, rfl⟩
abbrev main_cst_4 : Ref sig .tc := ⟨.hbm, 25, rfl⟩
abbrev main_v12 : Ref sig .tc := ⟨.hbm, 26, rfl⟩
abbrev main_cst_5 : Ref sig .tc := ⟨.hbm, 27, rfl⟩
abbrev main_v13 : Ref sig .tc := ⟨.hbm, 28, rfl⟩
abbrev main_v14 : Ref sig .tc := ⟨.hbm, 29, rfl⟩
abbrev main_v15 : Ref sig .tc := ⟨.hbm, 30, rfl⟩
abbrev main_cst_6 : Ref sig .tc := ⟨.hbm, 31, rfl⟩
abbrev main_v16 : Ref sig .tc := ⟨.hbm, 32, rfl⟩
abbrev main_cst_7 : Ref sig .tc := ⟨.hbm, 33, rfl⟩
abbrev main_v17 : Ref sig .tc := ⟨.hbm, 34, rfl⟩
abbrev main_v18 : Ref sig .tc := ⟨.hbm, 35, rfl⟩
abbrev main_v19 : Ref sig .tc := ⟨.hbm, 36, rfl⟩
abbrev main_cst_8 : Ref sig .tc := ⟨.hbm, 37, rfl⟩
abbrev main_v20 : Ref sig .tc := ⟨.hbm, 38, rfl⟩
abbrev main_v21 : Ref sig .tc := ⟨.hbm, 39, rfl⟩
abbrev main_v22 : Ref sig .tc := ⟨.hbm, 40, rfl⟩
abbrev main_v23 : Ref sig .tc := ⟨.hbm, 41, rfl⟩
abbrev main_cst_9 : Ref sig .tc := ⟨.hbm, 42, rfl⟩
abbrev main_v24 : Ref sig .tc := ⟨.hbm, 43, rfl⟩
abbrev main_cst_10 : Ref sig .tc := ⟨.hbm, 44, rfl⟩
abbrev main_v25 : Ref sig .tc := ⟨.hbm, 45, rfl⟩
abbrev main_v26 : Ref sig .tc := ⟨.hbm, 46, rfl⟩
abbrev main_v27 : Ref sig .tc := ⟨.hbm, 47, rfl⟩
abbrev main_v28 : Ref sig .tc := ⟨.hbm, 48, rfl⟩
abbrev main_v29 : Ref sig .tc := ⟨.hbm, 49, rfl⟩
abbrev main_v30 : Ref sig .tc := ⟨.hbm, 50, rfl⟩
abbrev main_c : Ref sig .tc := ⟨.hbm, 51, rfl⟩
abbrev main_v31 : Ref sig .tc := ⟨.hbm, 52, rfl⟩
abbrev main_v32 : Ref sig .tc := ⟨.hbm, 53, rfl⟩
abbrev main_c_11 : Ref sig .tc := ⟨.hbm, 54, rfl⟩
abbrev main_v33 : Ref sig .tc := ⟨.hbm, 55, rfl⟩
abbrev main_v34 : Ref sig .tc := ⟨.hbm, 56, rfl⟩
abbrev main_v35 : Ref sig .tc := ⟨.hbm, 57, rfl⟩
abbrev main_v36 : Ref sig .tc := ⟨.hbm, 58, rfl⟩
abbrev main_v37 : Ref sig .tc := ⟨.hbm, 59, rfl⟩
abbrev main_v38 : Ref sig .tc := ⟨.hbm, 60, rfl⟩
abbrev main_c_12 : Ref sig .tc := ⟨.hbm, 61, rfl⟩
abbrev main_v39 : Ref sig .tc := ⟨.hbm, 62, rfl⟩
abbrev main_v40 : Ref sig .tc := ⟨.hbm, 63, rfl⟩
abbrev main_c_13 : Ref sig .tc := ⟨.hbm, 64, rfl⟩
abbrev main_v41 : Ref sig .tc := ⟨.hbm, 65, rfl⟩
abbrev main_v42 : Ref sig .tc := ⟨.hbm, 66, rfl⟩
abbrev main_v43 : Ref sig .tc := ⟨.hbm, 67, rfl⟩
abbrev main_v44 : Ref sig .tc := ⟨.hbm, 68, rfl⟩
abbrev main_v45 : Ref sig .tc := ⟨.hbm, 69, rfl⟩
abbrev main_v46 : Ref sig .tc := ⟨.hbm, 70, rfl⟩
abbrev main_c_14 : Ref sig .tc := ⟨.hbm, 71, rfl⟩
abbrev main_v47 : Ref sig .tc := ⟨.hbm, 72, rfl⟩
abbrev main_v48 : Ref sig .tc := ⟨.hbm, 73, rfl⟩
abbrev main_c_15 : Ref sig .tc := ⟨.hbm, 74, rfl⟩
abbrev main_v49 : Ref sig .tc := ⟨.hbm, 75, rfl⟩
abbrev main_cst_16 : Ref sig .tc := ⟨.hbm, 76, rfl⟩
abbrev main_v50 : Ref sig .tc := ⟨.hbm, 77, rfl⟩
abbrev main_v51 : Ref sig .tc := ⟨.hbm, 78, rfl⟩
abbrev main_v52 : Ref sig .tc := ⟨.hbm, 79, rfl⟩
abbrev main_v53 : Ref sig .tc := ⟨.hbm, 80, rfl⟩
abbrev main_cst_17 : Ref sig .tc := ⟨.hbm, 81, rfl⟩
abbrev main_cst_18 : Ref sig .tc := ⟨.hbm, 82, rfl⟩
abbrev main_call0_v0 : Ref sig .tc := ⟨.hbm, 83, rfl⟩
abbrev main_call0_v1 : Ref sig .tc := ⟨.hbm, 84, rfl⟩
abbrev main_v54 : Ref sig .tc := ⟨.hbm, 85, rfl⟩
abbrev main_cst_19 : Ref sig .tc := ⟨.hbm, 86, rfl⟩
abbrev main_v55 : Ref sig .tc := ⟨.hbm, 87, rfl⟩
abbrev main_v56 : Ref sig .tc := ⟨.hbm, 88, rfl⟩
abbrev main_v57 : Ref sig .tc := ⟨.hbm, 89, rfl⟩
abbrev main_v58 : Ref sig .tc := ⟨.hbm, 90, rfl⟩
abbrev main_cst_20 : Ref sig .tc := ⟨.hbm, 91, rfl⟩
abbrev main_cst_21 : Ref sig .tc := ⟨.hbm, 92, rfl⟩
abbrev main_call1_v0 : Ref sig .tc := ⟨.hbm, 93, rfl⟩
abbrev main_call1_v1 : Ref sig .tc := ⟨.hbm, 94, rfl⟩
abbrev main_v59 : Ref sig .tc := ⟨.hbm, 95, rfl⟩
abbrev main_v60 : Ref sig .tc := ⟨.hbm, 96, rfl⟩
abbrev main_cst_22 : Ref sig .tc := ⟨.hbm, 97, rfl⟩
abbrev main_v61 : Ref sig .tc := ⟨.hbm, 98, rfl⟩
abbrev main_v62 : Ref sig .tc := ⟨.hbm, 99, rfl⟩
abbrev main_c_23 : Ref sig .tc := ⟨.hbm, 100, rfl⟩
abbrev main_v63 : Ref sig .tc := ⟨.hbm, 101, rfl⟩
abbrev main_v64 : Ref sig .tc := ⟨.hbm, 102, rfl⟩
abbrev main_v65 : Ref sig .tc := ⟨.hbm, 103, rfl⟩
abbrev main_cst_24 : Ref sig .tc := ⟨.hbm, 104, rfl⟩
abbrev main_cst_25 : Ref sig .tc := ⟨.hbm, 105, rfl⟩
abbrev main_call2_v0 : Ref sig .tc := ⟨.hbm, 106, rfl⟩
abbrev main_call2_v1 : Ref sig .tc := ⟨.hbm, 107, rfl⟩
abbrev main_v66 : Ref sig .tc := ⟨.hbm, 108, rfl⟩
abbrev main_v67 : Ref sig .tc := ⟨.hbm, 109, rfl⟩
abbrev main_v68 : Ref sig .tc := ⟨.hbm, 110, rfl⟩
abbrev main_cst_26 : Ref sig .tc := ⟨.hbm, 111, rfl⟩
abbrev main_v69 : Ref sig .tc := ⟨.hbm, 112, rfl⟩
abbrev main_cst_27 : Ref sig .tc := ⟨.hbm, 113, rfl⟩
abbrev main_v70 : Ref sig .tc := ⟨.hbm, 114, rfl⟩
abbrev main_cst_28 : Ref sig .tc := ⟨.hbm, 115, rfl⟩
abbrev main_v71 : Ref sig .tc := ⟨.hbm, 116, rfl⟩
abbrev main_v72 : Ref sig .tc := ⟨.hbm, 117, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_scratch0 : Ref sig .tc := ⟨.vmem, 4, rfl⟩
abbrev cc0_scratch1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3

abbrev nD : Nat := 1
abbrev τ : Topo := Topo.v7x

variable {F : FTy → Type} [FloatOps F]

abbrev grid0 : Pipeline.Grid := ⟨2, ![4, 5], ![false, false]⟩

def k0_cond2 (i : grid0.Coords) : BitVec 1 :=
  let arg1 : BitVec 32 := BitVec.ofNat 32 (i 1).val
  let c4_i32 : BitVec 32 := 4#32
  let v25 : BitVec 1 := Scalar.cmpi .eq arg1 c4_i32
  let v26 : BitVec 32 := Scalar.extui v25
  let c0_i32_11 : BitVec 32 := 0#32
  let v27 : BitVec 1 := Scalar.cmpi .ne v26 c0_i32_11
  v27

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S256x6400 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S256x1 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

class Facts₀ : Prop where
  reducesTo_S8x14_S8_d1 : S8x14.ReducesTo [1] S8
  h_S_ : 0 < S_.numel
  bcast_S_S8 : S_.BroadcastsInDim S8 (![] : Fin 0 → Fin S8.rank)
  shapeCasts_S8x128x32000_S1024x32000 : S8x128x32000.ShapeCasts S1024x32000
  inb_S256x1_S256x1_0_0 : ∀ a, (![0, 0] : Fin 2 → Nat) a + S256x1.size a ≤ S256x1.size a
  h_S256x1 : 0 < S256x1.numel
  shapeCasts_S256x1_S256x1 : S256x1.ShapeCasts S256x1
  inb_S256x6400_S256x6400_0_0 : ∀ a, (![0, 0] : Fin 2 → Nat) a + S256x6400.size a ≤ S256x6400.size a
  h_S256x6400 : 0 < S256x6400.numel
  shapeCasts_S256x6400_S256x6400 : S256x6400.ShapeCasts S256x6400
  reduces_S256x6400_S256 : S256x6400.Reduces [1] S256
  shapeCasts_S256_S256x1 : S256.ShapeCasts S256x1
  broadcasts_S256x1_S256x6400 : S256x1.Broadcasts S256x6400
  shapeCasts_S1024x1_S1024 : S1024x1.ShapeCasts S1024
  shapeCasts_S1024_S8x128 : S1024.ShapeCasts S8x128
  bcast_S_S8x128 : S_.BroadcastsInDim S8x128 (![] : Fin 0 → Fin S8x128.rank)
  reducesTo_S8x128_S8_d1 : S8x128.ReducesTo [1] S8
  reducesTo_S8_S_d0 : S8.ReducesTo [0] S_
  bcast_S8x128_S8x128x1_0_1 : S8x128.BroadcastsInDim S8x128x1 (![0, 1] : Fin 2 → Fin S8x128x1.rank)
  bcast_S6_S1x1x6_2 : S6.BroadcastsInDim S1x1x6 (![2] : Fin 1 → Fin S1x1x6.rank)
  bcast_S8x128x1_S8x128x6_0_1_2 : S8x128x1.BroadcastsInDim S8x128x6 (![0, 1, 2] : Fin 3 → Fin S8x128x6.rank)
  bcast_S1x1x6_S8x128x6_0_1_2 : S1x1x6.BroadcastsInDim S8x128x6 (![0, 1, 2] : Fin 3 → Fin S8x128x6.rank)
  reducesTo_S8x128x6_S8x128_d2 : S8x128x6.ReducesTo [2] S8x128
  natLt_1_32 : 1 < 32
  bcast_S5_S1x1x5_2 : S5.BroadcastsInDim S1x1x5 (![2] : Fin 1 → Fin S1x1x5.rank)
  bcast_S8x128x1_S8x128x5_0_1_2 : S8x128x1.BroadcastsInDim S8x128x5 (![0, 1, 2] : Fin 3 → Fin S8x128x5.rank)
  bcast_S1x1x5_S8x128x5_0_1_2 : S1x1x5.BroadcastsInDim S8x128x5 (![0, 1, 2] : Fin 3 → Fin S8x128x5.rank)
  reducesTo_S8x128x5_S8x128_d2 : S8x128x5.ReducesTo [2] S8x128
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S256x6400.size a ≤ S1024x32000.size a
  hwx0_0 : ∀ i : grid0.Coords, EltTy.bits .f32 = 32 ∨ (Rect.block (s := S1024x32000) S256x6400.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S256x1.size a ≤ S1024x1.size a
  hwx0_1 : ∀ i : grid0.Coords, EltTy.bits .f32 = 32 ∨ (Rect.block (s := S1024x1) S256x1.size (cc0_transform_1 i) (hinb0_1 i)).WholeWords (EltTy.packing .f32)

variable [Facts₀]

abbrev win0_0 : Pipeline.Window sig grid0 :=
  Pipeline.Window.ofSpec (Memref.whole main_v6) S256x6400.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v7) S256x1.size cc0_transform_1 reads0_1 true false 2 stage0_1 sem0_1
    hrank0 hreads0_1 hinb0_1 nbuf0_1 (Memref.isWhole_whole _) hwx0_1 hstage0_1

abbrev win0 : Fin 2 → Pipeline.Window sig grid0 := fun | 0 => win0_0 | 1 => win0_1 | ⟨_ + 2, h⟩ => absurd h (Nat.not_lt.2 (Nat.le_add_left _ _))
abbrev spec0 : Fin 2 → Pipeline.WinSpec sig grid0.rank := fun w => (win0 w).toWinSpec

abbrev idle0 : Fin 2 → grid0.Coords → Bool := fun | 0 => fun _ => false | 1 => fun i => !(k0_cond2 i == 1#1) | ⟨_ + 2, h⟩ => absurd h (Nat.not_lt.2 (Nat.le_add_left _ _))

class Facts : Prop extends Facts₀ where

variable [Facts]
-- ==== ReferenceIdeal.lean ====
abbrev S8x128x32000 : Shape := ⟨3, ![8, 128, 32000]⟩
abbrev S8x14 : Shape := ⟨2, ![8, 14]⟩
abbrev S8 : Shape := ⟨1, ![8]⟩
abbrev S8x128 : Shape := ⟨2, ![8, 128]⟩
abbrev S6 : Shape := ⟨1, ![6]⟩
abbrev S5 : Shape := ⟨1, ![5]⟩
abbrev S_ : Shape := ⟨0, ![]⟩
abbrev S8x128x1 : Shape := ⟨3, ![8, 128, 1]⟩
abbrev S1x1x6 : Shape := ⟨3, ![1, 1, 6]⟩
abbrev S8x128x6 : Shape := ⟨3, ![8, 128, 6]⟩
abbrev S1x1x5 : Shape := ⟨3, ![1, 1, 5]⟩
abbrev S8x128x5 : Shape := ⟨3, ![8, 128, 5]⟩

abbrev nBuf : Space → Nat
  | .hbm => 127
  | .vmem => 0
  | .smem => 0
  | _ => 0

abbrev bufTy : (tb : Table) → Fin (tcTables nBuf tb) → BufTy
  | .hbm, ⟨0, _⟩ => ⟨S8x128x32000, .f32⟩
  | .hbm, ⟨1, _⟩ => ⟨S8x14, .f32⟩
  | .hbm, ⟨2, _⟩ => ⟨S8x14, .f32⟩
  | .hbm, ⟨3, _⟩ => ⟨S8, .f32⟩
  | .hbm, ⟨4, _⟩ => ⟨S8x128, .i32⟩
  | .hbm, ⟨5, _⟩ => ⟨S6, .i32⟩
  | .hbm, ⟨6, _⟩ => ⟨S6, .i32⟩
  | .hbm, ⟨7, _⟩ => ⟨S5, .i32⟩
  | .hbm, ⟨8, _⟩ => ⟨S_, .f32⟩
  | .hbm, ⟨9, _⟩ => ⟨S8, .f32⟩
  | .hbm, ⟨10, _⟩ => ⟨S_, .f32⟩
  | .hbm, ⟨11, _⟩ => ⟨S8, .f32⟩
  | .hbm, ⟨12, _⟩ => ⟨S8, .f32⟩
  | .hbm, ⟨13, _⟩ => ⟨S_, .f32⟩
  | .hbm, ⟨14, _⟩ => ⟨S8, .f32⟩
  | .hbm, ⟨15, _⟩ => ⟨S_, .f32⟩
  | .hbm, ⟨16, _⟩ => ⟨S8, .f32⟩
  | .hbm, ⟨17, _⟩ => ⟨S8, .f32⟩
  | .hbm, ⟨18, _⟩ => ⟨S_, .f32⟩
  | .hbm, ⟨19, _⟩ => ⟨S8x128, .f32⟩
  | .hbm, ⟨20, _⟩ => ⟨S_, .f32⟩
  | .hbm, ⟨21, _⟩ => ⟨S8x128, .f32⟩
  | .hbm, ⟨22, _⟩ => ⟨S8x128, .f32⟩
  | .hbm, ⟨23, _⟩ => ⟨S8x128x1, .f32⟩
  | .hbm, ⟨24, _⟩ => ⟨S8x128x32000, .f32⟩
  | .hbm, ⟨25, _⟩ => ⟨S8x128x32000, .f32⟩
  | .hbm, ⟨26, _⟩ => ⟨S8x128x32000, .f32⟩
  | .hbm, ⟨27, _⟩ => ⟨S_, .f32⟩
  | .hbm, ⟨28, _⟩ => ⟨S8x128, .f32⟩
  | .hbm, ⟨29, _⟩ => ⟨S8x128x1, .f32⟩
  | .hbm, ⟨30, _⟩ => ⟨S8x128x32000, .f32⟩
  | .hbm, ⟨31, _⟩ => ⟨S8x128x32000, .f32⟩
  | .hbm, ⟨32, _⟩ => ⟨S_, .f32⟩
  | .hbm, ⟨33, _⟩ => ⟨S8x128, .f32⟩
  | .hbm, ⟨34, _⟩ => ⟨S_, .f32⟩
  | .hbm, ⟨35, _⟩ => ⟨S8, .f32⟩
  | .hbm, ⟨36, _⟩ => ⟨S_, .f32⟩
  | .hbm, ⟨37, _⟩ => ⟨S8, .f32⟩
  | .hbm, ⟨38, _⟩ => ⟨S8, .f32⟩
  | .hbm, ⟨39, _⟩ => ⟨S8, .f32⟩
  | .hbm, ⟨40, _⟩ => ⟨S_, .f32⟩
  | .hbm, ⟨41, _⟩ => ⟨S_, .f32⟩
  | .hbm, ⟨42, _⟩ => ⟨S_, .f32⟩
  | .hbm, ⟨43, _⟩ => ⟨S_, .f32⟩
  | .hbm, ⟨44, _⟩ => ⟨S8, .f32⟩
  | .hbm, ⟨45, _⟩ => ⟨S8, .f32⟩
  | .hbm, ⟨46, _⟩ => ⟨S_, .f32⟩
  | .hbm, ⟨47, _⟩ => ⟨S8, .f32⟩
  | .hbm, ⟨48, _⟩ => ⟨S8, .f32⟩
  | .hbm, ⟨49, _⟩ => ⟨S8, .f32⟩
  | .hbm, ⟨50, _⟩ => ⟨S8, .f32⟩
  | .hbm, ⟨51, _⟩ => ⟨S_, .f32⟩
  | .hbm, ⟨52, _⟩ => ⟨S_, .f32⟩
  | .hbm, ⟨53, _⟩ => ⟨S_, .f32⟩
  | .hbm, ⟨54, _⟩ => ⟨S_, .f32⟩
  | .hbm, ⟨55, _⟩ => ⟨S8x128x1, .i32⟩
  | .hbm, ⟨56, _⟩ => ⟨S1x1x6, .i32⟩
  | .hbm, ⟨57, _⟩ => ⟨S8x128x6, .i32⟩
  | .hbm, ⟨58, _⟩ => ⟨S8x128x6, .i32⟩
  | .hbm, ⟨59, _⟩ => ⟨S8x128x6, .i1⟩
  | .hbm, ⟨60, _⟩ => ⟨S_, .i1⟩
  | .hbm, ⟨61, _⟩ => ⟨S8x128, .i1⟩
  | .hbm, ⟨62, _⟩ => ⟨S8x128, .i32⟩
  | .hbm, ⟨63, _⟩ => ⟨S_, .i32⟩
  | .hbm, ⟨64, _⟩ => ⟨S8, .i32⟩
  | .hbm, ⟨65, _⟩ => ⟨S8x128x1, .i32⟩
  | .hbm, ⟨66, _⟩ => ⟨S1x1x6, .i32⟩
  | .hbm, ⟨67, _⟩ => ⟨S8x128x6, .i32⟩
  | .hbm, ⟨68, _⟩ => ⟨S8x128x6, .i32⟩
  | .hbm, ⟨69, _⟩ => ⟨S8x128x6, .i1⟩
  | .hbm, ⟨70, _⟩ => ⟨S_, .i1⟩
  | .hbm, ⟨71, _⟩ => ⟨S8x128, .i1⟩
  | .hbm, ⟨72, _⟩ => ⟨S8x128, .i32⟩
  | .hbm, ⟨73, _⟩ => ⟨S_, .i32⟩
  | .hbm, ⟨74, _⟩ => ⟨S8, .i32⟩
  | .hbm, ⟨75, _⟩ => ⟨S8x128x1, .i32⟩
  | .hbm, ⟨76, _⟩ => ⟨S1x1x5, .i32⟩
  | .hbm, ⟨77, _⟩ => ⟨S8x128x5, .i32⟩
  | .hbm, ⟨78, _⟩ => ⟨S8x128x5, .i32⟩
  | .hbm, ⟨79, _⟩ => ⟨S8x128x5, .i1⟩
  | .hbm, ⟨80, _⟩ => ⟨S_, .i1⟩
  | .hbm, ⟨81, _⟩ => ⟨S8x128, .i1⟩
  | .hbm, ⟨82, _⟩ => ⟨S8x128, .i32⟩
  | .hbm, ⟨83, _⟩ => ⟨S_, .i32⟩
  | .hbm, ⟨84, _⟩ => ⟨S8, .i32⟩
  | .hbm, ⟨85, _⟩ => ⟨S_, .f32⟩
  | .hbm, ⟨86, _⟩ => ⟨S8, .f32⟩
  | .hbm, ⟨87, _⟩ => ⟨S8, .i1⟩
  | .hbm, ⟨88, _⟩ => ⟨S8, .i1⟩
  | .hbm, ⟨89, _⟩ => ⟨S8, .i1⟩
  | .hbm, ⟨90, _⟩ => ⟨S_, .f32⟩
  | .hbm, ⟨91, _⟩ => ⟨S_, .f32⟩
  | .hbm, ⟨92, _⟩ => ⟨S8, .f32⟩
  | .hbm, ⟨93, _⟩ => ⟨S8, .f32⟩
  | .hbm, ⟨94, _⟩ => ⟨S8, .f32⟩
  | .hbm, ⟨95, _⟩ => ⟨S_, .f32⟩
  | .hbm, ⟨96, _⟩ => ⟨S8, .f32⟩
  | .hbm, ⟨97, _⟩ => ⟨S8, .i1⟩
  | .hbm, ⟨98, _⟩ => ⟨S8, .i1⟩
  | .hbm, ⟨99, _⟩ => ⟨S8, .i1⟩
  | .hbm, ⟨100, _⟩ => ⟨S_, .f32⟩
  | .hbm, ⟨101, _⟩ => ⟨S_, .f32⟩
  | .hbm, ⟨102, _⟩ => ⟨S8, .f32⟩
  | .hbm, ⟨103, _⟩ => ⟨S8, .f32⟩
  | .hbm, ⟨104, _⟩ => ⟨S8, .f32⟩
  | .hbm, ⟨105, _⟩ => ⟨S8, .f32⟩
  | .hbm, ⟨106, _⟩ => ⟨S_, .f32⟩
  | .hbm, ⟨107, _⟩ => ⟨S8, .f32⟩
  | .hbm, ⟨108, _⟩ => ⟨S8, .i1⟩
  | .hbm, ⟨109, _⟩ => ⟨S_, .i32⟩
  | .hbm, ⟨110, _⟩ => ⟨S8, .i32⟩
  | .hbm, ⟨111, _⟩ => ⟨S8, .i1⟩
  | .hbm, ⟨112, _⟩ => ⟨S8, .i1⟩
  | .hbm, ⟨113, _⟩ => ⟨S_, .f32⟩
  | .hbm, ⟨114, _⟩ => ⟨S_, .f32⟩
  | .hbm, ⟨115, _⟩ => ⟨S8, .f32⟩
  | .hbm, ⟨116, _⟩ => ⟨S8, .f32⟩
  | .hbm, ⟨117, _⟩ => ⟨S8, .f32⟩
  | .hbm, ⟨118, _⟩ => ⟨S8, .f32⟩
  | .hbm, ⟨119, _⟩ => ⟨S8, .f32⟩
  | .hbm, ⟨120, _⟩ => ⟨S_, .f32⟩
  | .hbm, ⟨121, _⟩ => ⟨S_, .f32⟩
  | .hbm, ⟨122, _⟩ => ⟨S_, .f32⟩
  | .hbm, ⟨123, _⟩ => ⟨S_, .f32⟩
  | .hbm, ⟨124, _⟩ => ⟨S_, .f32⟩
  | .hbm, ⟨125, _⟩ => ⟨S_, .f32⟩
  | .hbm, ⟨126, _⟩ => ⟨S_, .f32⟩
  | _, _ => ⟨S8x128x32000, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_cst : Ref sig .tc := ⟨.hbm, 8, rfl⟩
abbrev main_v0 : Ref sig .tc := ⟨.hbm, 9, rfl⟩
abbrev main_cst_0 : Ref sig .tc := ⟨.hbm, 10, rfl⟩
abbrev main_v1 : Ref sig .tc := ⟨.hbm, 11, rfl⟩
abbrev main_v2 : Ref sig .tc := ⟨.hbm, 12, rfl⟩
abbrev main_cst_1 : Ref sig .tc := ⟨.hbm, 13, rfl⟩
abbrev main_v3 : Ref sig .tc := ⟨.hbm, 14, rfl⟩
abbrev main_cst_2 : Ref sig .tc := ⟨.hbm, 15, rfl⟩
abbrev main_v4 : Ref sig .tc := ⟨.hbm, 16, rfl⟩
abbrev main_v5 : Ref sig .tc := ⟨.hbm, 17, rfl⟩
abbrev main_cst_3 : Ref sig .tc := ⟨.hbm, 18, rfl⟩
abbrev main_v6 : Ref sig .tc := ⟨.hbm, 19, rfl⟩
abbrev main_cst_4 : Ref sig .tc := ⟨.hbm, 20, rfl⟩
abbrev main_v7 : Ref sig .tc := ⟨.hbm, 21, rfl⟩
abbrev main_v8 : Ref sig .tc := ⟨.hbm, 22, rfl⟩
abbrev main_v9 : Ref sig .tc := ⟨.hbm, 23, rfl⟩
abbrev main_v10 : Ref sig .tc := ⟨.hbm, 24, rfl⟩
abbrev main_v11 : Ref sig .tc := ⟨.hbm, 25, rfl⟩
abbrev main_v12 : Ref sig .tc := ⟨.hbm, 26, rfl⟩
abbrev main_cst_5 : Ref sig .tc := ⟨.hbm, 27, rfl⟩
abbrev main_v13 : Ref sig .tc := ⟨.hbm, 28, rfl⟩
abbrev main_v14 : Ref sig .tc := ⟨.hbm, 29, rfl⟩
abbrev main_v15 : Ref sig .tc := ⟨.hbm, 30, rfl⟩
abbrev main_v16 : Ref sig .tc := ⟨.hbm, 31, rfl⟩
abbrev main_cst_6 : Ref sig .tc := ⟨.hbm, 32, rfl⟩
abbrev main_v17 : Ref sig .tc := ⟨.hbm, 33, rfl⟩
abbrev main_cst_7 : Ref sig .tc := ⟨.hbm, 34, rfl⟩
abbrev main_v18 : Ref sig .tc := ⟨.hbm, 35, rfl⟩
abbrev main_cst_8 : Ref sig .tc := ⟨.hbm, 36, rfl⟩
abbrev main_v19 : Ref sig .tc := ⟨.hbm, 37, rfl⟩
abbrev main_v20 : Ref sig .tc := ⟨.hbm, 38, rfl⟩
abbrev main_v21 : Ref sig .tc := ⟨.hbm, 39, rfl⟩
abbrev main_cst_9 : Ref sig .tc := ⟨.hbm, 40, rfl⟩
abbrev main_v22 : Ref sig .tc := ⟨.hbm, 41, rfl⟩
abbrev main_cst_10 : Ref sig .tc := ⟨.hbm, 42, rfl⟩
abbrev main_v23 : Ref sig .tc := ⟨.hbm, 43, rfl⟩
abbrev main_v24 : Ref sig .tc := ⟨.hbm, 44, rfl⟩
abbrev main_v25 : Ref sig .tc := ⟨.hbm, 45, rfl⟩
abbrev main_cst_11 : Ref sig .tc := ⟨.hbm, 46, rfl⟩
abbrev main_v26 : Ref sig .tc := ⟨.hbm, 47, rfl⟩
abbrev main_v27 : Ref sig .tc := ⟨.hbm, 48, rfl⟩
abbrev main_v28 : Ref sig .tc := ⟨.hbm, 49, rfl⟩
abbrev main_v29 : Ref sig .tc := ⟨.hbm, 50, rfl⟩
abbrev main_cst_12 : Ref sig .tc := ⟨.hbm, 51, rfl⟩
abbrev main_v30 : Ref sig .tc := ⟨.hbm, 52, rfl⟩
abbrev main_cst_13 : Ref sig .tc := ⟨.hbm, 53, rfl⟩
abbrev main_v31 : Ref sig .tc := ⟨.hbm, 54, rfl⟩
abbrev main_v32 : Ref sig .tc := ⟨.hbm, 55, rfl⟩
abbrev main_v33 : Ref sig .tc := ⟨.hbm, 56, rfl⟩
abbrev main_v34 : Ref sig .tc := ⟨.hbm, 57, rfl⟩
abbrev main_v35 : Ref sig .tc := ⟨.hbm, 58, rfl⟩
abbrev main_v36 : Ref sig .tc := ⟨.hbm, 59, rfl⟩
abbrev main_c : Ref sig .tc := ⟨.hbm, 60, rfl⟩
abbrev main_v37 : Ref sig .tc := ⟨.hbm, 61, rfl⟩
abbrev main_v38 : Ref sig .tc := ⟨.hbm, 62, rfl⟩
abbrev main_c_14 : Ref sig .tc := ⟨.hbm, 63, rfl⟩
abbrev main_v39 : Ref sig .tc := ⟨.hbm, 64, rfl⟩
abbrev main_v40 : Ref sig .tc := ⟨.hbm, 65, rfl⟩
abbrev main_v41 : Ref sig .tc := ⟨.hbm, 66, rfl⟩
abbrev main_v42 : Ref sig .tc := ⟨.hbm, 67, rfl⟩
abbrev main_v43 : Ref sig .tc := ⟨.hbm, 68, rfl⟩
abbrev main_v44 : Ref sig .tc := ⟨.hbm, 69, rfl⟩
abbrev main_c_15 : Ref sig .tc := ⟨.hbm, 70, rfl⟩
abbrev main_v45 : Ref sig .tc := ⟨.hbm, 71, rfl⟩
abbrev main_v46 : Ref sig .tc := ⟨.hbm, 72, rfl⟩
abbrev main_c_16 : Ref sig .tc := ⟨.hbm, 73, rfl⟩
abbrev main_v47 : Ref sig .tc := ⟨.hbm, 74, rfl⟩
abbrev main_v48 : Ref sig .tc := ⟨.hbm, 75, rfl⟩
abbrev main_v49 : Ref sig .tc := ⟨.hbm, 76, rfl⟩
abbrev main_v50 : Ref sig .tc := ⟨.hbm, 77, rfl⟩
abbrev main_v51 : Ref sig .tc := ⟨.hbm, 78, rfl⟩
abbrev main_v52 : Ref sig .tc := ⟨.hbm, 79, rfl⟩
abbrev main_c_17 : Ref sig .tc := ⟨.hbm, 80, rfl⟩
abbrev main_v53 : Ref sig .tc := ⟨.hbm, 81, rfl⟩
abbrev main_v54 : Ref sig .tc := ⟨.hbm, 82, rfl⟩
abbrev main_c_18 : Ref sig .tc := ⟨.hbm, 83, rfl⟩
abbrev main_v55 : Ref sig .tc := ⟨.hbm, 84, rfl⟩
abbrev main_cst_19 : Ref sig .tc := ⟨.hbm, 85, rfl⟩
abbrev main_v56 : Ref sig .tc := ⟨.hbm, 86, rfl⟩
abbrev main_v57 : Ref sig .tc := ⟨.hbm, 87, rfl⟩
abbrev main_v58 : Ref sig .tc := ⟨.hbm, 88, rfl⟩
abbrev main_v59 : Ref sig .tc := ⟨.hbm, 89, rfl⟩
abbrev main_cst_20 : Ref sig .tc := ⟨.hbm, 90, rfl⟩
abbrev main_cst_21 : Ref sig .tc := ⟨.hbm, 91, rfl⟩
abbrev main_call0_v0 : Ref sig .tc := ⟨.hbm, 92, rfl⟩
abbrev main_call0_v1 : Ref sig .tc := ⟨.hbm, 93, rfl⟩
abbrev main_v60 : Ref sig .tc := ⟨.hbm, 94, rfl⟩
abbrev main_cst_22 : Ref sig .tc := ⟨.hbm, 95, rfl⟩
abbrev main_v61 : Ref sig .tc := ⟨.hbm, 96, rfl⟩
abbrev main_v62 : Ref sig .tc := ⟨.hbm, 97, rfl⟩
abbrev main_v63 : Ref sig .tc := ⟨.hbm, 98, rfl⟩
abbrev main_v64 : Ref sig .tc := ⟨.hbm, 99, rfl⟩
abbrev main_cst_23 : Ref sig .tc := ⟨.hbm, 100, rfl⟩
abbrev main_cst_24 : Ref sig .tc := ⟨.hbm, 101, rfl⟩
abbrev main_call1_v0 : Ref sig .tc := ⟨.hbm, 102, rfl⟩
abbrev main_call1_v1 : Ref sig .tc := ⟨.hbm, 103, rfl⟩
abbrev main_v65 : Ref sig .tc := ⟨.hbm, 104, rfl⟩
abbrev main_v66 : Ref sig .tc := ⟨.hbm, 105, rfl⟩
abbrev main_cst_25 : Ref sig .tc := ⟨.hbm, 106, rfl⟩
abbrev main_v67 : Ref sig .tc := ⟨.hbm, 107, rfl⟩
abbrev main_v68 : Ref sig .tc := ⟨.hbm, 108, rfl⟩
abbrev main_c_26 : Ref sig .tc := ⟨.hbm, 109, rfl⟩
abbrev main_v69 : Ref sig .tc := ⟨.hbm, 110, rfl⟩
abbrev main_v70 : Ref sig .tc := ⟨.hbm, 111, rfl⟩
abbrev main_v71 : Ref sig .tc := ⟨.hbm, 112, rfl⟩
abbrev main_cst_27 : Ref sig .tc := ⟨.hbm, 113, rfl⟩
abbrev main_cst_28 : Ref sig .tc := ⟨.hbm, 114, rfl⟩
abbrev main_call2_v0 : Ref sig .tc := ⟨.hbm, 115, rfl⟩
abbrev main_call2_v1 : Ref sig .tc := ⟨.hbm, 116, rfl⟩
abbrev main_v72 : Ref sig .tc := ⟨.hbm, 117, rfl⟩
abbrev main_v73 : Ref sig .tc := ⟨.hbm, 118, rfl⟩
abbrev main_v74 : Ref sig .tc := ⟨.hbm, 119, rfl⟩
abbrev main_cst_29 : Ref sig .tc := ⟨.hbm, 120, rfl⟩
abbrev main_v75 : Ref sig .tc := ⟨.hbm, 121, rfl⟩
abbrev main_cst_30 : Ref sig .tc := ⟨.hbm, 122, rfl⟩
abbrev main_v76 : Ref sig .tc := ⟨.hbm, 123, rfl⟩
abbrev main_cst_31 : Ref sig .tc := ⟨.hbm, 124, rfl⟩
abbrev main_v77 : Ref sig .tc := ⟨.hbm, 125, rfl⟩
abbrev main_v78 : Ref sig .tc := ⟨.hbm, 126, rfl⟩

abbrev nD : Nat := 1
abbrev τ : Topo := Topo.v7x

variable {F : FTy → Type} [FloatOps F]

class Facts₀ : Prop where
  reducesTo_S8x14_S8_d1 : S8x14.ReducesTo [1] S8
  h_S_ : 0 < S_.numel
  bcast_S_S8 : S_.BroadcastsInDim S8 (![] : Fin 0 → Fin S8.rank)
  reducesTo_S8x128x32000_S8x128_d2 : S8x128x32000.ReducesTo [2] S8x128
  bcast_S_S8x128 : S_.BroadcastsInDim S8x128 (![] : Fin 0 → Fin S8x128.rank)
  bcast_S8x128_S8x128x1_0_1 : S8x128.BroadcastsInDim S8x128x1 (![0, 1] : Fin 2 → Fin S8x128x1.rank)
  bcast_S8x128x1_S8x128x32000_0_1_2 : S8x128x1.BroadcastsInDim S8x128x32000 (![0, 1, 2] : Fin 3 → Fin S8x128x32000.rank)
  reducesTo_S8x128_S8_d1 : S8x128.ReducesTo [1] S8
  reducesTo_S8_S_d0 : S8.ReducesTo [0] S_
  bcast_S6_S1x1x6_2 : S6.BroadcastsInDim S1x1x6 (![2] : Fin 1 → Fin S1x1x6.rank)
  bcast_S8x128x1_S8x128x6_0_1_2 : S8x128x1.BroadcastsInDim S8x128x6 (![0, 1, 2] : Fin 3 → Fin S8x128x6.rank)
  bcast_S1x1x6_S8x128x6_0_1_2 : S1x1x6.BroadcastsInDim S8x128x6 (![0, 1, 2] : Fin 3 → Fin S8x128x6.rank)
  reducesTo_S8x128x6_S8x128_d2 : S8x128x6.ReducesTo [2] S8x128
  natLt_1_32 : 1 < 32
  bcast_S5_S1x1x5_2 : S5.BroadcastsInDim S1x1x5 (![2] : Fin 1 → Fin S1x1x5.rank)
  bcast_S8x128x1_S8x128x5_0_1_2 : S8x128x1.BroadcastsInDim S8x128x5 (![0, 1, 2] : Fin 3 → Fin S8x128x5.rank)
  bcast_S1x1x5_S8x128x5_0_1_2 : S1x1x5.BroadcastsInDim S8x128x5 (![0, 1, 2] : Fin 3 → Fin S8x128x5.rank)
  reducesTo_S8x128x5_S8x128_d2 : S8x128x5.ReducesTo [2] S8x128

variable [Facts₀]

class Facts : Prop extends Facts₀ where

variable [Facts]
-- ==== Proof.K.FrameKit.lean ====
/-
  The launch side of the kernel program's frame: @main is host operations, one pallas_call region, and host operations
  again. This module states what the region finds in each buffer (the host operations before it applied to the launch
  memory), that the later host operations touch only unscoped buffers, allocate nothing and write neither an argument
  nor an array of the pipeline, what a window's block at a grid point is, the two branch conditions of the body as
  conditions on the grid point (the reduction coordinate is the point's index mod 5: the first tile of a row block is
  0, the last is 4), where the output window is idle, and how the frame claim's post follows from the frame run's.
-/
import proofs.«163289_j51866025067153_2_alg».proof.Proof.Gen.Kernel.Launch
import proofs.«163289_j51866025067153_2_alg».proof.Proof.Gen.Kernel.Skeleton
import proofs.«163289_j51866025067153_2_alg».proof.Proof.Gen.Kernel.Points
import Idealize.ShloMosaic.Lib.Pipeline.FrameBody
import Idealize.ShloMosaic.Lib.Pipeline.FrameSuffix
import Idealize.ShloMosaic.Lib.Ring
import Idealize.ShloMosaic.Lib.Tactic

set_option maxRecDepth 16384

noncomputable section

namespace Cert.Kernel.Frame

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## @main around the region -/

/-- Core `c`'s buffer contents when the region is entered: the launch memory after the host operations before it. -/
abbrev V0 (c : Dev nD) : Valuation τ sig (Elt F) := StableHlo.after (List.flatten [hostOps0]) (fun b => m (c, b))
/-- The same read at a TensorCore reference. -/
abbrev V (c : Dev nD) (b : Ref sig .tc) : Buf (Elt F) ((c : Thread nD τ).loc b) := V0 m c (Proc.devRef .tc b)

/-- The host operations after the region, stretch by stretch. -/
abbrev sfx : List (List (HloOp τ sig (Elt F))) := [hostOps1, hostOps1_1, hostOps1_2, hostOps1_3, hostOps1_4, hostOps1_5, hostOps1_6]

theorem hostOps0_fresh : (hostOps0 : List (HloOp τ sig (Elt F))).Forall fun op => op.fresh = ∅ := by
  simp only [List.Forall]; repeat' constructor
theorem hostOps1_fresh : (hostOps1 : List (HloOp τ sig (Elt F))).Forall fun op => op.fresh = ∅ := by
  simp only [List.Forall]; repeat' constructor
theorem hostOps1_1_fresh : (hostOps1_1 : List (HloOp τ sig (Elt F))).Forall fun op => op.fresh = ∅ := by
  simp only [List.Forall]; repeat' constructor
theorem hostOps1_2_fresh : (hostOps1_2 : List (HloOp τ sig (Elt F))).Forall fun op => op.fresh = ∅ := by
  simp only [List.Forall]; repeat' constructor
theorem hostOps1_3_fresh : (hostOps1_3 : List (HloOp τ sig (Elt F))).Forall fun op => op.fresh = ∅ := by
  simp only [List.Forall]; repeat' constructor
theorem hostOps1_4_fresh : (hostOps1_4 : List (HloOp τ sig (Elt F))).Forall fun op => op.fresh = ∅ := by
  simp only [List.Forall]; repeat' constructor
theorem hostOps1_5_fresh : (hostOps1_5 : List (HloOp τ sig (Elt F))).Forall fun op => op.fresh = ∅ := by
  simp only [List.Forall]; repeat' constructor
theorem hostOps1_6_fresh : (hostOps1_6 : List (HloOp τ sig (Elt F))).Forall fun op => op.fresh = ∅ := by
  simp only [List.Forall]; repeat' constructor

set_option maxHeartbeats 4000000 in
set_option backward.isDefEq.respectTransparency.types false in
/-- @main is the host operations before the region, the region, and the host operations after it: it reduces to the
    region continued by the later operations. -/
theorem hmain (𝒱₀ : Variants) : Pipeline.HMainK (Ix := Unit) (Name := ℕ) (U := UR sig nD τ) (Lvl := ℕ) cfgs 0 defs₀ 𝒱₀ m (main (F := F)) (V m)
      (fun _ => Pipeline.chain [StableHlo.seq hostOps1, StableHlo.seq hostOps1_1, StableHlo.seq hostOps1_2, StableHlo.seq hostOps1_3, StableHlo.seq hostOps1_4, StableHlo.seq hostOps1_5, StableHlo.seq hostOps1_6]) :=
  Pipeline.hmain_around cfgs 0 defs₀ 𝒱₀ m main [hostOps0] [hostOps1, hostOps1_1, hostOps1_2, hostOps1_3, hostOps1_4, hostOps1_5, hostOps1_6] (by simp only [List.Forall]; exact hostOps0_sub)
    (by simp only [List.Forall]; exact hostOps0_fresh) main_chain

/-- The operations after the region touch the pipeline's arrays and the buffers that bypass the region only. -/
theorem sfx_sub : ∀ ops ∈ (sfx : List (List (HloOp τ sig (Elt F)))), ∀ op ∈ ops,
    op.bufs ⊆ Pipeline.tailRefs sig Pipeline.Prefetch.none spec0 := by
  rw [Pipeline.tailRefs_none spec0 launch0.win.arr_unscoped]
  intro ops hops op hop
  simp only [sfx, List.mem_cons, List.mem_nil_iff, or_false] at hops
  rcases hops with rfl | rfl | rfl | rfl | rfl | rfl | rfl
  · exact Pipeline.sub_ucRefs op ((List.forall_iff_forall_mem.mp hostOps1_sub) op hop)
  · exact Pipeline.sub_ucRefs op ((List.forall_iff_forall_mem.mp hostOps1_1_sub) op hop)
  · exact Pipeline.sub_ucRefs op ((List.forall_iff_forall_mem.mp hostOps1_2_sub) op hop)
  · exact Pipeline.sub_ucRefs op ((List.forall_iff_forall_mem.mp hostOps1_3_sub) op hop)
  · exact Pipeline.sub_ucRefs op ((List.forall_iff_forall_mem.mp hostOps1_4_sub) op hop)
  · exact Pipeline.sub_ucRefs op ((List.forall_iff_forall_mem.mp hostOps1_5_sub) op hop)
  · exact Pipeline.sub_ucRefs op ((List.forall_iff_forall_mem.mp hostOps1_6_sub) op hop)
/-- They allocate nothing. -/
theorem sfx_fresh : ∀ ops ∈ (sfx : List (List (HloOp τ sig (Elt F)))), ∀ op ∈ ops, op.fresh = ∅ := by
  intro ops hops op hop
  simp only [sfx, List.mem_cons, List.mem_nil_iff, or_false] at hops
  rcases hops with rfl | rfl | rfl | rfl | rfl | rfl | rfl
  · exact (List.forall_iff_forall_mem.mp hostOps1_fresh) op hop
  · exact (List.forall_iff_forall_mem.mp hostOps1_1_fresh) op hop
  · exact (List.forall_iff_forall_mem.mp hostOps1_2_fresh) op hop
  · exact (List.forall_iff_forall_mem.mp hostOps1_3_fresh) op hop
  · exact (List.forall_iff_forall_mem.mp hostOps1_4_fresh) op hop
  · exact (List.forall_iff_forall_mem.mp hostOps1_5_fresh) op hop
  · exact (List.forall_iff_forall_mem.mp hostOps1_6_fresh) op hop

/-- A buffer that is the result of none of the operations after the region is written by none of them: each
    operation writes its own result buffer only, and the inequality of two literal references is decided. -/
local macro "tail_keeps" : tactic => `(tactic| (
  refine List.forall_iff_forall_mem.mp ?_
  simp only [sfx, hostOps1, hostOps1_1, hostOps1_2, hostOps1_3, hostOps1_4, hostOps1_5, hostOps1_6, List.flatten_cons, List.flatten_nil, List.append_nil, List.cons_append,
    List.nil_append, List.Forall, StableHlo.TRef.unary, StableHlo.TRef.ternary, StableHlo.nullary_writes, StableHlo.unary_writes, StableHlo.binary_writes, StableHlo.ternary_writes, StableHlo.quaternary_writes, StableHlo.reshape_writes, StableHlo.binaryIndexed_writes, Finset.mem_singleton]
  repeat' apply And.intro
  all_goals exact StableHlo.devRef_ne_of_ne (by decide)))

/-- The same for the operations before the region. -/
local macro "head_keeps" : tactic => `(tactic| (
  refine List.forall_iff_forall_mem.mp ?_
  simp only [hostOps0, List.flatten_cons, List.flatten_nil, List.append_nil, List.cons_append,
    List.nil_append, List.Forall, StableHlo.TRef.unary, StableHlo.TRef.ternary, StableHlo.nullary_writes, StableHlo.unary_writes, StableHlo.binary_writes, StableHlo.ternary_writes, StableHlo.quaternary_writes, StableHlo.reshape_writes, StableHlo.binaryIndexed_writes, Finset.mem_singleton]
  repeat' apply And.intro
  all_goals exact StableHlo.devRef_ne_of_ne (by decide)))

theorem tail_keeps_v6 : ∀ op ∈ (sfx : List (List (HloOp τ sig (Elt F)))).flatten, Proc.devRef .tc main_v6 ∉ op.writes := by tail_keeps
theorem tail_keeps_v7 : ∀ op ∈ (sfx : List (List (HloOp τ sig (Elt F)))).flatten, Proc.devRef .tc main_v7 ∉ op.writes := by tail_keeps
theorem tail_keeps_main_arg0 : ∀ op ∈ (sfx : List (List (HloOp τ sig (Elt F)))).flatten, Proc.devRef .tc main_arg0 ∉ op.writes := by tail_keeps
theorem head_keeps_main_arg0 : ∀ op ∈ (List.flatten [hostOps0] : List (HloOp τ sig (Elt F))), Proc.devRef .tc main_arg0 ∉ op.writes := by head_keeps
theorem tail_keeps_main_arg1 : ∀ op ∈ (sfx : List (List (HloOp τ sig (Elt F)))).flatten, Proc.devRef .tc main_arg1 ∉ op.writes := by tail_keeps
theorem head_keeps_main_arg1 : ∀ op ∈ (List.flatten [hostOps0] : List (HloOp τ sig (Elt F))), Proc.devRef .tc main_arg1 ∉ op.writes := by head_keeps
theorem tail_keeps_main_arg2 : ∀ op ∈ (sfx : List (List (HloOp τ sig (Elt F)))).flatten, Proc.devRef .tc main_arg2 ∉ op.writes := by tail_keeps
theorem head_keeps_main_arg2 : ∀ op ∈ (List.flatten [hostOps0] : List (HloOp τ sig (Elt F))), Proc.devRef .tc main_arg2 ∉ op.writes := by head_keeps
theorem tail_keeps_main_arg3 : ∀ op ∈ (sfx : List (List (HloOp τ sig (Elt F)))).flatten, Proc.devRef .tc main_arg3 ∉ op.writes := by tail_keeps
theorem head_keeps_main_arg3 : ∀ op ∈ (List.flatten [hostOps0] : List (HloOp τ sig (Elt F))), Proc.devRef .tc main_arg3 ∉ op.writes := by head_keeps
theorem tail_keeps_main_arg4 : ∀ op ∈ (sfx : List (List (HloOp τ sig (Elt F)))).flatten, Proc.devRef .tc main_arg4 ∉ op.writes := by tail_keeps
theorem head_keeps_main_arg4 : ∀ op ∈ (List.flatten [hostOps0] : List (HloOp τ sig (Elt F))), Proc.devRef .tc main_arg4 ∉ op.writes := by head_keeps
theorem tail_keeps_main_arg5 : ∀ op ∈ (sfx : List (List (HloOp τ sig (Elt F)))).flatten, Proc.devRef .tc main_arg5 ∉ op.writes := by tail_keeps
theorem head_keeps_main_arg5 : ∀ op ∈ (List.flatten [hostOps0] : List (HloOp τ sig (Elt F))), Proc.devRef .tc main_arg5 ∉ op.writes := by head_keeps
theorem tail_keeps_main_arg6 : ∀ op ∈ (sfx : List (List (HloOp τ sig (Elt F)))).flatten, Proc.devRef .tc main_arg6 ∉ op.writes := by tail_keeps
theorem head_keeps_main_arg6 : ∀ op ∈ (List.flatten [hostOps0] : List (HloOp τ sig (Elt F))), Proc.devRef .tc main_arg6 ∉ op.writes := by head_keeps
theorem tail_keeps_main_arg7 : ∀ op ∈ (sfx : List (List (HloOp τ sig (Elt F)))).flatten, Proc.devRef .tc main_arg7 ∉ op.writes := by tail_keeps
theorem head_keeps_main_arg7 : ∀ op ∈ (List.flatten [hostOps0] : List (HloOp τ sig (Elt F))), Proc.devRef .tc main_arg7 ∉ op.writes := by head_keeps

/-- The operations after the region write no array of the pipeline. -/
theorem sfx_keeps : ∀ ops ∈ (sfx : List (List (HloOp τ sig (Elt F)))), ∀ op ∈ ops,
    ∀ w, Proc.devRef .tc (Pipeline.arrRef spec0 w) ∉ op.writes := by
  intro ops hops op hop w
  have hmem : op ∈ (sfx : List (List (HloOp τ sig (Elt F)))).flatten := List.mem_flatten.mpr ⟨ops, hops, hop⟩
  fin_cases w
  · exact tail_keeps_v6 op hmem
  · exact tail_keeps_v7 op hmem

/-- No host operation before the region writes `main_arg0`: the region finds it as launched. -/
theorem V_main_arg0 (c : Dev nD) : V m c main_arg0 = m ((c : Thread nD τ).loc main_arg0) :=
  StableHlo.after_of_forall_not_mem (b := Proc.devRef .tc main_arg0) _ _ head_keeps_main_arg0
/-- No host operation after the region writes it either: it ends as launched. -/
theorem W_main_arg0 (dats : (p : Fin _) → (c : Dev nD) → Dat τ (Elt F) Unit ℕ (UR sig nD τ) ℕ (cfgs p) c) (c : Dev nD) :
    Pipeline.afterTail₀ cfgs dats 0 (V0 m) sfx c main_arg0 = m ((c : Thread nD τ).loc main_arg0) := by
  unfold Pipeline.afterTail₀
  rw [StableHlo.after_of_forall_not_mem (b := Proc.devRef .tc main_arg0) _ _ tail_keeps_main_arg0,
    Pipeline.withArrays_of_ne _ c (V0 m c) _ main_arg0 (by exact (by decide : ∀ w, Pipeline.arrRef spec0 w ≠ main_arg0))]
  exact V_main_arg0 m c
/-- No host operation before the region writes `main_arg1`: the region finds it as launched. -/
theorem V_main_arg1 (c : Dev nD) : V m c main_arg1 = m ((c : Thread nD τ).loc main_arg1) :=
  StableHlo.after_of_forall_not_mem (b := Proc.devRef .tc main_arg1) _ _ head_keeps_main_arg1
/-- No host operation after the region writes it either: it ends as launched. -/
theorem W_main_arg1 (dats : (p : Fin _) → (c : Dev nD) → Dat τ (Elt F) Unit ℕ (UR sig nD τ) ℕ (cfgs p) c) (c : Dev nD) :
    Pipeline.afterTail₀ cfgs dats 0 (V0 m) sfx c main_arg1 = m ((c : Thread nD τ).loc main_arg1) := by
  unfold Pipeline.afterTail₀
  rw [StableHlo.after_of_forall_not_mem (b := Proc.devRef .tc main_arg1) _ _ tail_keeps_main_arg1,
    Pipeline.withArrays_of_ne _ c (V0 m c) _ main_arg1 (by exact (by decide : ∀ w, Pipeline.arrRef spec0 w ≠ main_arg1))]
  exact V_main_arg1 m c
/-- No host operation before the region writes `main_arg2`: the region finds it as launched. -/
theorem V_main_arg2 (c : Dev nD) : V m c main_arg2 = m ((c : Thread nD τ).loc main_arg2) :=
  StableHlo.after_of_forall_not_mem (b := Proc.devRef .tc main_arg2) _ _ head_keeps_main_arg2
/-- No host operation after the region writes it either: it ends as launched. -/
theorem W_main_arg2 (dats : (p : Fin _) → (c : Dev nD) → Dat τ (Elt F) Unit ℕ (UR sig nD τ) ℕ (cfgs p) c) (c : Dev nD) :
    Pipeline.afterTail₀ cfgs dats 0 (V0 m) sfx c main_arg2 = m ((c : Thread nD τ).loc main_arg2) := by
  unfold Pipeline.afterTail₀
  rw [StableHlo.after_of_forall_not_mem (b := Proc.devRef .tc main_arg2) _ _ tail_keeps_main_arg2,
    Pipeline.withArrays_of_ne _ c (V0 m c) _ main_arg2 (by exact (by decide : ∀ w, Pipeline.arrRef spec0 w ≠ main_arg2))]
  exact V_main_arg2 m c
/-- No host operation before the region writes `main_arg3`: the region finds it as launched. -/
theorem V_main_arg3 (c : Dev nD) : V m c main_arg3 = m ((c : Thread nD τ).loc main_arg3) :=
  StableHlo.after_of_forall_not_mem (b := Proc.devRef .tc main_arg3) _ _ head_keeps_main_arg3
/-- No host operation after the region writes it either: it ends as launched. -/
theorem W_main_arg3 (dats : (p : Fin _) → (c : Dev nD) → Dat τ (Elt F) Unit ℕ (UR sig nD τ) ℕ (cfgs p) c) (c : Dev nD) :
    Pipeline.afterTail₀ cfgs dats 0 (V0 m) sfx c main_arg3 = m ((c : Thread nD τ).loc main_arg3) := by
  unfold Pipeline.afterTail₀
  rw [StableHlo.after_of_forall_not_mem (b := Proc.devRef .tc main_arg3) _ _ tail_keeps_main_arg3,
    Pipeline.withArrays_of_ne _ c (V0 m c) _ main_arg3 (by exact (by decide : ∀ w, Pipeline.arrRef spec0 w ≠ main_arg3))]
  exact V_main_arg3 m c
/-- No host operation before the region writes `main_arg4`: the region finds it as launched. -/
theorem V_main_arg4 (c : Dev nD) : V m c main_arg4 = m ((c : Thread nD τ).loc main_arg4) :=
  StableHlo.after_of_forall_not_mem (b := Proc.devRef .tc main_arg4) _ _ head_keeps_main_arg4
/-- No host operation after the region writes it either: it ends as launched. -/
theorem W_main_arg4 (dats : (p : Fin _) → (c : Dev nD) → Dat τ (Elt F) Unit ℕ (UR sig nD τ) ℕ (cfgs p) c) (c : Dev nD) :
    Pipeline.afterTail₀ cfgs dats 0 (V0 m) sfx c main_arg4 = m ((c : Thread nD τ).loc main_arg4) := by
  unfold Pipeline.afterTail₀
  rw [StableHlo.after_of_forall_not_mem (b := Proc.devRef .tc main_arg4) _ _ tail_keeps_main_arg4,
    Pipeline.withArrays_of_ne _ c (V0 m c) _ main_arg4 (by exact (by decide : ∀ w, Pipeline.arrRef spec0 w ≠ main_arg4))]
  exact V_main_arg4 m c
/-- No host operation before the region writes `main_arg5`: the region finds it as launched. -/
theorem V_main_arg5 (c : Dev nD) : V m c main_arg5 = m ((c : Thread nD τ).loc main_arg5) :=
  StableHlo.after_of_forall_not_mem (b := Proc.devRef .tc main_arg5) _ _ head_keeps_main_arg5
/-- No host operation after the region writes it either: it ends as launched. -/
theorem W_main_arg5 (dats : (p : Fin _) → (c : Dev nD) → Dat τ (Elt F) Unit ℕ (UR sig nD τ) ℕ (cfgs p) c) (c : Dev nD) :
    Pipeline.afterTail₀ cfgs dats 0 (V0 m) sfx c main_arg5 = m ((c : Thread nD τ).loc main_arg5) := by
  unfold Pipeline.afterTail₀
  rw [StableHlo.after_of_forall_not_mem (b := Proc.devRef .tc main_arg5) _ _ tail_keeps_main_arg5,
    Pipeline.withArrays_of_ne _ c (V0 m c) _ main_arg5 (by exact (by decide : ∀ w, Pipeline.arrRef spec0 w ≠ main_arg5))]
  exact V_main_arg5 m c
/-- No host operation before the region writes `main_arg6`: the region finds it as launched. -/
theorem V_main_arg6 (c : Dev nD) : V m c main_arg6 = m ((c : Thread nD τ).loc main_arg6) :=
  StableHlo.after_of_forall_not_mem (b := Proc.devRef .tc main_arg6) _ _ head_keeps_main_arg6
/-- No host operation after the region writes it either: it ends as launched. -/
theorem W_main_arg6 (dats : (p : Fin _) → (c : Dev nD) → Dat τ (Elt F) Unit ℕ (UR sig nD τ) ℕ (cfgs p) c) (c : Dev nD) :
    Pipeline.afterTail₀ cfgs dats 0 (V0 m) sfx c main_arg6 = m ((c : Thread nD τ).loc main_arg6) := by
  unfold Pipeline.afterTail₀
  rw [StableHlo.after_of_forall_not_mem (b := Proc.devRef .tc main_arg6) _ _ tail_keeps_main_arg6,
    Pipeline.withArrays_of_ne _ c (V0 m c) _ main_arg6 (by exact (by decide : ∀ w, Pipeline.arrRef spec0 w ≠ main_arg6))]
  exact V_main_arg6 m c
/-- No host operation before the region writes `main_arg7`: the region finds it as launched. -/
theorem V_main_arg7 (c : Dev nD) : V m c main_arg7 = m ((c : Thread nD τ).loc main_arg7) :=
  StableHlo.after_of_forall_not_mem (b := Proc.devRef .tc main_arg7) _ _ head_keeps_main_arg7
/-- No host operation after the region writes it either: it ends as launched. -/
theorem W_main_arg7 (dats : (p : Fin _) → (c : Dev nD) → Dat τ (Elt F) Unit ℕ (UR sig nD τ) ℕ (cfgs p) c) (c : Dev nD) :
    Pipeline.afterTail₀ cfgs dats 0 (V0 m) sfx c main_arg7 = m ((c : Thread nD τ).loc main_arg7) := by
  unfold Pipeline.afterTail₀
  rw [StableHlo.after_of_forall_not_mem (b := Proc.devRef .tc main_arg7) _ _ tail_keeps_main_arg7,
    Pipeline.withArrays_of_ne _ c (V0 m c) _ main_arg7 (by exact (by decide : ∀ w, Pipeline.arrRef spec0 w ≠ main_arg7))]
  exact V_main_arg7 m c

/-! ## The windows' blocks -/

/-- Window `w`'s block at point `t`, read off its array as the region finds it. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-- The input window's current staging buffer holds its block at every point, for any proof data whose array is the
    region-entry contents and whose body leaves the block in place. -/
theorem before0_0_of {c : Dev nD} (dat : Dat τ (Elt F) Unit ℕ (UR sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)

/-! ## The frame claim's post from the frame run's -/

/-- The frame from a frame run: no argument is an array of the pipeline, so each ends at what the later operations
    leave in it, which is what was launched. -/
theorem frame_of (dats : (p : Fin 1) → (c : Dev nD) → Dat τ (Elt F) Unit ℕ (UR sig nD τ) ℕ (cfgs p) c)
    (h : θ_run defs (onTc (τ := τ) (main (F := F))) (s₀ m ρ) (Pipeline.FramePost cfgs dats 0 (Pipeline.afterTail₀ cfgs dats 0 (V0 m) sfx))) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)) :=
  (θ_run defs _ _).mono (fun _ h c => ⟨((h c).2 main_arg0 (Pipeline.mem_restRefs_of main_arg0 (by decide) (by decide))).trans (W_main_arg0 m dats c),
    ((h c).2 main_arg1 (Pipeline.mem_restRefs_of main_arg1 (by decide) (by decide))).trans (W_main_arg1 m dats c),
    ((h c).2 main_arg2 (Pipeline.mem_restRefs_of main_arg2 (by decide) (by decide))).trans (W_main_arg2 m dats c),
    ((h c).2 main_arg3 (Pipeline.mem_restRefs_of main_arg3 (by decide) (by decide))).trans (W_main_arg3 m dats c),
    ((h c).2 main_arg4 (Pipeline.mem_restRefs_of main_arg4 (by decide) (by decide))).trans (W_main_arg4 m dats c),
    ((h c).2 main_arg5 (Pipeline.mem_restRefs_of main_arg5 (by decide) (by decide))).trans (W_main_arg5 m dats c),
    ((h c).2 main_arg6 (Pipeline.mem_restRefs_of main_arg6 (by decide) (by decide))).trans (W_main_arg6 m dats c),
    ((h c).2 main_arg7 (Pipeline.mem_restRefs_of main_arg7 (by decide) (by decide))).trans (W_main_arg7 m dats c)⟩) h

/-! ## The body's branch conditions -/

/-- The first branch of the body is taken where the reduction coordinate is 0: the first tile of a row block. -/
abbrev cond0_0 (i : grid0.Coords) : Prop := (Scalar.cmpi .ne (Scalar.extui (Scalar.cmpi .eq (BitVec.ofNat 32 (i 1).val) 0#32)) 0#32) = 1#1
theorem hcond0_0 : ∀ t : Fin cfg0.N, cond0_0 (grid0.coords t) ↔ t.val % 5 = 0 :=
  (by decide +kernel : ∀ t : Fin grid0.N, cond0_0 (grid0.coords t) ↔ t.val % 5 = 0)

/-- The second branch is taken where the reduction coordinate is 4: the last tile of a row block. -/
abbrev cond0_1 (i : grid0.Coords) : Prop := k0_cond2 i = 1#1
theorem hcond0_1 : ∀ t : Fin cfg0.N, cond0_1 (grid0.coords t) ↔ t.val % 5 = 4 :=
  (by decide +kernel : ∀ t : Fin grid0.N, cond0_1 (grid0.coords t) ↔ t.val % 5 = 4)

/-! ## Where the windows are idle -/

theorem liveAt0_0 : ∀ t : Fin cfg0.N, cfg0.idle 0 (grid0.coords t) = false := by decide +kernel
/-- Off the last tile the body stores nothing into the output window, and the pipeline does not write it back. -/
theorem idleAt0_1 : ∀ t : Fin cfg0.N, ¬cond0_1 (grid0.coords t) → cfg0.idle 1 (grid0.coords t) = true := by decide +kernel
theorem noFlush0_1 : ∀ t : Fin cfg0.N, ¬cond0_1 (grid0.coords t) → (cfg0.win 1).flush t = false := by decide +kernel
/-- On the last tile the body stores the whole output block. -/
theorem liveAt0_1 : ∀ t : Fin cfg0.N, cond0_1 (grid0.coords t) → cfg0.idle 1 (grid0.coords t) = false := by decide +kernel

/-! ## The memrefs the body is called with -/

/-- One staging buffer of the output window, through which its contents are stated. -/
abbrev VO0_1 : View sig .tc .vmem S256x1 .f32 := (Memref.whole cc0_stg1_0 : Memref sig .tc .vmem S256x1 .f32).view
abbrev ms0_0 (t : Fin cfg0.N) : Memref sig .tc .vmem S256x6400 .f32 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S256x1 .f32 := win0_1.stage (cfg0.slots t 1)
abbrev hs0_1 (t : Fin cfg0.N) : (ms0_1 t).IsWhole := hstage0_1 ((cfg0.slots t 1).cast nbuf0_1)
/-- The two scratch operands (the running maximum and the running denominator): whole scoped buffers. -/
abbrev scM0_0 : Memref sig .tc .vmem S256x1 .f32 := Memref.whole cc0_scratch0
abbrev scM0_1 : Memref sig .tc .vmem S256x1 .f32 := Memref.whole cc0_scratch1
abbrev VS0_0 : View sig .tc .vmem S256x1 .f32 := scM0_0.view
abbrev VS0_1 : View sig .tc .vmem S256x1 .f32 := scM0_1.view

/-- The region's invariant with the scratch operands as memrefs owned at some contents. -/
theorem PhiA0_eq (c : Dev nD) :
    (Pipeline.ΦA spec0 c : sProp 𝕄)
      = iprop(iprop((∃ d, owns (c : Thread nD τ) scM0_0 fullShare d) ∗ (∃ d, owns (c : Thread nD τ) scM0_1 fullShare d)) ∗ (∃ r, prngReg c r)) := by
  unfold Pipeline.ΦA; rw [scopedRest0_eq]; simp only [scM0_0, scM0_1, owns_whole]; try rfl

end Cert.Kernel.Frame

end
-- ==== Proof.K.RunA.lean ====
/-
  The body on the first tile of a row block (first branch taken, second not): both scratch buffers, whatever they held, are overwritten whole — first with −∞ and 0, then with the tile's running maximum and denominator —, the input block is left as it was and the output buffer untouched.
  The lists of pieces are what the body's stores leave in each buffer, last store first.
-/
import proofs.«163289_j51866025067153_2_alg».proof.Proof.K.FrameKit

set_option maxRecDepth 16384

noncomputable section

namespace Cert.Kernel.Frame

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 1000000 in
noncomputable def kernelRun0_A (c : Dev nD) (i : grid0.Coords) (arg2 : Memref sig .tc .vmem S256x6400 .f32) (harg2 : arg2.IsWhole) (arg3 : Memref sig .tc .vmem S256x1 .f32) (harg3 : arg3.IsWhole) (arg4 : Memref sig .tc .vmem S256x1 .f32) (harg4 : arg4.IsWhole) (arg5 : Memref sig .tc .vmem S256x1 .f32) (harg5 : arg5.IsWhole) (hc0 : cond0_0 i) (hc1 : ¬cond0_1 i)
    (x0 : Vec F S256x6400 .f32) :
    Σ' (L1 : List (View.Piece (Elt F) S256x1 .f32)), Σ' (LS0 : List (View.Piece (Elt F) S256x1 .f32)), { LS1 : List (View.Piece (Elt F) S256x1 .f32) //
      ∀ (xi1 : Vec F S256x1 .f32) (E : Set ℕ) (K : PUnit → sProp 𝕄),
        iprop(owns (c : Thread nD τ) arg2 fullShare x0 ∗ owns (c : Thread nD τ) arg3 fullShare xi1 ∗ (∃ d, owns (c : Thread nD τ) arg4 fullShare d) ∗ (∃ d, owns (c : Thread nD τ) arg5 fullShare d)
            ∗ (iprop(owns (c : Thread nD τ) arg2 fullShare x0 ∗ owns (c : Thread nD τ) arg3 fullShare xi1 ∗ (∃ f, arg4.view.loc (c : Thread nD τ) ↦[arg4.view.set]{fullShare} arg4.view.writes (Elt F) f LS0) ∗ (∃ f, arg5.view.loc (c : Thread nD τ) ↦[arg5.view.set]{fullShare} arg5.view.writes (Elt F) f LS1)) -∗ K ⟨⟩))
          ⊢ wp frame (wpE (defs₀ (F := F)) Variants.none c none) E (cc0__token_confidence_kernel i arg2 harg2 arg3 harg3 arg4 harg4 arg5 harg5) K } := by
  refine ⟨[], ?_, ?_, fun xi1 E K => ?run⟩
  case run =>
    simp only [cc0__token_confidence_kernel_eq_skeleton]; unfold cc0__token_confidence_kernel_skel
    unfold owns
    iintro ⟨⟨%f0, %hf0, H0⟩, ⟨%f1, %hf1, H1⟩, ⟨%ds0, %fs0, -, HS0⟩, ⟨%ds1, %fs1, -, HS1⟩, Hk⟩
    obtain rfl := harg2.eq_unread hf0; obtain rfl := harg3.eq_unread hf1
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [HS0]
    · iexists _; iexact HS0
    iexists _; iexact HS1

end Cert.Kernel.Frame

end
-- ==== Proof.K.RunB.lean ====
/-
  The body on a middle tile (neither branch taken): the scratch buffers, found at what the tile before left, are overwritten whole with the new running maximum and denominator; the input block is left as it was and the output buffer untouched.
  The lists of pieces are what the body's stores leave in each buffer, last store first.
-/
import proofs.«163289_j51866025067153_2_alg».proof.Proof.K.RunA

set_option maxRecDepth 16384

noncomputable section

namespace Cert.Kernel.Frame

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 1000000 in
noncomputable def kernelRun0_B (c : Dev nD) (i : grid0.Coords) (arg2 : Memref sig .tc .vmem S256x6400 .f32) (harg2 : arg2.IsWhole) (arg3 : Memref sig .tc .vmem S256x1 .f32) (harg3 : arg3.IsWhole) (arg4 : Memref sig .tc .vmem S256x1 .f32) (harg4 : arg4.IsWhole) (arg5 : Memref sig .tc .vmem S256x1 .f32) (harg5 : arg5.IsWhole) (hc0 : ¬cond0_0 i) (hc1 : ¬cond0_1 i)
    (x0 : Vec F S256x6400 .f32) (xs0 xs1 : Vec F S256x1 .f32) :
    Σ' (L1 : List (View.Piece (Elt F) S256x1 .f32)), Σ' (LS0 : List (View.Piece (Elt F) S256x1 .f32)), { LS1 : List (View.Piece (Elt F) S256x1 .f32) //
      ∀ (xi1 : Vec F S256x1 .f32) (E : Set ℕ) (K : PUnit → sProp 𝕄),
        iprop(owns (c : Thread nD τ) arg2 fullShare x0 ∗ owns (c : Thread nD τ) arg3 fullShare xi1 ∗ owns (c : Thread nD τ) arg4 fullShare xs0 ∗ owns (c : Thread nD τ) arg5 fullShare xs1
            ∗ (iprop(owns (c : Thread nD τ) arg2 fullShare x0 ∗ owns (c : Thread nD τ) arg3 fullShare xi1 ∗ (∃ f, arg4.view.loc (c : Thread nD τ) ↦[arg4.view.set]{fullShare} arg4.view.writes (Elt F) f LS0) ∗ (∃ f, arg5.view.loc (c : Thread nD τ) ↦[arg5.view.set]{fullShare} arg5.view.writes (Elt F) f LS1)) -∗ K ⟨⟩))
          ⊢ wp frame (wpE (defs₀ (F := F)) Variants.none c none) E (cc0__token_confidence_kernel i arg2 harg2 arg3 harg3 arg4 harg4 arg5 harg5) K } := by
  refine ⟨[], ?_, ?_, fun xi1 E K => ?run⟩
  case run =>
    simp only [cc0__token_confidence_kernel_eq_skeleton]; unfold cc0__token_confidence_kernel_skel
    unfold owns
    iintro ⟨⟨%f0, %hf0, H0⟩, ⟨%f1, %hf1, H1⟩, ⟨%fs0, %hfs0, HS0⟩, ⟨%fs1, %hfs1, HS1⟩, Hk⟩
    obtain rfl := harg2.eq_unread hf0; obtain rfl := harg3.eq_unread hf1; obtain rfl := harg4.eq_unread hfs0; obtain rfl := harg5.eq_unread hfs1
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [HS0]
    · iexists _; iexact HS0
    iexists _; iexact HS1

end Cert.Kernel.Frame

end
-- ==== Proof.K.RunC.lean ====
/-
  The body on the last tile of a row block (second branch taken, first not): as on a middle tile, and then the new denominator is copied whole into the output buffer, whatever that held.
  The lists of pieces are what the body's stores leave in each buffer, last store first.
-/
import proofs.«163289_j51866025067153_2_alg».proof.Proof.K.RunB

set_option maxRecDepth 16384

noncomputable section

namespace Cert.Kernel.Frame

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 1000000 in
noncomputable def kernelRun0_C (c : Dev nD) (i : grid0.Coords) (arg2 : Memref sig .tc .vmem S256x6400 .f32) (harg2 : arg2.IsWhole) (arg3 : Memref sig .tc .vmem S256x1 .f32) (harg3 : arg3.IsWhole) (arg4 : Memref sig .tc .vmem S256x1 .f32) (harg4 : arg4.IsWhole) (arg5 : Memref sig .tc .vmem S256x1 .f32) (harg5 : arg5.IsWhole) (hc0 : ¬cond0_0 i) (hc1 : cond0_1 i)
    (x0 : Vec F S256x6400 .f32) (xs0 xs1 : Vec F S256x1 .f32) :
    Σ' (L1 : List (View.Piece (Elt F) S256x1 .f32)), Σ' (LS0 : List (View.Piece (Elt F) S256x1 .f32)), { LS1 : List (View.Piece (Elt F) S256x1 .f32) //
      ∀ (E : Set ℕ) (K : PUnit → sProp 𝕄),
        iprop(owns (c : Thread nD τ) arg2 fullShare x0 ∗ (∃ d, owns (c : Thread nD τ) arg3 fullShare d) ∗ owns (c : Thread nD τ) arg4 fullShare xs0 ∗ owns (c : Thread nD τ) arg5 fullShare xs1
            ∗ (iprop(owns (c : Thread nD τ) arg2 fullShare x0 ∗ (∃ f, arg3.view.loc (c : Thread nD τ) ↦[arg3.view.set]{fullShare} arg3.view.writes (Elt F) f L1) ∗ (∃ f, arg4.view.loc (c : Thread nD τ) ↦[arg4.view.set]{fullShare} arg4.view.writes (Elt F) f LS0) ∗ (∃ f, arg5.view.loc (c : Thread nD τ) ↦[arg5.view.set]{fullShare} arg5.view.writes (Elt F) f LS1)) -∗ K ⟨⟩))
          ⊢ wp frame (wpE (defs₀ (F := F)) Variants.none c none) E (cc0__token_confidence_kernel i arg2 harg2 arg3 harg3 arg4 harg4 arg5 harg5) K } := by
  refine ⟨?_, ?_, ?_, fun E K => ?run⟩
  case run =>
    simp only [cc0__token_confidence_kernel_eq_skeleton]; unfold cc0__token_confidence_kernel_skel
    unfold owns
    iintro ⟨⟨%f0, %hf0, H0⟩, ⟨%d1, %f1, -, H1⟩, ⟨%fs0, %hfs0, HS0⟩, ⟨%fs1, %hfs1, HS1⟩, Hk⟩
    obtain rfl := harg2.eq_unread hf0; obtain rfl := harg4.eq_unread hfs0; obtain rfl := harg5.eq_unread hfs1
    sl_exec (disch := first | exact hc0 | exact hc1)
    sl_step
    iapply Hk
    isplitl [H0]
    · iexists _; isplitr; · ipureintro; exact harg2.read_unread _
      iexact H0
    isplitl [H1]; · iexists _; iexact H1
    isplitl [HS0]
    · iexists _; iexact HS0
    iexists _; iexact HS1

end Cert.Kernel.Frame

end
-- ==== Proof.K.Frame.lean ====
/-
  The kernel program's frame: every weakly fair execution of @main terminates without a fault and leaves the arguments
  as launched. The pallas_call walks a 4 x 5 grid; along the second axis the body carries two scratch columns (the
  running maximum and the running denominator of a row block) from one tile to the next, resets them on the first tile
  and copies the denominator to the output block on the last. What the output buffer and the two scratch buffers hold
  after each grid point is defined by recursion on the point; the region's invariant before a point holds the scratch
  buffers at what the point before left (anything, before the first point); the body's run in each of its three cases
  then gives the body obligation at every point, and the library's launch theorem the run of @main.
-/
import proofs.«163289_j51866025067153_2_alg».proof.Proof.K.RunC

set_option maxRecDepth 16384

noncomputable section

namespace Cert.Kernel.Frame

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- What case A leaves in the output buffer (nothing is stored there: a placeholder nothing consults): its pieces read back. -/
def out0_A_1 (c : Dev nD) (i : grid0.Coords) (arg2 : Memref sig .tc .vmem S256x6400 .f32) (harg2 : arg2.IsWhole) (arg3 : Memref sig .tc .vmem S256x1 .f32) (harg3 : arg3.IsWhole) (arg4 : Memref sig .tc .vmem S256x1 .f32) (harg4 : arg4.IsWhole) (arg5 : Memref sig .tc .vmem S256x1 .f32) (harg5 : arg5.IsWhole) (hc0 : cond0_0 i) (hc1 : ¬cond0_1 i)
    (x0 : Vec F S256x6400 .f32) : Vec F S256x1 .f32 :=
  VO0_1.read (Elt F) (VO0_1.writes (Elt F) VO0_1.junk (kernelRun0_A c i arg2 harg2 arg3 harg3 arg4 harg4 arg5 harg5 hc0 hc1 x0).1)

/-- Case A's stores into scratch 0 cover it. -/
theorem scover0_A_0 (c : Dev nD) (i : grid0.Coords) (arg2 : Memref sig .tc .vmem S256x6400 .f32) (harg2 : arg2.IsWhole) (arg3 : Memref sig .tc .vmem S256x1 .f32) (harg3 : arg3.IsWhole) (arg4 : Memref sig .tc .vmem S256x1 .f32) (harg4 : arg4.IsWhole) (arg5 : Memref sig .tc .vmem S256x1 .f32) (harg5 : arg5.IsWhole) (hc0 : cond0_0 i) (hc1 : ¬cond0_1 i)
    (x0 : Vec F S256x6400 .f32) (y : S256x1.Idx) :
    ∃ pc ∈ (kernelRun0_A c i arg2 harg2 arg3 harg3 arg4 harg4 arg5 harg5 hc0 hc1 x0).2.1, y ∈ pc.1.set :=
  View.cover_of_tiledL (kernelRun0_A c i arg2 harg2 arg3 harg3 arg4 harg4 arg5 harg5 hc0 hc1 x0).2.1 S256x1.size (by sl_kernel_rfl) y

/-- What case A leaves in scratch 0: its pieces read back. -/
def sout0_A_0 (c : Dev nD) (i : grid0.Coords) (arg2 : Memref sig .tc .vmem S256x6400 .f32) (harg2 : arg2.IsWhole) (arg3 : Memref sig .tc .vmem S256x1 .f32) (harg3 : arg3.IsWhole) (arg4 : Memref sig .tc .vmem S256x1 .f32) (harg4 : arg4.IsWhole) (arg5 : Memref sig .tc .vmem S256x1 .f32) (harg5 : arg5.IsWhole) (hc0 : cond0_0 i) (hc1 : ¬cond0_1 i)
    (x0 : Vec F S256x6400 .f32) : Vec F S256x1 .f32 :=
  VS0_0.read (Elt F) (VS0_0.writes (Elt F) VS0_0.junk (kernelRun0_A c i arg2 harg2 arg3 harg3 arg4 harg4 arg5 harg5 hc0 hc1 x0).2.1)

/-- Case A's stores into scratch 1 cover it. -/
theorem scover0_A_1 (c : Dev nD) (i : grid0.Coords) (arg2 : Memref sig .tc .vmem S256x6400 .f32) (harg2 : arg2.IsWhole) (arg3 : Memref sig .tc .vmem S256x1 .f32) (harg3 : arg3.IsWhole) (arg4 : Memref sig .tc .vmem S256x1 .f32) (harg4 : arg4.IsWhole) (arg5 : Memref sig .tc .vmem S256x1 .f32) (harg5 : arg5.IsWhole) (hc0 : cond0_0 i) (hc1 : ¬cond0_1 i)
    (x0 : Vec F S256x6400 .f32) (y : S256x1.Idx) :
    ∃ pc ∈ (kernelRun0_A c i arg2 harg2 arg3 harg3 arg4 harg4 arg5 harg5 hc0 hc1 x0).2.2.1, y ∈ pc.1.set :=
  View.cover_of_tiledL (kernelRun0_A c i arg2 harg2 arg3 harg3 arg4 harg4 arg5 harg5 hc0 hc1 x0).2.2.1 S256x1.size (by sl_kernel_rfl) y

/-- What case A leaves in scratch 1: its pieces read back. -/
def sout0_A_1 (c : Dev nD) (i : grid0.Coords) (arg2 : Memref sig .tc .vmem S256x6400 .f32) (harg2 : arg2.IsWhole) (arg3 : Memref sig .tc .vmem S256x1 .f32) (harg3 : arg3.IsWhole) (arg4 : Memref sig .tc .vmem S256x1 .f32) (harg4 : arg4.IsWhole) (arg5 : Memref sig .tc .vmem S256x1 .f32) (harg5 : arg5.IsWhole) (hc0 : cond0_0 i) (hc1 : ¬cond0_1 i)
    (x0 : Vec F S256x6400 .f32) : Vec F S256x1 .f32 :=
  VS0_1.read (Elt F) (VS0_1.writes (Elt F) VS0_1.junk (kernelRun0_A c i arg2 harg2 arg3 harg3 arg4 harg4 arg5 harg5 hc0 hc1 x0).2.2.1)

/-- What case B leaves in the output buffer (nothing is stored there: a placeholder nothing consults): its pieces read back. -/
def out0_B_1 (c : Dev nD) (i : grid0.Coords) (arg2 : Memref sig .tc .vmem S256x6400 .f32) (harg2 : arg2.IsWhole) (arg3 : Memref sig .tc .vmem S256x1 .f32) (harg3 : arg3.IsWhole) (arg4 : Memref sig .tc .vmem S256x1 .f32) (harg4 : arg4.IsWhole) (arg5 : Memref sig .tc .vmem S256x1 .f32) (harg5 : arg5.IsWhole) (hc0 : ¬cond0_0 i) (hc1 : ¬cond0_1 i)
    (x0 : Vec F S256x6400 .f32) (xs0 xs1 : Vec F S256x1 .f32) : Vec F S256x1 .f32 :=
  VO0_1.read (Elt F) (VO0_1.writes (Elt F) VO0_1.junk (kernelRun0_B c i arg2 harg2 arg3 harg3 arg4 harg4 arg5 harg5 hc0 hc1 x0 xs0 xs1).1)

/-- Case B's stores into scratch 0 cover it. -/
theorem scover0_B_0 (c : Dev nD) (i : grid0.Coords) (arg2 : Memref sig .tc .vmem S256x6400 .f32) (harg2 : arg2.IsWhole) (arg3 : Memref sig .tc .vmem S256x1 .f32) (harg3 : arg3.IsWhole) (arg4 : Memref sig .tc .vmem S256x1 .f32) (harg4 : arg4.IsWhole) (arg5 : Memref sig .tc .vmem S256x1 .f32) (harg5 : arg5.IsWhole) (hc0 : ¬cond0_0 i) (hc1 : ¬cond0_1 i)
    (x0 : Vec F S256x6400 .f32) (xs0 xs1 : Vec F S256x1 .f32) (y : S256x1.Idx) :
    ∃ pc ∈ (kernelRun0_B c i arg2 harg2 arg3 harg3 arg4 harg4 arg5 harg5 hc0 hc1 x0 xs0 xs1).2.1, y ∈ pc.1.set :=
  View.cover_of_tiledL (kernelRun0_B c i arg2 harg2 arg3 harg3 arg4 harg4 arg5 harg5 hc0 hc1 x0 xs0 xs1).2.1 S256x1.size (by sl_kernel_rfl) y

/-- What case B leaves in scratch 0: its pieces read back. -/
def sout0_B_0 (c : Dev nD) (i : grid0.Coords) (arg2 : Memref sig .tc .vmem S256x6400 .f32) (harg2 : arg2.IsWhole) (arg3 : Memref sig .tc .vmem S256x1 .f32) (harg3 : arg3.IsWhole) (arg4 : Memref sig .tc .vmem S256x1 .f32) (harg4 : arg4.IsWhole) (arg5 : Memref sig .tc .vmem S256x1 .f32) (harg5 : arg5.IsWhole) (hc0 : ¬cond0_0 i) (hc1 : ¬cond0_1 i)
    (x0 : Vec F S256x6400 .f32) (xs0 xs1 : Vec F S256x1 .f32) : Vec F S256x1 .f32 :=
  VS0_0.read (Elt F) (VS0_0.writes (Elt F) VS0_0.junk (kernelRun0_B c i arg2 harg2 arg3 harg3 arg4 harg4 arg5 harg5 hc0 hc1 x0 xs0 xs1).2.1)

/-- Case B's stores into scratch 1 cover it. -/
theorem scover0_B_1 (c : Dev nD) (i : grid0.Coords) (arg2 : Memref sig .tc .vmem S256x6400 .f32) (harg2 : arg2.IsWhole) (arg3 : Memref sig .tc .vmem S256x1 .f32) (harg3 : arg3.IsWhole) (arg4 : Memref sig .tc .vmem S256x1 .f32) (harg4 : arg4.IsWhole) (arg5 : Memref sig .tc .vmem S256x1 .f32) (harg5 : arg5.IsWhole) (hc0 : ¬cond0_0 i) (hc1 : ¬cond0_1 i)
    (x0 : Vec F S256x6400 .f32) (xs0 xs1 : Vec F S256x1 .f32) (y : S256x1.Idx) :
    ∃ pc ∈ (kernelRun0_B c i arg2 harg2 arg3 harg3 arg4 harg4 arg5 harg5 hc0 hc1 x0 xs0 xs1).2.2.1, y ∈ pc.1.set :=
  View.cover_of_tiledL (kernelRun0_B c i arg2 harg2 arg3 harg3 arg4 harg4 arg5 harg5 hc0 hc1 x0 xs0 xs1).2.2.1 S256x1.size (by sl_kernel_rfl) y

/-- What case B leaves in scratch 1: its pieces read back. -/
def sout0_B_1 (c : Dev nD) (i : grid0.Coords) (arg2 : Memref sig .tc .vmem S256x6400 .f32) (harg2 : arg2.IsWhole) (arg3 : Memref sig .tc .vmem S256x1 .f32) (harg3 : arg3.IsWhole) (arg4 : Memref sig .tc .vmem S256x1 .f32) (harg4 : arg4.IsWhole) (arg5 : Memref sig .tc .vmem S256x1 .f32) (harg5 : arg5.IsWhole) (hc0 : ¬cond0_0 i) (hc1 : ¬cond0_1 i)
    (x0 : Vec F S256x6400 .f32) (xs0 xs1 : Vec F S256x1 .f32) : Vec F S256x1 .f32 :=
  VS0_1.read (Elt F) (VS0_1.writes (Elt F) VS0_1.junk (kernelRun0_B c i arg2 harg2 arg3 harg3 arg4 harg4 arg5 harg5 hc0 hc1 x0 xs0 xs1).2.2.1)

/-- On the last tile the body's one store into the output buffer covers it. -/
theorem cover0_C_1 (c : Dev nD) (i : grid0.Coords) (arg2 : Memref sig .tc .vmem S256x6400 .f32) (harg2 : arg2.IsWhole) (arg3 : Memref sig .tc .vmem S256x1 .f32) (harg3 : arg3.IsWhole) (arg4 : Memref sig .tc .vmem S256x1 .f32) (harg4 : arg4.IsWhole) (arg5 : Memref sig .tc .vmem S256x1 .f32) (harg5 : arg5.IsWhole) (hc0 : ¬cond0_0 i) (hc1 : cond0_1 i)
    (x0 : Vec F S256x6400 .f32) (xs0 xs1 : Vec F S256x1 .f32) (y : S256x1.Idx) :
    ∃ pc ∈ (kernelRun0_C c i arg2 harg2 arg3 harg3 arg4 harg4 arg5 harg5 hc0 hc1 x0 xs0 xs1).1, y ∈ pc.1.set :=
  View.cover_of_tiledL (kernelRun0_C c i arg2 harg2 arg3 harg3 arg4 harg4 arg5 harg5 hc0 hc1 x0 xs0 xs1).1 S256x1.size (by sl_kernel_rfl) y

/-- What case C leaves in the output buffer: its pieces read back. -/
def out0_C_1 (c : Dev nD) (i : grid0.Coords) (arg2 : Memref sig .tc .vmem S256x6400 .f32) (harg2 : arg2.IsWhole) (arg3 : Memref sig .tc .vmem S256x1 .f32) (harg3 : arg3.IsWhole) (arg4 : Memref sig .tc .vmem S256x1 .f32) (harg4 : arg4.IsWhole) (arg5 : Memref sig .tc .vmem S256x1 .f32) (harg5 : arg5.IsWhole) (hc0 : ¬cond0_0 i) (hc1 : cond0_1 i)
    (x0 : Vec F S256x6400 .f32) (xs0 xs1 : Vec F S256x1 .f32) : Vec F S256x1 .f32 :=
  VO0_1.read (Elt F) (VO0_1.writes (Elt F) VO0_1.junk (kernelRun0_C c i arg2 harg2 arg3 harg3 arg4 harg4 arg5 harg5 hc0 hc1 x0 xs0 xs1).1)

/-- Case C's stores into scratch 0 cover it. -/
theorem scover0_C_0 (c : Dev nD) (i : grid0.Coords) (arg2 : Memref sig .tc .vmem S256x6400 .f32) (harg2 : arg2.IsWhole) (arg3 : Memref sig .tc .vmem S256x1 .f32) (harg3 : arg3.IsWhole) (arg4 : Memref sig .tc .vmem S256x1 .f32) (harg4 : arg4.IsWhole) (arg5 : Memref sig .tc .vmem S256x1 .f32) (harg5 : arg5.IsWhole) (hc0 : ¬cond0_0 i) (hc1 : cond0_1 i)
    (x0 : Vec F S256x6400 .f32) (xs0 xs1 : Vec F S256x1 .f32) (y : S256x1.Idx) :
    ∃ pc ∈ (kernelRun0_C c i arg2 harg2 arg3 harg3 arg4 harg4 arg5 harg5 hc0 hc1 x0 xs0 xs1).2.1, y ∈ pc.1.set :=
  View.cover_of_tiledL (kernelRun0_C c i arg2 harg2 arg3 harg3 arg4 harg4 arg5 harg5 hc0 hc1 x0 xs0 xs1).2.1 S256x1.size (by sl_kernel_rfl) y

/-- What case C leaves in scratch 0: its pieces read back. -/
def sout0_C_0 (c : Dev nD) (i : grid0.Coords) (arg2 : Memref sig .tc .vmem S256x6400 .f32) (harg2 : arg2.IsWhole) (arg3 : Memref sig .tc .vmem S256x1 .f32) (harg3 : arg3.IsWhole) (arg4 : Memref sig .tc .vmem S256x1 .f32) (harg4 : arg4.IsWhole) (arg5 : Memref sig .tc .vmem S256x1 .f32) (harg5 : arg5.IsWhole) (hc0 : ¬cond0_0 i) (hc1 : cond0_1 i)
    (x0 : Vec F S256x6400 .f32) (xs0 xs1 : Vec F S256x1 .f32) : Vec F S256x1 .f32 :=
  VS0_0.read (Elt F) (VS0_0.writes (Elt F) VS0_0.junk (kernelRun0_C c i arg2 harg2 arg3 harg3 arg4 harg4 arg5 harg5 hc0 hc1 x0 xs0 xs1).2.1)

/-- Case C's stores into scratch 1 cover it. -/
theorem scover0_C_1 (c : Dev nD) (i : grid0.Coords) (arg2 : Memref sig .tc .vmem S256x6400 .f32) (harg2 : arg2.IsWhole) (arg3 : Memref sig .tc .vmem S256x1 .f32) (harg3 : arg3.IsWhole) (arg4 : Memref sig .tc .vmem S256x1 .f32) (harg4 : arg4.IsWhole) (arg5 : Memref sig .tc .vmem S256x1 .f32) (harg5 : arg5.IsWhole) (hc0 : ¬cond0_0 i) (hc1 : cond0_1 i)
    (x0 : Vec F S256x6400 .f32) (xs0 xs1 : Vec F S256x1 .f32) (y : S256x1.Idx) :
    ∃ pc ∈ (kernelRun0_C c i arg2 harg2 arg3 harg3 arg4 harg4 arg5 harg5 hc0 hc1 x0 xs0 xs1).2.2.1, y ∈ pc.1.set :=
  View.cover_of_tiledL (kernelRun0_C c i arg2 harg2 arg3 harg3 arg4 harg4 arg5 harg5 hc0 hc1 x0 xs0 xs1).2.2.1 S256x1.size (by sl_kernel_rfl) y

/-- What case C leaves in scratch 1: its pieces read back. -/
def sout0_C_1 (c : Dev nD) (i : grid0.Coords) (arg2 : Memref sig .tc .vmem S256x6400 .f32) (harg2 : arg2.IsWhole) (arg3 : Memref sig .tc .vmem S256x1 .f32) (harg3 : arg3.IsWhole) (arg4 : Memref sig .tc .vmem S256x1 .f32) (harg4 : arg4.IsWhole) (arg5 : Memref sig .tc .vmem S256x1 .f32) (harg5 : arg5.IsWhole) (hc0 : ¬cond0_0 i) (hc1 : cond0_1 i)
    (x0 : Vec F S256x6400 .f32) (xs0 xs1 : Vec F S256x1 .f32) : Vec F S256x1 .f32 :=
  VS0_1.read (Elt F) (VS0_1.writes (Elt F) VS0_1.junk (kernelRun0_C c i arg2 harg2 arg3 harg3 arg4 harg4 arg5 harg5 hc0 hc1 x0 xs0 xs1).2.2.1)

/-! ## What the buffers hold after each point -/

/-- After the body at position `n`: the output buffer, the running maximum, the running denominator. The case is the
    one the point's reduction coordinate selects; a middle or last tile starts from what the point before left. -/
def outsAt0 (c : Dev nD) : (n : ℕ) → n < cfg0.N → Vec F S256x1 .f32 × Vec F S256x1 .f32 × Vec F S256x1 .f32
  | 0, hn => (out0_A_1 c (grid0.coords ⟨0, hn⟩) (ms0_0 ⟨0, hn⟩) (hs0_0 ⟨0, hn⟩) (ms0_1 ⟨0, hn⟩) (hs0_1 ⟨0, hn⟩) scM0_0 (Memref.isWhole_whole _) scM0_1 (Memref.isWhole_whole _) ((hcond0_0 ⟨0, hn⟩).mpr (Nat.zero_mod _)) (fun h => (fun h => by (try dsimp only at h); omega) ((hcond0_1 ⟨0, hn⟩).mp h)) (iblk m c 0 ⟨0, hn⟩), sout0_A_0 c (grid0.coords ⟨0, hn⟩) (ms0_0 ⟨0, hn⟩) (hs0_0 ⟨0, hn⟩) (ms0_1 ⟨0, hn⟩) (hs0_1 ⟨0, hn⟩) scM0_0 (Memref.isWhole_whole _) scM0_1 (Memref.isWhole_whole _) ((hcond0_0 ⟨0, hn⟩).mpr (Nat.zero_mod _)) (fun h => (fun h => by (try dsimp only at h); omega) ((hcond0_1 ⟨0, hn⟩).mp h)) (iblk m c 0 ⟨0, hn⟩), sout0_A_1 c (grid0.coords ⟨0, hn⟩) (ms0_0 ⟨0, hn⟩) (hs0_0 ⟨0, hn⟩) (ms0_1 ⟨0, hn⟩) (hs0_1 ⟨0, hn⟩) scM0_0 (Memref.isWhole_whole _) scM0_1 (Memref.isWhole_whole _) ((hcond0_0 ⟨0, hn⟩).mpr (Nat.zero_mod _)) (fun h => (fun h => by (try dsimp only at h); omega) ((hcond0_1 ⟨0, hn⟩).mp h)) (iblk m c 0 ⟨0, hn⟩))
  | n + 1, hn =>
    if h0 : (n + 1) % 5 = 0 then
      if h1 : (n + 1) % 5 = 4 then
        False.elim (by omega)
      else
        (out0_A_1 c (grid0.coords ⟨n + 1, hn⟩) (ms0_0 ⟨n + 1, hn⟩) (hs0_0 ⟨n + 1, hn⟩) (ms0_1 ⟨n + 1, hn⟩) (hs0_1 ⟨n + 1, hn⟩) scM0_0 (Memref.isWhole_whole _) scM0_1 (Memref.isWhole_whole _) ((hcond0_0 ⟨n + 1, hn⟩).mpr h0) (fun h => h1 ((hcond0_1 ⟨n + 1, hn⟩).mp h)) (iblk m c 0 ⟨n + 1, hn⟩), sout0_A_0 c (grid0.coords ⟨n + 1, hn⟩) (ms0_0 ⟨n + 1, hn⟩) (hs0_0 ⟨n + 1, hn⟩) (ms0_1 ⟨n + 1, hn⟩) (hs0_1 ⟨n + 1, hn⟩) scM0_0 (Memref.isWhole_whole _) scM0_1 (Memref.isWhole_whole _) ((hcond0_0 ⟨n + 1, hn⟩).mpr h0) (fun h => h1 ((hcond0_1 ⟨n + 1, hn⟩).mp h)) (iblk m c 0 ⟨n + 1, hn⟩), sout0_A_1 c (grid0.coords ⟨n + 1, hn⟩) (ms0_0 ⟨n + 1, hn⟩) (hs0_0 ⟨n + 1, hn⟩) (ms0_1 ⟨n + 1, hn⟩) (hs0_1 ⟨n + 1, hn⟩) scM0_0 (Memref.isWhole_whole _) scM0_1 (Memref.isWhole_whole _) ((hcond0_0 ⟨n + 1, hn⟩).mpr h0) (fun h => h1 ((hcond0_1 ⟨n + 1, hn⟩).mp h)) (iblk m c 0 ⟨n + 1, hn⟩))
    else
      if h1 : (n + 1) % 5 = 4 then
        (out0_C_1 c (grid0.coords ⟨n + 1, hn⟩) (ms0_0 ⟨n + 1, hn⟩) (hs0_0 ⟨n + 1, hn⟩) (ms0_1 ⟨n + 1, hn⟩) (hs0_1 ⟨n + 1, hn⟩) scM0_0 (Memref.isWhole_whole _) scM0_1 (Memref.isWhole_whole _) (fun h => h0 ((hcond0_0 ⟨n + 1, hn⟩).mp h)) ((hcond0_1 ⟨n + 1, hn⟩).mpr h1) (iblk m c 0 ⟨n + 1, hn⟩) (outsAt0 c n (Nat.lt_of_succ_lt hn)).2.1 (outsAt0 c n (Nat.lt_of_succ_lt hn)).2.2, sout0_C_0 c (grid0.coords ⟨n + 1, hn⟩) (ms0_0 ⟨n + 1, hn⟩) (hs0_0 ⟨n + 1, hn⟩) (ms0_1 ⟨n + 1, hn⟩) (hs0_1 ⟨n + 1, hn⟩) scM0_0 (Memref.isWhole_whole _) scM0_1 (Memref.isWhole_whole _) (fun h => h0 ((hcond0_0 ⟨n + 1, hn⟩).mp h)) ((hcond0_1 ⟨n + 1, hn⟩).mpr h1) (iblk m c 0 ⟨n + 1, hn⟩) (outsAt0 c n (Nat.lt_of_succ_lt hn)).2.1 (outsAt0 c n (Nat.lt_of_succ_lt hn)).2.2, sout0_C_1 c (grid0.coords ⟨n + 1, hn⟩) (ms0_0 ⟨n + 1, hn⟩) (hs0_0 ⟨n + 1, hn⟩) (ms0_1 ⟨n + 1, hn⟩) (hs0_1 ⟨n + 1, hn⟩) scM0_0 (Memref.isWhole_whole _) scM0_1 (Memref.isWhole_whole _) (fun h => h0 ((hcond0_0 ⟨n + 1, hn⟩).mp h)) ((hcond0_1 ⟨n + 1, hn⟩).mpr h1) (iblk m c 0 ⟨n + 1, hn⟩) (outsAt0 c n (Nat.lt_of_succ_lt hn)).2.1 (outsAt0 c n (Nat.lt_of_succ_lt hn)).2.2)
      else
        (out0_B_1 c (grid0.coords ⟨n + 1, hn⟩) (ms0_0 ⟨n + 1, hn⟩) (hs0_0 ⟨n + 1, hn⟩) (ms0_1 ⟨n + 1, hn⟩) (hs0_1 ⟨n + 1, hn⟩) scM0_0 (Memref.isWhole_whole _) scM0_1 (Memref.isWhole_whole _) (fun h => h0 ((hcond0_0 ⟨n + 1, hn⟩).mp h)) (fun h => h1 ((hcond0_1 ⟨n + 1, hn⟩).mp h)) (iblk m c 0 ⟨n + 1, hn⟩) (outsAt0 c n (Nat.lt_of_succ_lt hn)).2.1 (outsAt0 c n (Nat.lt_of_succ_lt hn)).2.2, sout0_B_0 c (grid0.coords ⟨n + 1, hn⟩) (ms0_0 ⟨n + 1, hn⟩) (hs0_0 ⟨n + 1, hn⟩) (ms0_1 ⟨n + 1, hn⟩) (hs0_1 ⟨n + 1, hn⟩) scM0_0 (Memref.isWhole_whole _) scM0_1 (Memref.isWhole_whole _) (fun h => h0 ((hcond0_0 ⟨n + 1, hn⟩).mp h)) (fun h => h1 ((hcond0_1 ⟨n + 1, hn⟩).mp h)) (iblk m c 0 ⟨n + 1, hn⟩) (outsAt0 c n (Nat.lt_of_succ_lt hn)).2.1 (outsAt0 c n (Nat.lt_of_succ_lt hn)).2.2, sout0_B_1 c (grid0.coords ⟨n + 1, hn⟩) (ms0_0 ⟨n + 1, hn⟩) (hs0_0 ⟨n + 1, hn⟩) (ms0_1 ⟨n + 1, hn⟩) (hs0_1 ⟨n + 1, hn⟩) scM0_0 (Memref.isWhole_whole _) scM0_1 (Memref.isWhole_whole _) (fun h => h0 ((hcond0_0 ⟨n + 1, hn⟩).mp h)) (fun h => h1 ((hcond0_1 ⟨n + 1, hn⟩).mp h)) (iblk m c 0 ⟨n + 1, hn⟩) (outsAt0 c n (Nat.lt_of_succ_lt hn)).2.1 (outsAt0 c n (Nat.lt_of_succ_lt hn)).2.2)

theorem outsAt0_A (c : Dev nD) (t : Fin cfg0.N) (h0 : t.val % 5 = 0) (h1 : ¬t.val % 5 = 4) :
    outsAt0 m c t.val t.isLt = (out0_A_1 c (grid0.coords t) (ms0_0 t) (hs0_0 t) (ms0_1 t) (hs0_1 t) scM0_0 (Memref.isWhole_whole _) scM0_1 (Memref.isWhole_whole _) ((hcond0_0 t).mpr h0) (fun h => h1 ((hcond0_1 t).mp h)) (iblk m c 0 t), sout0_A_0 c (grid0.coords t) (ms0_0 t) (hs0_0 t) (ms0_1 t) (hs0_1 t) scM0_0 (Memref.isWhole_whole _) scM0_1 (Memref.isWhole_whole _) ((hcond0_0 t).mpr h0) (fun h => h1 ((hcond0_1 t).mp h)) (iblk m c 0 t), sout0_A_1 c (grid0.coords t) (ms0_0 t) (hs0_0 t) (ms0_1 t) (hs0_1 t) scM0_0 (Memref.isWhole_whole _) scM0_1 (Memref.isWhole_whole _) ((hcond0_0 t).mpr h0) (fun h => h1 ((hcond0_1 t).mp h)) (iblk m c 0 t)) := by
  obtain ⟨n, hn⟩ := t
  cases n with
  | zero => exact rfl
  | succ n => exact (dif_pos h0).trans ((dif_neg h1).trans rfl)

theorem outsAt0_B (c : Dev nD) (t : Fin cfg0.N) (h0 : ¬t.val % 5 = 0) (h1 : ¬t.val % 5 = 4) :
    outsAt0 m c t.val t.isLt = (out0_B_1 c (grid0.coords t) (ms0_0 t) (hs0_0 t) (ms0_1 t) (hs0_1 t) scM0_0 (Memref.isWhole_whole _) scM0_1 (Memref.isWhole_whole _) (fun h => h0 ((hcond0_0 t).mp h)) (fun h => h1 ((hcond0_1 t).mp h)) (iblk m c 0 t) (outsAt0 m c (t.val - 1) (Nat.lt_of_le_of_lt (Nat.sub_le _ _) t.isLt)).2.1 (outsAt0 m c (t.val - 1) (Nat.lt_of_le_of_lt (Nat.sub_le _ _) t.isLt)).2.2, sout0_B_0 c (grid0.coords t) (ms0_0 t) (hs0_0 t) (ms0_1 t) (hs0_1 t) scM0_0 (Memref.isWhole_whole _) scM0_1 (Memref.isWhole_whole _) (fun h => h0 ((hcond0_0 t).mp h)) (fun h => h1 ((hcond0_1 t).mp h)) (iblk m c 0 t) (outsAt0 m c (t.val - 1) (Nat.lt_of_le_of_lt (Nat.sub_le _ _) t.isLt)).2.1 (outsAt0 m c (t.val - 1) (Nat.lt_of_le_of_lt (Nat.sub_le _ _) t.isLt)).2.2, sout0_B_1 c (grid0.coords t) (ms0_0 t) (hs0_0 t) (ms0_1 t) (hs0_1 t) scM0_0 (Memref.isWhole_whole _) scM0_1 (Memref.isWhole_whole _) (fun h => h0 ((hcond0_0 t).mp h)) (fun h => h1 ((hcond0_1 t).mp h)) (iblk m c 0 t) (outsAt0 m c (t.val - 1) (Nat.lt_of_le_of_lt (Nat.sub_le _ _) t.isLt)).2.1 (outsAt0 m c (t.val - 1) (Nat.lt_of_le_of_lt (Nat.sub_le _ _) t.isLt)).2.2) := by
  obtain ⟨n, hn⟩ := t
  cases n with
  | zero => exact (by exfalso; (try dsimp only at h0); exact absurd (Nat.zero_mod _) h0)
  | succ n => exact (dif_neg h0).trans ((dif_neg h1).trans rfl)

theorem outsAt0_C (c : Dev nD) (t : Fin cfg0.N) (h0 : ¬t.val % 5 = 0) (h1 : t.val % 5 = 4) :
    outsAt0 m c t.val t.isLt = (out0_C_1 c (grid0.coords t) (ms0_0 t) (hs0_0 t) (ms0_1 t) (hs0_1 t) scM0_0 (Memref.isWhole_whole _) scM0_1 (Memref.isWhole_whole _) (fun h => h0 ((hcond0_0 t).mp h)) ((hcond0_1 t).mpr h1) (iblk m c 0 t) (outsAt0 m c (t.val - 1) (Nat.lt_of_le_of_lt (Nat.sub_le _ _) t.isLt)).2.1 (outsAt0 m c (t.val - 1) (Nat.lt_of_le_of_lt (Nat.sub_le _ _) t.isLt)).2.2, sout0_C_0 c (grid0.coords t) (ms0_0 t) (hs0_0 t) (ms0_1 t) (hs0_1 t) scM0_0 (Memref.isWhole_whole _) scM0_1 (Memref.isWhole_whole _) (fun h => h0 ((hcond0_0 t).mp h)) ((hcond0_1 t).mpr h1) (iblk m c 0 t) (outsAt0 m c (t.val - 1) (Nat.lt_of_le_of_lt (Nat.sub_le _ _) t.isLt)).2.1 (outsAt0 m c (t.val - 1) (Nat.lt_of_le_of_lt (Nat.sub_le _ _) t.isLt)).2.2, sout0_C_1 c (grid0.coords t) (ms0_0 t) (hs0_0 t) (ms0_1 t) (hs0_1 t) scM0_0 (Memref.isWhole_whole _) scM0_1 (Memref.isWhole_whole _) (fun h => h0 ((hcond0_0 t).mp h)) ((hcond0_1 t).mpr h1) (iblk m c 0 t) (outsAt0 m c (t.val - 1) (Nat.lt_of_le_of_lt (Nat.sub_le _ _) t.isLt)).2.1 (outsAt0 m c (t.val - 1) (Nat.lt_of_le_of_lt (Nat.sub_le _ _) t.isLt)).2.2) := by
  obtain ⟨n, hn⟩ := t
  cases n with
  | zero => exact (by exfalso; (try dsimp only at h0); exact absurd (Nat.zero_mod _) h0)
  | succ n => exact (dif_neg h0).trans ((dif_pos h1).trans rfl)

/-- The region's invariant before position `n`: before the first point both scratch buffers hold anything; afterwards
    each holds what the point before left in it. The generator register is at some state throughout. -/
def PhiS (c : Dev nD) : (n : ℕ) → n ≤ cfg0.N → sProp 𝕄
  | 0, _ => Pipeline.ΦA spec0 c
  | n + 1, hn => iprop(iprop(owns (c : Thread nD τ) scM0_0 fullShare ((outsAt0 m c n hn).2.1) ∗ owns (c : Thread nD τ) scM0_1 fullShare ((outsAt0 m c n hn).2.2)) ∗ (∃ r, prngReg c r))

theorem PhiS_zero (c : Dev nD) (n : ℕ) (h : n ≤ cfg0.N) (hz : n = 0) : PhiS m c n h = Pipeline.ΦA spec0 c := by
  subst hz; rfl

theorem PhiS_succ (c : Dev nD) (n : ℕ) (hn : n < cfg0.N) :
    PhiS m c (n + 1) hn = iprop(iprop(owns (c : Thread nD τ) scM0_0 fullShare ((outsAt0 m c n hn).2.1) ∗ owns (c : Thread nD τ) scM0_1 fullShare ((outsAt0 m c n hn).2.2)) ∗ (∃ r, prngReg c r)) := rfl

theorem PhiS_pos (c : Dev nD) (n : ℕ) (h : n ≤ cfg0.N) (hz : n ≠ 0) :
    PhiS m c n h = iprop(iprop(owns (c : Thread nD τ) scM0_0 fullShare ((outsAt0 m c (n - 1) (by omega)).2.1) ∗ owns (c : Thread nD τ) scM0_1 fullShare ((outsAt0 m c (n - 1) (by omega)).2.2)) ∗ (∃ r, prngReg c r)) := by
  cases n with
  | zero => exact absurd rfl hz
  | succ n => rfl

/-! ## The pipeline's proof data -/

/-- The arrays as the region finds them; after the body at a point the input buffer at its block and the output
    buffer at the accumulation's first component; the invariant above; nothing owed; full shares. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => (outsAt0 m c t.val t.isLt).1
  Φ t := PhiS m c t.val (Nat.le_of_lt_succ t.isLt)
  q _ := fullShare
  owed _ := 0

theorem A_eq (c : Dev nD) (w : Fin cfg0.W) : (dats m 0 c).A w = V m c (Pipeline.arrRef spec0 w) := by
  dsimp only [dats]

theorem PhiS_castSucc (c : Dev nD) (t : Fin cfg0.N) :
    (dats m 0 c).Φ t.castSucc = PhiS m c t.val (Nat.le_of_lt t.isLt) := by
  dsimp only [dats]; simp only [Fin.coe_castSucc]

theorem after0_0 (c : Dev nD) (t : Fin cfg0.N) : (dats m 0 c).after 0 t = iblk m c 0 t := by dsimp only [dats]
theorem after0_1 (c : Dev nD) (t : Fin cfg0.N) : (dats m 0 c).after 1 t = (outsAt0 m c t.val t.isLt).1 := by dsimp only [dats]

theorem before0_0 (c : Dev nD) (t : Fin cfg0.N) (d) : (dats m 0 c).before 0 t d = iblk m c 0 t :=
  before0_0_of m (dats m 0 c) (A_eq m c 0) (after0_0 m c) t d

/-! ## The body obligation -/

def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d)))

def bodyPost (c : Dev nD) (t : Fin cfg0.N) : sProp 𝕄 :=
  iprop((dats m 0 c).Φ t.succ ∗ (dats m 0 c).owesAt () t.succ
    ∗ (dats m 0 c).leavesExact 0 t
    ∗ (dats m 0 c).leavesExact 1 t)

set_option maxHeartbeats 4800000 in
/-- The body at any point: the input buffer holds its block; the point's reduction coordinate says which case it is
    in; the invariant hands over the scratch buffers (at anything at the first point, else at what the point before
    left) and takes them back at this point's contents, which the case's stores cover. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0]
  rw [show (dats m 0 c).owesAt () t.succ = (dats m 0 c).owesAt () t.castSucc from rfl]
  rw [show (dats m 0 c).Φ t.succ = PhiS m c (t.val + 1) t.isLt from rfl, PhiS_succ]
  have hN : t.val < 20 := lt_of_lt_of_eq t.isLt (show cfg0.N = 20 from N_0)
  by_cases h0 : t.val % 5 = 0
  · by_cases h1 : t.val % 5 = 4
    · exfalso; omega
    · rw [show (dats m 0 c).leavesExact 0 t = owns (c : Thread nD τ) (ms0_0 t) fullShare ((dats m 0 c).after 0 t) from by
        unfold Dat.leavesExact; rw [liveAt0_0 t], after0_0]
      rw [Dat.leavesExact_idle (dats m 0 c) 1 t (idleAt0_1 t (fun h => h1 ((hcond0_1 t).mp h))) (noFlush0_1 t (fun h => h1 ((hcond0_1 t).mp h)))]
      rw [outsAt0_A m c t h0 h1]
      unfold sout0_A_0 sout0_A_1; (try dsimp only)
      by_cases hz : t.val = 0
      · rw [PhiS_castSucc m c t, PhiS_zero m c _ _ hz, PhiA0_eq]
        iintro ⟨⟨⟨HS0, HS1⟩, Hg⟩, Ho, ⟨%d0, H0⟩, ⟨%d1, H1⟩⟩
        iapply ((kernelRun0_A c (grid0.coords t) _ _ _ _ _ _ _ _ ((hcond0_0 t).mpr h0) (fun h => h1 ((hcond0_1 t).mp h)) (iblk m c 0 t)).2.2.2 _ Set.univ _)
        isplitl [H0]; · iexact H0
        isplitl [H1]; · iexact H1
        isplitl [HS0]; · iexact HS0
        isplitl [HS1]; · iexact HS1
        iintro ⟨H0, H1, ⟨%es0, HS0⟩, ⟨%es1, HS1⟩⟩
        isplitl [HS0 HS1 Hg]
        · isplitl [HS0 HS1]
          · isplitl [HS0]
            · unfold owns; iexists _; isplitr
              swap; · iexact HS0
              ipureintro; exact View.read_writes_of_cover _ _ _ _ _ (scover0_A_0 c _ _ _ _ _ _ _ _ _ _ _ _)
            · unfold owns; iexists _; isplitr
              swap; · iexact HS1
              ipureintro; exact View.read_writes_of_cover _ _ _ _ _ (scover0_A_1 c _ _ _ _ _ _ _ _ _ _ _ _)
          iexact Hg
        isplitl [Ho]; · iexact Ho
        isplitl [H0]; · iexact H0
        iexists _; iexact H1
      · rw [PhiS_castSucc m c t, PhiS_pos m c _ _ hz]
        iintro ⟨⟨⟨HS0, HS1⟩, Hg⟩, Ho, ⟨%d0, H0⟩, ⟨%d1, H1⟩⟩
        iapply ((kernelRun0_A c (grid0.coords t) _ _ _ _ _ _ _ _ ((hcond0_0 t).mpr h0) (fun h => h1 ((hcond0_1 t).mp h)) (iblk m c 0 t)).2.2.2 _ Set.univ _)
        isplitl [H0]; · iexact H0
        isplitl [H1]; · iexact H1
        isplitl [HS0]; · iexists _; iexact HS0
        isplitl [HS1]; · iexists _; iexact HS1
        iintro ⟨H0, H1, ⟨%es0, HS0⟩, ⟨%es1, HS1⟩⟩
        isplitl [HS0 HS1 Hg]
        · isplitl [HS0 HS1]
          · isplitl [HS0]
            · unfold owns; iexists _; isplitr
              swap; · iexact HS0
              ipureintro; exact View.read_writes_of_cover _ _ _ _ _ (scover0_A_0 c _ _ _ _ _ _ _ _ _ _ _ _)
            · unfold owns; iexists _; isplitr
              swap; · iexact HS1
              ipureintro; exact View.read_writes_of_cover _ _ _ _ _ (scover0_A_1 c _ _ _ _ _ _ _ _ _ _ _ _)
          iexact Hg
        isplitl [Ho]; · iexact Ho
        isplitl [H0]; · iexact H0
        iexists _; iexact H1
  · have hz : t.val ≠ 0 := fun hz => h0 (by rw [hz])
    by_cases h1 : t.val % 5 = 4
    · rw [show (dats m 0 c).leavesExact 0 t = owns (c : Thread nD τ) (ms0_0 t) fullShare ((dats m 0 c).after 0 t) from by
        unfold Dat.leavesExact; rw [liveAt0_0 t], after0_0]
      rw [show (dats m 0 c).leavesExact 1 t = owns (c : Thread nD τ) (ms0_1 t) fullShare ((dats m 0 c).after 1 t) from by
        unfold Dat.leavesExact; rw [liveAt0_1 t ((hcond0_1 t).mpr h1)], after0_1]
      rw [outsAt0_C m c t h0 h1]
      unfold out0_C_1 sout0_C_0 sout0_C_1; (try dsimp only)
      · rw [PhiS_castSucc m c t, PhiS_pos m c _ _ hz]
        iintro ⟨⟨⟨HS0, HS1⟩, Hg⟩, Ho, ⟨%d0, H0⟩, ⟨%d1, H1⟩⟩
        iapply ((kernelRun0_C c (grid0.coords t) _ _ _ _ _ _ _ _ (fun h => h0 ((hcond0_0 t).mp h)) ((hcond0_1 t).mpr h1) (iblk m c 0 t) _ _).2.2.2 Set.univ _)
        isplitl [H0]; · iexact H0
        isplitl [H1]; · iexists _; iexact H1
        isplitl [HS0]; · iexact HS0
        isplitl [HS1]; · iexact HS1
        iintro ⟨H0, ⟨%e1, H1⟩, ⟨%es0, HS0⟩, ⟨%es1, HS1⟩⟩
        isplitl [HS0 HS1 Hg]
        · isplitl [HS0 HS1]
          · isplitl [HS0]
            · unfold owns; iexists _; isplitr
              swap; · iexact HS0
              ipureintro; exact View.read_writes_of_cover _ _ _ _ _ (scover0_C_0 c _ _ _ _ _ _ _ _ _ _ _ _ _ _)
            · unfold owns; iexists _; isplitr
              swap; · iexact HS1
              ipureintro; exact View.read_writes_of_cover _ _ _ _ _ (scover0_C_1 c _ _ _ _ _ _ _ _ _ _ _ _ _ _)
          iexact Hg
        isplitl [Ho]; · iexact Ho
        isplitl [H0]; · iexact H0
        unfold owns; iexists _; isplitr
        swap; · iexact H1
        ipureintro; exact View.read_writes_of_cover _ _ _ _ _ (cover0_C_1 c _ _ _ _ _ _ _ _ _ _ _ _ _ _)
    · rw [show (dats m 0 c).leavesExact 0 t = owns (c : Thread nD τ) (ms0_0 t) fullShare ((dats m 0 c).after 0 t) from by
        unfold Dat.leavesExact; rw [liveAt0_0 t], after0_0]
      rw [Dat.leavesExact_idle (dats m 0 c) 1 t (idleAt0_1 t (fun h => h1 ((hcond0_1 t).mp h))) (noFlush0_1 t (fun h => h1 ((hcond0_1 t).mp h)))]
      rw [outsAt0_B m c t h0 h1]
      unfold sout0_B_0 sout0_B_1; (try dsimp only)
      · rw [PhiS_castSucc m c t, PhiS_pos m c _ _ hz]
        iintro ⟨⟨⟨HS0, HS1⟩, Hg⟩, Ho, ⟨%d0, H0⟩, ⟨%d1, H1⟩⟩
        iapply ((kernelRun0_B c (grid0.coords t) _ _ _ _ _ _ _ _ (fun h => h0 ((hcond0_0 t).mp h)) (fun h => h1 ((hcond0_1 t).mp h)) (iblk m c 0 t) _ _).2.2.2 _ Set.univ _)
        isplitl [H0]; · iexact H0
        isplitl [H1]; · iexact H1
        isplitl [HS0]; · iexact HS0
        isplitl [HS1]; · iexact HS1
        iintro ⟨H0, H1, ⟨%es0, HS0⟩, ⟨%es1, HS1⟩⟩
        isplitl [HS0 HS1 Hg]
        · isplitl [HS0 HS1]
          · isplitl [HS0]
            · unfold owns; iexists _; isplitr
              swap; · iexact HS0
              ipureintro; exact View.read_writes_of_cover _ _ _ _ _ (scover0_B_0 c _ _ _ _ _ _ _ _ _ _ _ _ _ _)
            · unfold owns; iexists _; isplitr
              swap; · iexact HS1
              ipureintro; exact View.read_writes_of_cover _ _ _ _ _ (scover0_B_1 c _ _ _ _ _ _ _ _ _ _ _ _ _ _)
          iexact Hg
        isplitl [Ho]; · iexact Ho
        isplitl [H0]; · iexact H0
        iexists _; iexact H1

theorem body_obligation (c : Dev nD) : BodyObligation (dats (F := F) m 0 c) (defs₀ (F := F)) Variants.none () Set.univ := fun t => by
  rw [bigSep_W0, bigSep_W0]
  exact sound_body m c t

theorem hin (c : Dev nD) : Pipeline.ΦA spec0 c ⊢ (dats m 0 c).Φ 0 := by
  rw [show (dats m 0 c).Φ 0 = PhiS m c 0 (Nat.zero_le _) from rfl, PhiS_zero m c 0 _ rfl]
  try exact Idealize.SL.BI.Entails.refl _

/-- After any point but the first the invariant gives the launch's invariant back: the scratch buffers' contents are
    forgotten. -/
theorem Phi_out (c : Dev nD) (t : Fin (cfg0.N + 1)) (ht : t.val ≠ 0) : (dats m 0 c).Φ t ⊢ Pipeline.ΦA spec0 c := by
  rw [show (dats m 0 c).Φ t = PhiS m c t.val (Nat.le_of_lt_succ t.isLt) from rfl, PhiS_pos m c _ _ ht, PhiA0_eq]
  iintro ⟨⟨HS0, HS1⟩, Hg⟩
  isplitl [HS0 HS1]
  · isplitl [HS0]
    · iexists _; iexact HS0
    · iexists _; iexact HS1
  iexact Hg

theorem hout (c : Dev nD) : (dats m 0 c).Φ (Fin.last cfg0.N) ⊢ Pipeline.ΦA spec0 c :=
  Phi_out m c _ (by rw [Fin.val_last]; have : cfg0.N = 20 := N_0; omega)

/-! ## The run and the frame -/

set_option maxHeartbeats 8000000 in
set_option backward.isDefEq.respectTransparency.types false in
/-- Every weakly fair execution of @main terminates, every array of the pipeline ending at what the library computes
    from the proof data and every other unscoped buffer as the operations after the region leave it. -/
theorem run_main : θ_run defs (onTc (τ := τ) (main (F := F))) (s₀ m ρ) (Pipeline.FramePost cfgs (dats m) 0 (Pipeline.afterTail₀ cfgs (dats m) 0 (V0 m) sfx)) :=
  Pipeline.θ_run_frame_around_track cfgs (dats m) (0 : Fin 1) launch0 defs₀ Variants.none m ρ main
    (hbody := fun c => (body_obligation m c).loose) (hshare := fun c => (dats m 0 c).share_full fun _ => rfl)
    (howed := fun _ _ => rfl) (V₀ := V0 m) (opss := sfx) (hsub := sfx_sub) (hfresh := sfx_fresh) (hkeep := sfx_keeps)
    (hmain := hmain m Variants.none) (hA := A_eq m) (hin := hin m) (hout := hout m)

/-- The frame: @main runs to the end, faults nowhere, and leaves its eight arguments as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)) :=
  frame_of m ρ (dats m) (run_main m ρ)

end Cert.Kernel.Frame

end
-- ==== Proof.KI.FrameKit.lean ====
/-
  The launch side of the kernel program's frame: @main is host operations, one pallas_call region, and host operations
  again. This module states what the region finds in each buffer (the host operations before it applied to the launch
  memory), that the later host operations touch only unscoped buffers, allocate nothing and write neither an argument
  nor an array of the pipeline, what a window's block at a grid point is, the two branch conditions of the body as
  conditions on the grid point (the reduction coordinate is the point's index mod 5: the first tile of a row block is
  0, the last is 4), where the output window is idle, and how the frame claim's post follows from the frame run's.
-/
import proofs.«163289_j51866025067153_2_alg».proof.Proof.Gen.KernelIdeal.Launch
import proofs.«163289_j51866025067153_2_alg».proof.Proof.Gen.KernelIdeal.Skeleton
import proofs.«163289_j51866025067153_2_alg».proof.Proof.Gen.KernelIdeal.Points
import Idealize.ShloMosaic.Lib.Pipeline.FrameBody
import Idealize.ShloMosaic.Lib.Pipeline.FrameSuffix
import Idealize.ShloMosaic.Lib.Ring
import Idealize.ShloMosaic.Lib.Tactic

set_option maxRecDepth 16384

noncomputable section

namespace Cert.KernelIdeal.Frame

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## @main around the region -/

/-- Core `c`'s buffer contents when the region is entered: the launch memory after the host operations before it. -/
abbrev V0 (c : Dev nD) : Valuation τ sig (Elt F) := StableHlo.after (List.flatten [hostOps0]) (fun b => m (c, b))
/-- The same read at a TensorCore reference. -/
abbrev V (c : Dev nD) (b : Ref sig .tc) : Buf (Elt F) ((c : Thread nD τ).loc b) := V0 m c (Proc.devRef .tc b)

/-- The host operations after the region, stretch by stretch. -/
abbrev sfx : List (List (HloOp τ sig (Elt F))) := [hostOps1, hostOps1_1, hostOps1_2, hostOps1_3, hostOps1_4, hostOps1_5, hostOps1_6]

theorem hostOps0_fresh : (hostOps0 : List (HloOp τ sig (Elt F))).Forall fun op => op.fresh = ∅ := by
  simp only [List.Forall]; repeat' constructor
theorem hostOps1_fresh : (hostOps1 : List (HloOp τ sig (Elt F))).Forall fun op => op.fresh = ∅ := by
  simp only [List.Forall]; repeat' constructor
theorem hostOps1_1_fresh : (hostOps1_1 : List (HloOp τ sig (Elt F))).Forall fun op => op.fresh = ∅ := by
  simp only [List.Forall]; repeat' constructor
theorem hostOps1_2_fresh : (hostOps1_2 : List (HloOp τ sig (Elt F))).Forall fun op => op.fresh = ∅ := by
  simp only [List.Forall]; repeat' constructor
theorem hostOps1_3_fresh : (hostOps1_3 : List (HloOp τ sig (Elt F))).Forall fun op => op.fresh = ∅ := by
  simp only [List.Forall]; repeat' constructor
theorem hostOps1_4_fresh : (hostOps1_4 : List (HloOp τ sig (Elt F))).Forall fun op => op.fresh = ∅ := by
  simp only [List.Forall]; repeat' constructor
theorem hostOps1_5_fresh : (hostOps1_5 : List (HloOp τ sig (Elt F))).Forall fun op => op.fresh = ∅ := by
  simp only [List.Forall]; repeat' constructor
theorem hostOps1_6_fresh : (hostOps1_6 : List (HloOp τ sig (Elt F))).Forall fun op => op.fresh = ∅ := by
  simp only [List.Forall]; repeat' constructor

set_option maxHeartbeats 4000000 in
set_option backward.isDefEq.respectTransparency.types false in
/-- @main is the host operations before the region, the region, and the host operations after it: it reduces to the
    region continued by the later operations. -/
theorem hmain (𝒱₀ : Variants) : Pipeline.HMainK (Ix := Unit) (Name := ℕ) (U := UR sig nD τ) (Lvl := ℕ) cfgs 0 defs₀ 𝒱₀ m (main (F := F)) (V m)
      (fun _ => Pipeline.chain [StableHlo.seq hostOps1, StableHlo.seq hostOps1_1, StableHlo.seq hostOps1_2, StableHlo.seq hostOps1_3, StableHlo.seq hostOps1_4, StableHlo.seq hostOps1_5, StableHlo.seq hostOps1_6]) :=
  Pipeline.hmain_around cfgs 0 defs₀ 𝒱₀ m main [hostOps0] [hostOps1, hostOps1_1, hostOps1_2, hostOps1_3, hostOps1_4, hostOps1_5, hostOps1_6] (by simp only [List.Forall]; exact hostOps0_sub)
    (by simp only [List.Forall]; exact hostOps0_fresh) main_chain

/-- The operations after the region touch the pipeline's arrays and the buffers that bypass the region only. -/
theorem sfx_sub : ∀ ops ∈ (sfx : List (List (HloOp τ sig (Elt F)))), ∀ op ∈ ops,
    op.bufs ⊆ Pipeline.tailRefs sig Pipeline.Prefetch.none spec0 := by
  rw [Pipeline.tailRefs_none spec0 launch0.win.arr_unscoped]
  intro ops hops op hop
  simp only [sfx, List.mem_cons, List.mem_nil_iff, or_false] at hops
  rcases hops with rfl | rfl | rfl | rfl | rfl | rfl | rfl
  · exact Pipeline.sub_ucRefs op ((List.forall_iff_forall_mem.mp hostOps1_sub) op hop)
  · exact Pipeline.sub_ucRefs op ((List.forall_iff_forall_mem.mp hostOps1_1_sub) op hop)
  · exact Pipeline.sub_ucRefs op ((List.forall_iff_forall_mem.mp hostOps1_2_sub) op hop)
  · exact Pipeline.sub_ucRefs op ((List.forall_iff_forall_mem.mp hostOps1_3_sub) op hop)
  · exact Pipeline.sub_ucRefs op ((List.forall_iff_forall_mem.mp hostOps1_4_sub) op hop)
  · exact Pipeline.sub_ucRefs op ((List.forall_iff_forall_mem.mp hostOps1_5_sub) op hop)
  · exact Pipeline.sub_ucRefs op ((List.forall_iff_forall_mem.mp hostOps1_6_sub) op hop)
/-- They allocate nothing. -/
theorem sfx_fresh : ∀ ops ∈ (sfx : List (List (HloOp τ sig (Elt F)))), ∀ op ∈ ops, op.fresh = ∅ := by
  intro ops hops op hop
  simp only [sfx, List.mem_cons, List.mem_nil_iff, or_false] at hops
  rcases hops with rfl | rfl | rfl | rfl | rfl | rfl | rfl
  · exact (List.forall_iff_forall_mem.mp hostOps1_fresh) op hop
  · exact (List.forall_iff_forall_mem.mp hostOps1_1_fresh) op hop
  · exact (List.forall_iff_forall_mem.mp hostOps1_2_fresh) op hop
  · exact (List.forall_iff_forall_mem.mp hostOps1_3_fresh) op hop
  · exact (List.forall_iff_forall_mem.mp hostOps1_4_fresh) op hop
  · exact (List.forall_iff_forall_mem.mp hostOps1_5_fresh) op hop
  · exact (List.forall_iff_forall_mem.mp hostOps1_6_fresh) op hop

/-- A buffer that is the result of none of the operations after the region is written by none of them: each
    operation writes its own result buffer only, and the inequality of two literal references is decided. -/
local macro "tail_keeps" : tactic => `(tactic| (
  refine List.forall_iff_forall_mem.mp ?_
  simp only [sfx, hostOps1, hostOps1_1, hostOps1_2, hostOps1_3, hostOps1_4, hostOps1_5, hostOps1_6, List.flatten_cons, List.flatten_nil, List.append_nil, List.cons_append,
    List.nil_append, List.Forall, StableHlo.TRef.unary, StableHlo.TRef.ternary, StableHlo.nullary_writes, StableHlo.unary_writes, StableHlo.binary_writes, StableHlo.ternary_writes, StableHlo.quaternary_writes, StableHlo.reshape_writes, StableHlo.binaryIndexed_writes, Finset.mem_singleton]
  repeat' apply And.intro
  all_goals exact StableHlo.devRef_ne_of_ne (by decide)))

/-- The same for the operations before the region. -/
local macro "head_keeps" : tactic => `(tactic| (
  refine List.forall_iff_forall_mem.mp ?_
  simp only [hostOps0, List.flatten_cons, List.flatten_nil, List.append_nil, List.cons_append,
    List.nil_append, List.Forall, StableHlo.TRef.unary, StableHlo.TRef.ternary, StableHlo.nullary_writes, StableHlo.unary_writes, StableHlo.binary_writes, StableHlo.ternary_writes, StableHlo.quaternary_writes, StableHlo.reshape_writes, StableHlo.binaryIndexed_writes, Finset.mem_singleton]
  repeat' apply And.intro
  all_goals exact StableHlo.devRef_ne_of_ne (by decide)))

theorem tail_keeps_v6 : ∀ op ∈ (sfx : List (List (HloOp τ sig (Elt F)))).flatten, Proc.devRef .tc main_v6 ∉ op.writes := by tail_keeps
theorem tail_keeps_v7 : ∀ op ∈ (sfx : List (List (HloOp τ sig (Elt F)))).flatten, Proc.devRef .tc main_v7 ∉ op.writes := by tail_keeps
theorem tail_keeps_main_arg0 : ∀ op ∈ (sfx : List (List (HloOp τ sig (Elt F)))).flatten, Proc.devRef .tc main_arg0 ∉ op.writes := by tail_keeps
theorem head_keeps_main_arg0 : ∀ op ∈ (List.flatten [hostOps0] : List (HloOp τ sig (Elt F))), Proc.devRef .tc main_arg0 ∉ op.writes := by head_keeps
theorem tail_keeps_main_arg1 : ∀ op ∈ (sfx : List (List (HloOp τ sig (Elt F)))).flatten, Proc.devRef .tc main_arg1 ∉ op.writes := by tail_keeps
theorem head_keeps_main_arg1 : ∀ op ∈ (List.flatten [hostOps0] : List (HloOp τ sig (Elt F))), Proc.devRef .tc main_arg1 ∉ op.writes := by head_keeps
theorem tail_keeps_main_arg2 : ∀ op ∈ (sfx : List (List (HloOp τ sig (Elt F)))).flatten, Proc.devRef .tc main_arg2 ∉ op.writes := by tail_keeps
theorem head_keeps_main_arg2 : ∀ op ∈ (List.flatten [hostOps0] : List (HloOp τ sig (Elt F))), Proc.devRef .tc main_arg2 ∉ op.writes := by head_keeps
theorem tail_keeps_main_arg3 : ∀ op ∈ (sfx : List (List (HloOp τ sig (Elt F)))).flatten, Proc.devRef .tc main_arg3 ∉ op.writes := by tail_keeps
theorem head_keeps_main_arg3 : ∀ op ∈ (List.flatten [hostOps0] : List (HloOp τ sig (Elt F))), Proc.devRef .tc main_arg3 ∉ op.writes := by head_keeps
theorem tail_keeps_main_arg4 : ∀ op ∈ (sfx : List (List (HloOp τ sig (Elt F)))).flatten, Proc.devRef .tc main_arg4 ∉ op.writes := by tail_keeps
theorem head_keeps_main_arg4 : ∀ op ∈ (List.flatten [hostOps0] : List (HloOp τ sig (Elt F))), Proc.devRef .tc main_arg4 ∉ op.writes := by head_keeps
theorem tail_keeps_main_arg5 : ∀ op ∈ (sfx : List (List (HloOp τ sig (Elt F)))).flatten, Proc.devRef .tc main_arg5 ∉ op.writes := by tail_keeps
theorem head_keeps_main_arg5 : ∀ op ∈ (List.flatten [hostOps0] : List (HloOp τ sig (Elt F))), Proc.devRef .tc main_arg5 ∉ op.writes := by head_keeps
theorem tail_keeps_main_arg6 : ∀ op ∈ (sfx : List (List (HloOp τ sig (Elt F)))).flatten, Proc.devRef .tc main_arg6 ∉ op.writes := by tail_keeps
theorem head_keeps_main_arg6 : ∀ op ∈ (List.flatten [hostOps0] : List (HloOp τ sig (Elt F))), Proc.devRef .tc main_arg6 ∉ op.writes := by head_keeps
theorem tail_keeps_main_arg7 : ∀ op ∈ (sfx : List (List (HloOp τ sig (Elt F)))).flatten, Proc.devRef .tc main_arg7 ∉ op.writes := by tail_keeps
theorem head_keeps_main_arg7 : ∀ op ∈ (List.flatten [hostOps0] : List (HloOp τ sig (Elt F))), Proc.devRef .tc main_arg7 ∉ op.writes := by head_keeps

/-- The operations after the region write no array of the pipeline. -/
theorem sfx_keeps : ∀ ops ∈ (sfx : List (List (HloOp τ sig (Elt F)))), ∀ op ∈ ops,
    ∀ w, Proc.devRef .tc (Pipeline.arrRef spec0 w) ∉ op.writes := by
  intro ops hops op hop w
  have hmem : op ∈ (sfx : List (List (HloOp τ sig (Elt F)))).flatten := List.mem_flatten.mpr ⟨ops, hops, hop⟩
  fin_cases w
  · exact tail_keeps_v6 op hmem
  · exact tail_keeps_v7 op hmem

/-- No host operation before the region writes `main_arg0`: the region finds it as launched. -/
theorem V_main_arg0 (c : Dev nD) : V m c main_arg0 = m ((c : Thread nD τ).loc main_arg0) :=
  StableHlo.after_of_forall_not_mem (b := Proc.devRef .tc main_arg0) _ _ head_keeps_main_arg0
/-- No host operation after the region writes it either: it ends as launched. -/
theorem W_main_arg0 (dats : (p : Fin _) → (c : Dev nD) → Dat τ (Elt F) Unit ℕ (UR sig nD τ) ℕ (cfgs p) c) (c : Dev nD) :
    Pipeline.afterTail₀ cfgs dats 0 (V0 m) sfx c main_arg0 = m ((c : Thread nD τ).loc main_arg0) := by
  unfold Pipeline.afterTail₀
  rw [StableHlo.after_of_forall_not_mem (b := Proc.devRef .tc main_arg0) _ _ tail_keeps_main_arg0,
    Pipeline.withArrays_of_ne _ c (V0 m c) _ main_arg0 (by exact (by decide : ∀ w, Pipeline.arrRef spec0 w ≠ main_arg0))]
  exact V_main_arg0 m c
/-- No host operation before the region writes `main_arg1`: the region finds it as launched. -/
theorem V_main_arg1 (c : Dev nD) : V m c main_arg1 = m ((c : Thread nD τ).loc main_arg1) :=
  StableHlo.after_of_forall_not_mem (b := Proc.devRef .tc main_arg1) _ _ head_keeps_main_arg1
/-- No host operation after the region writes it either: it ends as launched. -/
theorem W_main_arg1 (dats : (p : Fin _) → (c : Dev nD) → Dat τ (Elt F) Unit ℕ (UR sig nD τ) ℕ (cfgs p) c) (c : Dev nD) :
    Pipeline.afterTail₀ cfgs dats 0 (V0 m) sfx c main_arg1 = m ((c : Thread nD τ).loc main_arg1) := by
  unfold Pipeline.afterTail₀
  rw [StableHlo.after_of_forall_not_mem (b := Proc.devRef .tc main_arg1) _ _ tail_keeps_main_arg1,
    Pipeline.withArrays_of_ne _ c (V0 m c) _ main_arg1 (by exact (by decide : ∀ w, Pipeline.arrRef spec0 w ≠ main_arg1))]
  exact V_main_arg1 m c
/-- No host operation before the region writes `main_arg2`: the region finds it as launched. -/
theorem V_main_arg2 (c : Dev nD) : V m c main_arg2 = m ((c : Thread nD τ).loc main_arg2) :=
  StableHlo.after_of_forall_not_mem (b := Proc.devRef .tc main_arg2) _ _ head_keeps_main_arg2
/-- No host operation after the region writes it either: it ends as launched. -/
theorem W_main_arg2 (dats : (p : Fin _) → (c : Dev nD) → Dat τ (Elt F) Unit ℕ (UR sig nD τ) ℕ (cfgs p) c) (c : Dev nD) :
    Pipeline.afterTail₀ cfgs dats 0 (V0 m) sfx c main_arg2 = m ((c : Thread nD τ).loc main_arg2) := by
  unfold Pipeline.afterTail₀
  rw [StableHlo.after_of_forall_not_mem (b := Proc.devRef .tc main_arg2) _ _ tail_keeps_main_arg2,
    Pipeline.withArrays_of_ne _ c (V0 m c) _ main_arg2 (by exact (by decide : ∀ w, Pipeline.arrRef spec0 w ≠ main_arg2))]
  exact V_main_arg2 m c
/-- No host operation before the region writes `main_arg3`: the region finds it as launched. -/
theorem V_main_arg3 (c : Dev nD) : V m c main_arg3 = m ((c : Thread nD τ).loc main_arg3) :=
  StableHlo.after_of_forall_not_mem (b := Proc.devRef .tc main_arg3) _ _ head_keeps_main_arg3
/-- No host operation after the region writes it either: it ends as launched. -/
theorem W_main_arg3 (dats : (p : Fin _) → (c : Dev nD) → Dat τ (Elt F) Unit ℕ (UR sig nD τ) ℕ (cfgs p) c) (c : Dev nD) :
    Pipeline.afterTail₀ cfgs dats 0 (V0 m) sfx c main_arg3 = m ((c : Thread nD τ).loc main_arg3) := by
  unfold Pipeline.afterTail₀
  rw [StableHlo.after_of_forall_not_mem (b := Proc.devRef .tc main_arg3) _ _ tail_keeps_main_arg3,
    Pipeline.withArrays_of_ne _ c (V0 m c) _ main_arg3 (by exact (by decide : ∀ w, Pipeline.arrRef spec0 w ≠ main_arg3))]
  exact V_main_arg3 m c
/-- No host operation before the region writes `main_arg4`: the region finds it as launched. -/
theorem V_main_arg4 (c : Dev nD) : V m c main_arg4 = m ((c : Thread nD τ).loc main_arg4) :=
  StableHlo.after_of_forall_not_mem (b := Proc.devRef .tc main_arg4) _ _ head_keeps_main_arg4
/-- No host operation after the region writes it either: it ends as launched. -/
theorem W_main_arg4 (dats : (p : Fin _) → (c : Dev nD) → Dat τ (Elt F) Unit ℕ (UR sig nD τ) ℕ (cfgs p) c) (c : Dev nD) :
    Pipeline.afterTail₀ cfgs dats 0 (V0 m) sfx c main_arg4 = m ((c : Thread nD τ).loc main_arg4) := by
  unfold Pipeline.afterTail₀
  rw [StableHlo.after_of_forall_not_mem (b := Proc.devRef .tc main_arg4) _ _ tail_keeps_main_arg4,
    Pipeline.withArrays_of_ne _ c (V0 m c) _ main_arg4 (by exact (by decide : ∀ w, Pipeline.arrRef spec0 w ≠ main_arg4))]
  exact V_main_arg4 m c
/-- No host operation before the region writes `main_arg5`: the region finds it as launched. -/
theorem V_main_arg5 (c : Dev nD) : V m c main_arg5 = m ((c : Thread nD τ).loc main_arg5) :=
  StableHlo.after_of_forall_not_mem (b := Proc.devRef .tc main_arg5) _ _ head_keeps_main_arg5
/-- No host operation after the region writes it either: it ends as launched. -/
theorem W_main_arg5 (dats : (p : Fin _) → (c : Dev nD) → Dat τ (Elt F) Unit ℕ (UR sig nD τ) ℕ (cfgs p) c) (c : Dev nD) :
    Pipeline.afterTail₀ cfgs dats 0 (V0 m) sfx c main_arg5 = m ((c : Thread nD τ).loc main_arg5) := by
  unfold Pipeline.afterTail₀
  rw [StableHlo.after_of_forall_not_mem (b := Proc.devRef .tc main_arg5) _ _ tail_keeps_main_arg5,
    Pipeline.withArrays_of_ne _ c (V0 m c) _ main_arg5 (by exact (by decide : ∀ w, Pipeline.arrRef spec0 w ≠ main_arg5))]
  exact V_main_arg5 m c
/-- No host operation before the region writes `main_arg6`: the region finds it as launched. -/
theorem V_main_arg6 (c : Dev nD) : V m c main_arg6 = m ((c : Thread nD τ).loc main_arg6) :=
  StableHlo.after_of_forall_not_mem (b := Proc.devRef .tc main_arg6) _ _ head_keeps_main_arg6
/-- No host operation after the region writes it either: it ends as launched. -/
theorem W_main_arg6 (dats : (p : Fin _) → (c : Dev nD) → Dat τ (Elt F) Unit ℕ (UR sig nD τ) ℕ (cfgs p) c) (c : Dev nD) :
    Pipeline.afterTail₀ cfgs dats 0 (V0 m) sfx c main_arg6 = m ((c : Thread nD τ).loc main_arg6) := by
  unfold Pipeline.afterTail₀
  rw [StableHlo.after_of_forall_not_mem (b := Proc.devRef .tc main_arg6) _ _ tail_keeps_main_arg6,
    Pipeline.withArrays_of_ne _ c (V0 m c) _ main_arg6 (by exact (by decide : ∀ w, Pipeline.arrRef spec0 w ≠ main_arg6))]
  exact V_main_arg6 m c
/-- No host operation before the region writes `main_arg7`: the region finds it as launched. -/
theorem V_main_arg7 (c : Dev nD) : V m c main_arg7 = m ((c : Thread nD τ).loc main_arg7) :=
  StableHlo.after_of_forall_not_mem (b := Proc.devRef .tc main_arg7) _ _ head_keeps_main_arg7
/-- No host operation after the region writes it either: it ends as launched. -/
theorem W_main_arg7 (dats : (p : Fin _) → (c : Dev nD) → Dat τ (Elt F) Unit ℕ (UR sig nD τ) ℕ (cfgs p) c) (c : Dev nD) :
    Pipeline.afterTail₀ cfgs dats 0 (V0 m) sfx c main_arg7 = m ((c : Thread nD τ).loc main_arg7) := by
  unfold Pipeline.afterTail₀
  rw [StableHlo.after_of_forall_not_mem (b := Proc.devRef .tc main_arg7) _ _ tail_keeps_main_arg7,
    Pipeline.withArrays_of_ne _ c (V0 m c) _ main_arg7 (by exact (by decide : ∀ w, Pipeline.arrRef spec0 w ≠ main_arg7))]
  exact V_main_arg7 m c

/-! ## The windows' blocks -/

/-- Window `w`'s block at point `t`, read off its array as the region finds it. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-- The input window's current staging buffer holds its block at every point, for any proof data whose array is the
    region-entry contents and whose body leaves the block in place. -/
theorem before0_0_of {c : Dev nD} (dat : Dat τ (Elt F) Unit ℕ (UR sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)

/-! ## The frame claim's post from the frame run's -/

/-- The frame from a frame run: no argument is an array of the pipeline, so each ends at what the later operations
    leave in it, which is what was launched. -/
theorem frame_of (dats : (p : Fin 1) → (c : Dev nD) → Dat τ (Elt F) Unit ℕ (UR sig nD τ) ℕ (cfgs p) c)
    (h : θ_run defs (onTc (τ := τ) (main (F := F))) (s₀ m ρ) (Pipeline.FramePost cfgs dats 0 (Pipeline.afterTail₀ cfgs dats 0 (V0 m) sfx))) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)) :=
  (θ_run defs _ _).mono (fun _ h c => ⟨((h c).2 main_arg0 (Pipeline.mem_restRefs_of main_arg0 (by decide) (by decide))).trans (W_main_arg0 m dats c),
    ((h c).2 main_arg1 (Pipeline.mem_restRefs_of main_arg1 (by decide) (by decide))).trans (W_main_arg1 m dats c),
    ((h c).2 main_arg2 (Pipeline.mem_restRefs_of main_arg2 (by decide) (by decide))).trans (W_main_arg2 m dats c),
    ((h c).2 main_arg3 (Pipeline.mem_restRefs_of main_arg3 (by decide) (by decide))).trans (W_main_arg3 m dats c),
    ((h c).2 main_arg4 (Pipeline.mem_restRefs_of main_arg4 (by decide) (by decide))).trans (W_main_arg4 m dats c),
    ((h c).2 main_arg5 (Pipeline.mem_restRefs_of main_arg5 (by decide) (by decide))).trans (W_main_arg5 m dats c),
    ((h c).2 main_arg6 (Pipeline.mem_restRefs_of main_arg6 (by decide) (by decide))).trans (W_main_arg6 m dats c),
    ((h c).2 main_arg7 (Pipeline.mem_restRefs_of main_arg7 (by decide) (by decide))).trans (W_main_arg7 m dats c)⟩) h

/-! ## The body's branch conditions -/

/-- The first branch of the body is taken where the reduction coordinate is 0: the first tile of a row block. -/
abbrev cond0_0 (i : grid0.Coords) : Prop := (Scalar.cmpi .ne (Scalar.extui (Scalar.cmpi .eq (BitVec.ofNat 32 (i 1).val) 0#32)) 0#32) = 1#1
theorem hcond0_0 : ∀ t : Fin cfg0.N, cond0_0 (grid0.coords t) ↔ t.val % 5 = 0 :=
  (by decide +kernel : ∀ t : Fin grid0.N, cond0_0 (grid0.coords t) ↔ t.val % 5 = 0)

/-- The second branch is taken where the reduction coordinate is 4: the last tile of a row block. -/
abbrev cond0_1 (i : grid0.Coords) : Prop := k0_cond2 i = 1#1
theorem hcond0_1 : ∀ t : Fin cfg0.N, cond0_1 (grid0.coords t) ↔ t.val % 5 = 4 :=
  (by decide +kernel : ∀ t : Fin grid0.N, cond0_1 (grid0.coords t) ↔ t.val % 5 = 4)

/-! ## Where the windows are idle -/

theorem liveAt0_0 : ∀ t : Fin cfg0.N, cfg0.idle 0 (grid0.coords t) = false := by decide +kernel
/-- Off the last tile the body stores nothing into the output window, and the pipeline does not write it back. -/
theorem idleAt0_1 : ∀ t : Fin cfg0.N, ¬cond0_1 (grid0.coords t) → cfg0.idle 1 (grid0.coords t) = true := by decide +kernel
theorem noFlush0_1 : ∀ t : Fin cfg0.N, ¬cond0_1 (grid0.coords t) → (cfg0.win 1).flush t = false := by decide +kernel
/-- On the last tile the body stores the whole output block. -/
theorem liveAt0_1 : ∀ t : Fin cfg0.N, cond0_1 (grid0.coords t) → cfg0.idle 1 (grid0.coords t) = false := by decide +kernel

/-! ## The memrefs the body is called with -/

/-- One staging buffer of the output window, through which its contents are stated. -/
abbrev VO0_1 : View sig .tc .vmem S256x1 .f32 := (Memref.whole cc0_stg1_0 : Memref sig .tc .vmem S256x1 .f32).view
abbrev ms0_0 (t : Fin cfg0.N) : Memref sig .tc .vmem S256x6400 .f32 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S256x1 .f32 := win0_1.stage (cfg0.slots t 1)
abbrev hs0_1 (t : Fin cfg0.N) : (ms0_1 t).IsWhole := hstage0_1 ((cfg0.slots t 1).cast nbuf0_1)
/-- The two scratch operands (the running maximum and the running denominator): whole scoped buffers. -/
abbrev scM0_0 : Memref sig .tc .vmem S256x1 .f32 := Memref.whole cc0_scratch0
abbrev scM0_1 : Memref sig .tc .vmem S256x1 .f32 := Memref.whole cc0_scratch1
abbrev VS0_0 : View sig .tc .vmem S256x1 .f32 := scM0_0.view
abbrev VS0_1 : View sig .tc .vmem S256x1 .f32 := scM0_1.view

/-- The region's invariant with the scratch operands as memrefs owned at some contents. -/
theorem PhiA0_eq (c : Dev nD) :
    (Pipeline.ΦA spec0 c : sProp 𝕄)
      = iprop(iprop((∃ d, owns (c : Thread nD τ) scM0_0 fullShare d) ∗ (∃ d, owns (c : Thread nD τ) scM0_1 fullShare d)) ∗ (∃ r, prngReg c r)) := by
  unfold Pipeline.ΦA; rw [scopedRest0_eq]; simp only [scM0_0, scM0_1, owns_whole]; try rfl

end Cert.KernelIdeal.Frame

end
-- ==== Proof.KI.RunA.lean ====
/-
  The body on the first tile of a row block (first branch taken, second not): both scratch buffers, whatever they held, are overwritten whole — first with −∞ and 0, then with the tile's running maximum and denominator —, the input block is left as it was and the output buffer untouched.
  The lists of pieces are what the body's stores leave in each buffer, last store first.
-/
import proofs.«163289_j51866025067153_2_alg».proof.Proof.KI.FrameKit

set_option maxRecDepth 16384

noncomputable section

namespace Cert.KernelIdeal.Frame

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 1000000 in
noncomputable def kernelRun0_A (c : Dev nD) (i : grid0.Coords) (arg2 : Memref sig .tc .vmem S256x6400 .f32) (harg2 : arg2.IsWhole) (arg3 : Memref sig .tc .vmem S256x1 .f32) (harg3 : arg3.IsWhole) (arg4 : Memref sig .tc .vmem S256x1 .f32) (harg4 : arg4.IsWhole) (arg5 : Memref sig .tc .vmem S256x1 .f32) (harg5 : arg5.IsWhole) (hc0 : cond0_0 i) (hc1 : ¬cond0_1 i)
    (x0 : Vec F S256x6400 .f32) :
    Σ' (L1 : List (View.Piece (Elt F) S256x1 .f32)), Σ' (LS0 : List (View.Piece (Elt F) S256x1 .f32)), { LS1 : List (View.Piece (Elt F) S256x1 .f32) //
      ∀ (xi1 : Vec F S256x1 .f32) (E : Set ℕ) (K : PUnit → sProp 𝕄),
        iprop(owns (c : Thread nD τ) arg2 fullShare x0 ∗ owns (c : Thread nD τ) arg3 fullShare xi1 ∗ (∃ d, owns (c : Thread nD τ) arg4 fullShare d) ∗ (∃ d, owns (c : Thread nD τ) arg5 fullShare d)
            ∗ (iprop(owns (c : Thread nD τ) arg2 fullShare x0 ∗ owns (c : Thread nD τ) arg3 fullShare xi1 ∗ (∃ f, arg4.view.loc (c : Thread nD τ) ↦[arg4.view.set]{fullShare} arg4.view.writes (Elt F) f LS0) ∗ (∃ f, arg5.view.loc (c : Thread nD τ) ↦[arg5.view.set]{fullShare} arg5.view.writes (Elt F) f LS1)) -∗ K ⟨⟩))
          ⊢ wp frame (wpE (defs₀ (F := F)) Variants.none c none) E (cc0__token_confidence_kernel i arg2 harg2 arg3 harg3 arg4 harg4 arg5 harg5) K } := by
  refine ⟨[], ?_, ?_, fun xi1 E K => ?run⟩
  case run =>
    simp only [cc0__token_confidence_kernel_eq_skeleton]; unfold cc0__token_confidence_kernel_skel
    unfold owns
    iintro ⟨⟨%f0, %hf0, H0⟩, ⟨%f1, %hf1, H1⟩, ⟨%ds0, %fs0, -, HS0⟩, ⟨%ds1, %fs1, -, HS1⟩, Hk⟩
    obtain rfl := harg2.eq_unread hf0; obtain rfl := harg3.eq_unread hf1
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [HS0]
    · iexists _; iexact HS0
    iexists _; iexact HS1

end Cert.KernelIdeal.Frame

end
-- ==== Proof.KI.RunB.lean ====
/-
  The body on a middle tile (neither branch taken): the scratch buffers, found at what the tile before left, are overwritten whole with the new running maximum and denominator; the input block is left as it was and the output buffer untouched.
  The lists of pieces are what the body's stores leave in each buffer, last store first.
-/
import proofs.«163289_j51866025067153_2_alg».proof.Proof.KI.RunA

set_option maxRecDepth 16384

noncomputable section

namespace Cert.KernelIdeal.Frame

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 1000000 in
noncomputable def kernelRun0_B (c : Dev nD) (i : grid0.Coords) (arg2 : Memref sig .tc .vmem S256x6400 .f32) (harg2 : arg2.IsWhole) (arg3 : Memref sig .tc .vmem S256x1 .f32) (harg3 : arg3.IsWhole) (arg4 : Memref sig .tc .vmem S256x1 .f32) (harg4 : arg4.IsWhole) (arg5 : Memref sig .tc .vmem S256x1 .f32) (harg5 : arg5.IsWhole) (hc0 : ¬cond0_0 i) (hc1 : ¬cond0_1 i)
    (x0 : Vec F S256x6400 .f32) (xs0 xs1 : Vec F S256x1 .f32) :
    Σ' (L1 : List (View.Piece (Elt F) S256x1 .f32)), Σ' (LS0 : List (View.Piece (Elt F) S256x1 .f32)), { LS1 : List (View.Piece (Elt F) S256x1 .f32) //
      ∀ (xi1 : Vec F S256x1 .f32) (E : Set ℕ) (K : PUnit → sProp 𝕄),
        iprop(owns (c : Thread nD τ) arg2 fullShare x0 ∗ owns (c : Thread nD τ) arg3 fullShare xi1 ∗ owns (c : Thread nD τ) arg4 fullShare xs0 ∗ owns (c : Thread nD τ) arg5 fullShare xs1
            ∗ (iprop(owns (c : Thread nD τ) arg2 fullShare x0 ∗ owns (c : Thread nD τ) arg3 fullShare xi1 ∗ (∃ f, arg4.view.loc (c : Thread nD τ) ↦[arg4.view.set]{fullShare} arg4.view.writes (Elt F) f LS0) ∗ (∃ f, arg5.view.loc (c : Thread nD τ) ↦[arg5.view.set]{fullShare} arg5.view.writes (Elt F) f LS1)) -∗ K ⟨⟩))
          ⊢ wp frame (wpE (defs₀ (F := F)) Variants.none c none) E (cc0__token_confidence_kernel i arg2 harg2 arg3 harg3 arg4 harg4 arg5 harg5) K } := by
  refine ⟨[], ?_, ?_, fun xi1 E K => ?run⟩
  case run =>
    simp only [cc0__token_confidence_kernel_eq_skeleton]; unfold cc0__token_confidence_kernel_skel
    unfold owns
    iintro ⟨⟨%f0, %hf0, H0⟩, ⟨%f1, %hf1, H1⟩, ⟨%fs0, %hfs0, HS0⟩, ⟨%fs1, %hfs1, HS1⟩, Hk⟩
    obtain rfl := harg2.eq_unread hf0; obtain rfl := harg3.eq_unread hf1; obtain rfl := harg4.eq_unread hfs0; obtain rfl := harg5.eq_unread hfs1
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [HS0]
    · iexists _; iexact HS0
    iexists _; iexact HS1

end Cert.KernelIdeal.Frame

end
-- ==== Proof.KI.RunC.lean ====
/-
  The body on the last tile of a row block (second branch taken, first not): as on a middle tile, and then the new denominator is copied whole into the output buffer, whatever that held.
  The lists of pieces are what the body's stores leave in each buffer, last store first.
-/
import proofs.«163289_j51866025067153_2_alg».proof.Proof.KI.RunB

set_option maxRecDepth 16384

noncomputable section

namespace Cert.KernelIdeal.Frame

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 1000000 in
noncomputable def kernelRun0_C (c : Dev nD) (i : grid0.Coords) (arg2 : Memref sig .tc .vmem S256x6400 .f32) (harg2 : arg2.IsWhole) (arg3 : Memref sig .tc .vmem S256x1 .f32) (harg3 : arg3.IsWhole) (arg4 : Memref sig .tc .vmem S256x1 .f32) (harg4 : arg4.IsWhole) (arg5 : Memref sig .tc .vmem S256x1 .f32) (harg5 : arg5.IsWhole) (hc0 : ¬cond0_0 i) (hc1 : cond0_1 i)
    (x0 : Vec F S256x6400 .f32) (xs0 xs1 : Vec F S256x1 .f32) :
    Σ' (L1 : List (View.Piece (Elt F) S256x1 .f32)), Σ' (LS0 : List (View.Piece (Elt F) S256x1 .f32)), { LS1 : List (View.Piece (Elt F) S256x1 .f32) //
      ∀ (E : Set ℕ) (K : PUnit → sProp 𝕄),
        iprop(owns (c : Thread nD τ) arg2 fullShare x0 ∗ (∃ d, owns (c : Thread nD τ) arg3 fullShare d) ∗ owns (c : Thread nD τ) arg4 fullShare xs0 ∗ owns (c : Thread nD τ) arg5 fullShare xs1
            ∗ (iprop(owns (c : Thread nD τ) arg2 fullShare x0 ∗ (∃ f, arg3.view.loc (c : Thread nD τ) ↦[arg3.view.set]{fullShare} arg3.view.writes (Elt F) f L1) ∗ (∃ f, arg4.view.loc (c : Thread nD τ) ↦[arg4.view.set]{fullShare} arg4.view.writes (Elt F) f LS0) ∗ (∃ f, arg5.view.loc (c : Thread nD τ) ↦[arg5.view.set]{fullShare} arg5.view.writes (Elt F) f LS1)) -∗ K ⟨⟩))
          ⊢ wp frame (wpE (defs₀ (F := F)) Variants.none c none) E (cc0__token_confidence_kernel i arg2 harg2 arg3 harg3 arg4 harg4 arg5 harg5) K } := by
  refine ⟨?_, ?_, ?_, fun E K => ?run⟩
  case run =>
    simp only [cc0__token_confidence_kernel_eq_skeleton]; unfold cc0__token_confidence_kernel_skel
    unfold owns
    iintro ⟨⟨%f0, %hf0, H0⟩, ⟨%d1, %f1, -, H1⟩, ⟨%fs0, %hfs0, HS0⟩, ⟨%fs1, %hfs1, HS1⟩, Hk⟩
    obtain rfl := harg2.eq_unread hf0; obtain rfl := harg4.eq_unread hfs0; obtain rfl := harg5.eq_unread hfs1
    sl_exec (disch := first | exact hc0 | exact hc1)
    sl_step
    iapply Hk
    isplitl [H0]
    · iexists _; isplitr; · ipureintro; exact harg2.read_unread _
      iexact H0
    isplitl [H1]; · iexists _; iexact H1
    isplitl [HS0]
    · iexists _; iexact HS0
    iexists _; iexact HS1

end Cert.KernelIdeal.Frame

end
-- ==== Proof.KI.Frame.lean ====
/-
  The kernel program's frame: every weakly fair execution of @main terminates without a fault and leaves the arguments
  as launched. The pallas_call walks a 4 x 5 grid; along the second axis the body carries two scratch columns (the
  running maximum and the running denominator of a row block) from one tile to the next, resets them on the first tile
  and copies the denominator to the output block on the last. What the output buffer and the two scratch buffers hold
  after each grid point is defined by recursion on the point; the region's invariant before a point holds the scratch
  buffers at what the point before left (anything, before the first point); the body's run in each of its three cases
  then gives the body obligation at every point, and the library's launch theorem the run of @main.
-/
import proofs.«163289_j51866025067153_2_alg».proof.Proof.KI.RunC

set_option maxRecDepth 16384

noncomputable section

namespace Cert.KernelIdeal.Frame

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- What case A leaves in the output buffer (nothing is stored there: a placeholder nothing consults): its pieces read back. -/
def out0_A_1 (c : Dev nD) (i : grid0.Coords) (arg2 : Memref sig .tc .vmem S256x6400 .f32) (harg2 : arg2.IsWhole) (arg3 : Memref sig .tc .vmem S256x1 .f32) (harg3 : arg3.IsWhole) (arg4 : Memref sig .tc .vmem S256x1 .f32) (harg4 : arg4.IsWhole) (arg5 : Memref sig .tc .vmem S256x1 .f32) (harg5 : arg5.IsWhole) (hc0 : cond0_0 i) (hc1 : ¬cond0_1 i)
    (x0 : Vec F S256x6400 .f32) : Vec F S256x1 .f32 :=
  VO0_1.read (Elt F) (VO0_1.writes (Elt F) VO0_1.junk (kernelRun0_A c i arg2 harg2 arg3 harg3 arg4 harg4 arg5 harg5 hc0 hc1 x0).1)

/-- Case A's stores into scratch 0 cover it. -/
theorem scover0_A_0 (c : Dev nD) (i : grid0.Coords) (arg2 : Memref sig .tc .vmem S256x6400 .f32) (harg2 : arg2.IsWhole) (arg3 : Memref sig .tc .vmem S256x1 .f32) (harg3 : arg3.IsWhole) (arg4 : Memref sig .tc .vmem S256x1 .f32) (harg4 : arg4.IsWhole) (arg5 : Memref sig .tc .vmem S256x1 .f32) (harg5 : arg5.IsWhole) (hc0 : cond0_0 i) (hc1 : ¬cond0_1 i)
    (x0 : Vec F S256x6400 .f32) (y : S256x1.Idx) :
    ∃ pc ∈ (kernelRun0_A c i arg2 harg2 arg3 harg3 arg4 harg4 arg5 harg5 hc0 hc1 x0).2.1, y ∈ pc.1.set :=
  View.cover_of_tiledL (kernelRun0_A c i arg2 harg2 arg3 harg3 arg4 harg4 arg5 harg5 hc0 hc1 x0).2.1 S256x1.size (by sl_kernel_rfl) y

/-- What case A leaves in scratch 0: its pieces read back. -/
def sout0_A_0 (c : Dev nD) (i : grid0.Coords) (arg2 : Memref sig .tc .vmem S256x6400 .f32) (harg2 : arg2.IsWhole) (arg3 : Memref sig .tc .vmem S256x1 .f32) (harg3 : arg3.IsWhole) (arg4 : Memref sig .tc .vmem S256x1 .f32) (harg4 : arg4.IsWhole) (arg5 : Memref sig .tc .vmem S256x1 .f32) (harg5 : arg5.IsWhole) (hc0 : cond0_0 i) (hc1 : ¬cond0_1 i)
    (x0 : Vec F S256x6400 .f32) : Vec F S256x1 .f32 :=
  VS0_0.read (Elt F) (VS0_0.writes (Elt F) VS0_0.junk (kernelRun0_A c i arg2 harg2 arg3 harg3 arg4 harg4 arg5 harg5 hc0 hc1 x0).2.1)

/-- Case A's stores into scratch 1 cover it. -/
theorem scover0_A_1 (c : Dev nD) (i : grid0.Coords) (arg2 : Memref sig .tc .vmem S256x6400 .f32) (harg2 : arg2.IsWhole) (arg3 : Memref sig .tc .vmem S256x1 .f32) (harg3 : arg3.IsWhole) (arg4 : Memref sig .tc .vmem S256x1 .f32) (harg4 : arg4.IsWhole) (arg5 : Memref sig .tc .vmem S256x1 .f32) (harg5 : arg5.IsWhole) (hc0 : cond0_0 i) (hc1 : ¬cond0_1 i)
    (x0 : Vec F S256x6400 .f32) (y : S256x1.Idx) :
    ∃ pc ∈ (kernelRun0_A c i arg2 harg2 arg3 harg3 arg4 harg4 arg5 harg5 hc0 hc1 x0).2.2.1, y ∈ pc.1.set :=
  View.cover_of_tiledL (kernelRun0_A c i arg2 harg2 arg3 harg3 arg4 harg4 arg5 harg5 hc0 hc1 x0).2.2.1 S256x1.size (by sl_kernel_rfl) y

/-- What case A leaves in scratch 1: its pieces read back. -/
def sout0_A_1 (c : Dev nD) (i : grid0.Coords) (arg2 : Memref sig .tc .vmem S256x6400 .f32) (harg2 : arg2.IsWhole) (arg3 : Memref sig .tc .vmem S256x1 .f32) (harg3 : arg3.IsWhole) (arg4 : Memref sig .tc .vmem S256x1 .f32) (harg4 : arg4.IsWhole) (arg5 : Memref sig .tc .vmem S256x1 .f32) (harg5 : arg5.IsWhole) (hc0 : cond0_0 i) (hc1 : ¬cond0_1 i)
    (x0 : Vec F S256x6400 .f32) : Vec F S256x1 .f32 :=
  VS0_1.read (Elt F) (VS0_1.writes (Elt F) VS0_1.junk (kernelRun0_A c i arg2 harg2 arg3 harg3 arg4 harg4 arg5 harg5 hc0 hc1 x0).2.2.1)

/-- What case B leaves in the output buffer (nothing is stored there: a placeholder nothing consults): its pieces read back. -/
def out0_B_1 (c : Dev nD) (i : grid0.Coords) (arg2 : Memref sig .tc .vmem S256x6400 .f32) (harg2 : arg2.IsWhole) (arg3 : Memref sig .tc .vmem S256x1 .f32) (harg3 : arg3.IsWhole) (arg4 : Memref sig .tc .vmem S256x1 .f32) (harg4 : arg4.IsWhole) (arg5 : Memref sig .tc .vmem S256x1 .f32) (harg5 : arg5.IsWhole) (hc0 : ¬cond0_0 i) (hc1 : ¬cond0_1 i)
    (x0 : Vec F S256x6400 .f32) (xs0 xs1 : Vec F S256x1 .f32) : Vec F S256x1 .f32 :=
  VO0_1.read (Elt F) (VO0_1.writes (Elt F) VO0_1.junk (kernelRun0_B c i arg2 harg2 arg3 harg3 arg4 harg4 arg5 harg5 hc0 hc1 x0 xs0 xs1).1)

/-- Case B's stores into scratch 0 cover it. -/
theorem scover0_B_0 (c : Dev nD) (i : grid0.Coords) (arg2 : Memref sig .tc .vmem S256x6400 .f32) (harg2 : arg2.IsWhole) (arg3 : Memref sig .tc .vmem S256x1 .f32) (harg3 : arg3.IsWhole) (arg4 : Memref sig .tc .vmem S256x1 .f32) (harg4 : arg4.IsWhole) (arg5 : Memref sig .tc .vmem S256x1 .f32) (harg5 : arg5.IsWhole) (hc0 : ¬cond0_0 i) (hc1 : ¬cond0_1 i)
    (x0 : Vec F S256x6400 .f32) (xs0 xs1 : Vec F S256x1 .f32) (y : S256x1.Idx) :
    ∃ pc ∈ (kernelRun0_B c i arg2 harg2 arg3 harg3 arg4 harg4 arg5 harg5 hc0 hc1 x0 xs0 xs1).2.1, y ∈ pc.1.set :=
  View.cover_of_tiledL (kernelRun0_B c i arg2 harg2 arg3 harg3 arg4 harg4 arg5 harg5 hc0 hc1 x0 xs0 xs1).2.1 S256x1.size (by sl_kernel_rfl) y

/-- What case B leaves in scratch 0: its pieces read back. -/
def sout0_B_0 (c : Dev nD) (i : grid0.Coords) (arg2 : Memref sig .tc .vmem S256x6400 .f32) (harg2 : arg2.IsWhole) (arg3 : Memref sig .tc .vmem S256x1 .f32) (harg3 : arg3.IsWhole) (arg4 : Memref sig .tc .vmem S256x1 .f32) (harg4 : arg4.IsWhole) (arg5 : Memref sig .tc .vmem S256x1 .f32) (harg5 : arg5.IsWhole) (hc0 : ¬cond0_0 i) (hc1 : ¬cond0_1 i)
    (x0 : Vec F S256x6400 .f32) (xs0 xs1 : Vec F S256x1 .f32) : Vec F S256x1 .f32 :=
  VS0_0.read (Elt F) (VS0_0.writes (Elt F) VS0_0.junk (kernelRun0_B c i arg2 harg2 arg3 harg3 arg4 harg4 arg5 harg5 hc0 hc1 x0 xs0 xs1).2.1)

/-- Case B's stores into scratch 1 cover it. -/
theorem scover0_B_1 (c : Dev nD) (i : grid0.Coords) (arg2 : Memref sig .tc .vmem S256x6400 .f32) (harg2 : arg2.IsWhole) (arg3 : Memref sig .tc .vmem S256x1 .f32) (harg3 : arg3.IsWhole) (arg4 : Memref sig .tc .vmem S256x1 .f32) (harg4 : arg4.IsWhole) (arg5 : Memref sig .tc .vmem S256x1 .f32) (harg5 : arg5.IsWhole) (hc0 : ¬cond0_0 i) (hc1 : ¬cond0_1 i)
    (x0 : Vec F S256x6400 .f32) (xs0 xs1 : Vec F S256x1 .f32) (y : S256x1.Idx) :
    ∃ pc ∈ (kernelRun0_B c i arg2 harg2 arg3 harg3 arg4 harg4 arg5 harg5 hc0 hc1 x0 xs0 xs1).2.2.1, y ∈ pc.1.set :=
  View.cover_of_tiledL (kernelRun0_B c i arg2 harg2 arg3 harg3 arg4 harg4 arg5 harg5 hc0 hc1 x0 xs0 xs1).2.2.1 S256x1.size (by sl_kernel_rfl) y

/-- What case B leaves in scratch 1: its pieces read back. -/
def sout0_B_1 (c : Dev nD) (i : grid0.Coords) (arg2 : Memref sig .tc .vmem S256x6400 .f32) (harg2 : arg2.IsWhole) (arg3 : Memref sig .tc .vmem S256x1 .f32) (harg3 : arg3.IsWhole) (arg4 : Memref sig .tc .vmem S256x1 .f32) (harg4 : arg4.IsWhole) (arg5 : Memref sig .tc .vmem S256x1 .f32) (harg5 : arg5.IsWhole) (hc0 : ¬cond0_0 i) (hc1 : ¬cond0_1 i)
    (x0 : Vec F S256x6400 .f32) (xs0 xs1 : Vec F S256x1 .f32) : Vec F S256x1 .f32 :=
  VS0_1.read (Elt F) (VS0_1.writes (Elt F) VS0_1.junk (kernelRun0_B c i arg2 harg2 arg3 harg3 arg4 harg4 arg5 harg5 hc0 hc1 x0 xs0 xs1).2.2.1)

/-- On the last tile the body's one store into the output buffer covers it. -/
theorem cover0_C_1 (c : Dev nD) (i : grid0.Coords) (arg2 : Memref sig .tc .vmem S256x6400 .f32) (harg2 : arg2.IsWhole) (arg3 : Memref sig .tc .vmem S256x1 .f32) (harg3 : arg3.IsWhole) (arg4 : Memref sig .tc .vmem S256x1 .f32) (harg4 : arg4.IsWhole) (arg5 : Memref sig .tc .vmem S256x1 .f32) (harg5 : arg5.IsWhole) (hc0 : ¬cond0_0 i) (hc1 : cond0_1 i)
    (x0 : Vec F S256x6400 .f32) (xs0 xs1 : Vec F S256x1 .f32) (y : S256x1.Idx) :
    ∃ pc ∈ (kernelRun0_C c i arg2 harg2 arg3 harg3 arg4 harg4 arg5 harg5 hc0 hc1 x0 xs0 xs1).1, y ∈ pc.1.set :=
  View.cover_of_tiledL (kernelRun0_C c i arg2 harg2 arg3 harg3 arg4 harg4 arg5 harg5 hc0 hc1 x0 xs0 xs1).1 S256x1.size (by sl_kernel_rfl) y

/-- What case C leaves in the output buffer: its pieces read back. -/
def out0_C_1 (c : Dev nD) (i : grid0.Coords) (arg2 : Memref sig .tc .vmem S256x6400 .f32) (harg2 : arg2.IsWhole) (arg3 : Memref sig .tc .vmem S256x1 .f32) (harg3 : arg3.IsWhole) (arg4 : Memref sig .tc .vmem S256x1 .f32) (harg4 : arg4.IsWhole) (arg5 : Memref sig .tc .vmem S256x1 .f32) (harg5 : arg5.IsWhole) (hc0 : ¬cond0_0 i) (hc1 : cond0_1 i)
    (x0 : Vec F S256x6400 .f32) (xs0 xs1 : Vec F S256x1 .f32) : Vec F S256x1 .f32 :=
  VO0_1.read (Elt F) (VO0_1.writes (Elt F) VO0_1.junk (kernelRun0_C c i arg2 harg2 arg3 harg3 arg4 harg4 arg5 harg5 hc0 hc1 x0 xs0 xs1).1)

/-- Case C's stores into scratch 0 cover it. -/
theorem scover0_C_0 (c : Dev nD) (i : grid0.Coords) (arg2 : Memref sig .tc .vmem S256x6400 .f32) (harg2 : arg2.IsWhole) (arg3 : Memref sig .tc .vmem S256x1 .f32) (harg3 : arg3.IsWhole) (arg4 : Memref sig .tc .vmem S256x1 .f32) (harg4 : arg4.IsWhole) (arg5 : Memref sig .tc .vmem S256x1 .f32) (harg5 : arg5.IsWhole) (hc0 : ¬cond0_0 i) (hc1 : cond0_1 i)
    (x0 : Vec F S256x6400 .f32) (xs0 xs1 : Vec F S256x1 .f32) (y : S256x1.Idx) :
    ∃ pc ∈ (kernelRun0_C c i arg2 harg2 arg3 harg3 arg4 harg4 arg5 harg5 hc0 hc1 x0 xs0 xs1).2.1, y ∈ pc.1.set :=
  View.cover_of_tiledL (kernelRun0_C c i arg2 harg2 arg3 harg3 arg4 harg4 arg5 harg5 hc0 hc1 x0 xs0 xs1).2.1 S256x1.size (by sl_kernel_rfl) y

/-- What case C leaves in scratch 0: its pieces read back. -/
def sout0_C_0 (c : Dev nD) (i : grid0.Coords) (arg2 : Memref sig .tc .vmem S256x6400 .f32) (harg2 : arg2.IsWhole) (arg3 : Memref sig .tc .vmem S256x1 .f32) (harg3 : arg3.IsWhole) (arg4 : Memref sig .tc .vmem S256x1 .f32) (harg4 : arg4.IsWhole) (arg5 : Memref sig .tc .vmem S256x1 .f32) (harg5 : arg5.IsWhole) (hc0 : ¬cond0_0 i) (hc1 : cond0_1 i)
    (x0 : Vec F S256x6400 .f32) (xs0 xs1 : Vec F S256x1 .f32) : Vec F S256x1 .f32 :=
  VS0_0.read (Elt F) (VS0_0.writes (Elt F) VS0_0.junk (kernelRun0_C c i arg2 harg2 arg3 harg3 arg4 harg4 arg5 harg5 hc0 hc1 x0 xs0 xs1).2.1)

/-- Case C's stores into scratch 1 cover it. -/
theorem scover0_C_1 (c : Dev nD) (i : grid0.Coords) (arg2 : Memref sig .tc .vmem S256x6400 .f32) (harg2 : arg2.IsWhole) (arg3 : Memref sig .tc .vmem S256x1 .f32) (harg3 : arg3.IsWhole) (arg4 : Memref sig .tc .vmem S256x1 .f32) (harg4 : arg4.IsWhole) (arg5 : Memref sig .tc .vmem S256x1 .f32) (harg5 : arg5.IsWhole) (hc0 : ¬cond0_0 i) (hc1 : cond0_1 i)
    (x0 : Vec F S256x6400 .f32) (xs0 xs1 : Vec F S256x1 .f32) (y : S256x1.Idx) :
    ∃ pc ∈ (kernelRun0_C c i arg2 harg2 arg3 harg3 arg4 harg4 arg5 harg5 hc0 hc1 x0 xs0 xs1).2.2.1, y ∈ pc.1.set :=
  View.cover_of_tiledL (kernelRun0_C c i arg2 harg2 arg3 harg3 arg4 harg4 arg5 harg5 hc0 hc1 x0 xs0 xs1).2.2.1 S256x1.size (by sl_kernel_rfl) y

/-- What case C leaves in scratch 1: its pieces read back. -/
def sout0_C_1 (c : Dev nD) (i : grid0.Coords) (arg2 : Memref sig .tc .vmem S256x6400 .f32) (harg2 : arg2.IsWhole) (arg3 : Memref sig .tc .vmem S256x1 .f32) (harg3 : arg3.IsWhole) (arg4 : Memref sig .tc .vmem S256x1 .f32) (harg4 : arg4.IsWhole) (arg5 : Memref sig .tc .vmem S256x1 .f32) (harg5 : arg5.IsWhole) (hc0 : ¬cond0_0 i) (hc1 : cond0_1 i)
    (x0 : Vec F S256x6400 .f32) (xs0 xs1 : Vec F S256x1 .f32) : Vec F S256x1 .f32 :=
  VS0_1.read (Elt F) (VS0_1.writes (Elt F) VS0_1.junk (kernelRun0_C c i arg2 harg2 arg3 harg3 arg4 harg4 arg5 harg5 hc0 hc1 x0 xs0 xs1).2.2.1)

/-! ## What the buffers hold after each point -/

/-- After the body at position `n`: the output buffer, the running maximum, the running denominator. The case is the
    one the point's reduction coordinate selects; a middle or last tile starts from what the point before left. -/
def outsAt0 (c : Dev nD) : (n : ℕ) → n < cfg0.N → Vec F S256x1 .f32 × Vec F S256x1 .f32 × Vec F S256x1 .f32
  | 0, hn => (out0_A_1 c (grid0.coords ⟨0, hn⟩) (ms0_0 ⟨0, hn⟩) (hs0_0 ⟨0, hn⟩) (ms0_1 ⟨0, hn⟩) (hs0_1 ⟨0, hn⟩) scM0_0 (Memref.isWhole_whole _) scM0_1 (Memref.isWhole_whole _) ((hcond0_0 ⟨0, hn⟩).mpr (Nat.zero_mod _)) (fun h => (fun h => by (try dsimp only at h); omega) ((hcond0_1 ⟨0, hn⟩).mp h)) (iblk m c 0 ⟨0, hn⟩), sout0_A_0 c (grid0.coords ⟨0, hn⟩) (ms0_0 ⟨0, hn⟩) (hs0_0 ⟨0, hn⟩) (ms0_1 ⟨0, hn⟩) (hs0_1 ⟨0, hn⟩) scM0_0 (Memref.isWhole_whole _) scM0_1 (Memref.isWhole_whole _) ((hcond0_0 ⟨0, hn⟩).mpr (Nat.zero_mod _)) (fun h => (fun h => by (try dsimp only at h); omega) ((hcond0_1 ⟨0, hn⟩).mp h)) (iblk m c 0 ⟨0, hn⟩), sout0_A_1 c (grid0.coords ⟨0, hn⟩) (ms0_0 ⟨0, hn⟩) (hs0_0 ⟨0, hn⟩) (ms0_1 ⟨0, hn⟩) (hs0_1 ⟨0, hn⟩) scM0_0 (Memref.isWhole_whole _) scM0_1 (Memref.isWhole_whole _) ((hcond0_0 ⟨0, hn⟩).mpr (Nat.zero_mod _)) (fun h => (fun h => by (try dsimp only at h); omega) ((hcond0_1 ⟨0, hn⟩).mp h)) (iblk m c 0 ⟨0, hn⟩))
  | n + 1, hn =>
    if h0 : (n + 1) % 5 = 0 then
      if h1 : (n + 1) % 5 = 4 then
        False.elim (by omega)
      else
        (out0_A_1 c (grid0.coords ⟨n + 1, hn⟩) (ms0_0 ⟨n + 1, hn⟩) (hs0_0 ⟨n + 1, hn⟩) (ms0_1 ⟨n + 1, hn⟩) (hs0_1 ⟨n + 1, hn⟩) scM0_0 (Memref.isWhole_whole _) scM0_1 (Memref.isWhole_whole _) ((hcond0_0 ⟨n + 1, hn⟩).mpr h0) (fun h => h1 ((hcond0_1 ⟨n + 1, hn⟩).mp h)) (iblk m c 0 ⟨n + 1, hn⟩), sout0_A_0 c (grid0.coords ⟨n + 1, hn⟩) (ms0_0 ⟨n + 1, hn⟩) (hs0_0 ⟨n + 1, hn⟩) (ms0_1 ⟨n + 1, hn⟩) (hs0_1 ⟨n + 1, hn⟩) scM0_0 (Memref.isWhole_whole _) scM0_1 (Memref.isWhole_whole _) ((hcond0_0 ⟨n + 1, hn⟩).mpr h0) (fun h => h1 ((hcond0_1 ⟨n + 1, hn⟩).mp h)) (iblk m c 0 ⟨n + 1, hn⟩), sout0_A_1 c (grid0.coords ⟨n + 1, hn⟩) (ms0_0 ⟨n + 1, hn⟩) (hs0_0 ⟨n + 1, hn⟩) (ms0_1 ⟨n + 1, hn⟩) (hs0_1 ⟨n + 1, hn⟩) scM0_0 (Memref.isWhole_whole _) scM0_1 (Memref.isWhole_whole _) ((hcond0_0 ⟨n + 1, hn⟩).mpr h0) (fun h => h1 ((hcond0_1 ⟨n + 1, hn⟩).mp h)) (iblk m c 0 ⟨n + 1, hn⟩))
    else
      if h1 : (n + 1) % 5 = 4 then
        (out0_C_1 c (grid0.coords ⟨n + 1, hn⟩) (ms0_0 ⟨n + 1, hn⟩) (hs0_0 ⟨n + 1, hn⟩) (ms0_1 ⟨n + 1, hn⟩) (hs0_1 ⟨n + 1, hn⟩) scM0_0 (Memref.isWhole_whole _) scM0_1 (Memref.isWhole_whole _) (fun h => h0 ((hcond0_0 ⟨n + 1, hn⟩).mp h)) ((hcond0_1 ⟨n + 1, hn⟩).mpr h1) (iblk m c 0 ⟨n + 1, hn⟩) (outsAt0 c n (Nat.lt_of_succ_lt hn)).2.1 (outsAt0 c n (Nat.lt_of_succ_lt hn)).2.2, sout0_C_0 c (grid0.coords ⟨n + 1, hn⟩) (ms0_0 ⟨n + 1, hn⟩) (hs0_0 ⟨n + 1, hn⟩) (ms0_1 ⟨n + 1, hn⟩) (hs0_1 ⟨n + 1, hn⟩) scM0_0 (Memref.isWhole_whole _) scM0_1 (Memref.isWhole_whole _) (fun h => h0 ((hcond0_0 ⟨n + 1, hn⟩).mp h)) ((hcond0_1 ⟨n + 1, hn⟩).mpr h1) (iblk m c 0 ⟨n + 1, hn⟩) (outsAt0 c n (Nat.lt_of_succ_lt hn)).2.1 (outsAt0 c n (Nat.lt_of_succ_lt hn)).2.2, sout0_C_1 c (grid0.coords ⟨n + 1, hn⟩) (ms0_0 ⟨n + 1, hn⟩) (hs0_0 ⟨n + 1, hn⟩) (ms0_1 ⟨n + 1, hn⟩) (hs0_1 ⟨n + 1, hn⟩) scM0_0 (Memref.isWhole_whole _) scM0_1 (Memref.isWhole_whole _) (fun h => h0 ((hcond0_0 ⟨n + 1, hn⟩).mp h)) ((hcond0_1 ⟨n + 1, hn⟩).mpr h1) (iblk m c 0 ⟨n + 1, hn⟩) (outsAt0 c n (Nat.lt_of_succ_lt hn)).2.1 (outsAt0 c n (Nat.lt_of_succ_lt hn)).2.2)
      else
        (out0_B_1 c (grid0.coords ⟨n + 1, hn⟩) (ms0_0 ⟨n + 1, hn⟩) (hs0_0 ⟨n + 1, hn⟩) (ms0_1 ⟨n + 1, hn⟩) (hs0_1 ⟨n + 1, hn⟩) scM0_0 (Memref.isWhole_whole _) scM0_1 (Memref.isWhole_whole _) (fun h => h0 ((hcond0_0 ⟨n + 1, hn⟩).mp h)) (fun h => h1 ((hcond0_1 ⟨n + 1, hn⟩).mp h)) (iblk m c 0 ⟨n + 1, hn⟩) (outsAt0 c n (Nat.lt_of_succ_lt hn)).2.1 (outsAt0 c n (Nat.lt_of_succ_lt hn)).2.2, sout0_B_0 c (grid0.coords ⟨n + 1, hn⟩) (ms0_0 ⟨n + 1, hn⟩) (hs0_0 ⟨n + 1, hn⟩) (ms0_1 ⟨n + 1, hn⟩) (hs0_1 ⟨n + 1, hn⟩) scM0_0 (Memref.isWhole_whole _) scM0_1 (Memref.isWhole_whole _) (fun h => h0 ((hcond0_0 ⟨n + 1, hn⟩).mp h)) (fun h => h1 ((hcond0_1 ⟨n + 1, hn⟩).mp h)) (iblk m c 0 ⟨n + 1, hn⟩) (outsAt0 c n (Nat.lt_of_succ_lt hn)).2.1 (outsAt0 c n (Nat.lt_of_succ_lt hn)).2.2, sout0_B_1 c (grid0.coords ⟨n + 1, hn⟩) (ms0_0 ⟨n + 1, hn⟩) (hs0_0 ⟨n + 1, hn⟩) (ms0_1 ⟨n + 1, hn⟩) (hs0_1 ⟨n + 1, hn⟩) scM0_0 (Memref.isWhole_whole _) scM0_1 (Memref.isWhole_whole _) (fun h => h0 ((hcond0_0 ⟨n + 1, hn⟩).mp h)) (fun h => h1 ((hcond0_1 ⟨n + 1, hn⟩).mp h)) (iblk m c 0 ⟨n + 1, hn⟩) (outsAt0 c n (Nat.lt_of_succ_lt hn)).2.1 (outsAt0 c n (Nat.lt_of_succ_lt hn)).2.2)

theorem outsAt0_A (c : Dev nD) (t : Fin cfg0.N) (h0 : t.val % 5 = 0) (h1 : ¬t.val % 5 = 4) :
    outsAt0 m c t.val t.isLt = (out0_A_1 c (grid0.coords t) (ms0_0 t) (hs0_0 t) (ms0_1 t) (hs0_1 t) scM0_0 (Memref.isWhole_whole _) scM0_1 (Memref.isWhole_whole _) ((hcond0_0 t).mpr h0) (fun h => h1 ((hcond0_1 t).mp h)) (iblk m c 0 t), sout0_A_0 c (grid0.coords t) (ms0_0 t) (hs0_0 t) (ms0_1 t) (hs0_1 t) scM0_0 (Memref.isWhole_whole _) scM0_1 (Memref.isWhole_whole _) ((hcond0_0 t).mpr h0) (fun h => h1 ((hcond0_1 t).mp h)) (iblk m c 0 t), sout0_A_1 c (grid0.coords t) (ms0_0 t) (hs0_0 t) (ms0_1 t) (hs0_1 t) scM0_0 (Memref.isWhole_whole _) scM0_1 (Memref.isWhole_whole _) ((hcond0_0 t).mpr h0) (fun h => h1 ((hcond0_1 t).mp h)) (iblk m c 0 t)) := by
  obtain ⟨n, hn⟩ := t
  cases n with
  | zero => exact rfl
  | succ n => exact (dif_pos h0).trans ((dif_neg h1).trans rfl)

theorem outsAt0_B (c : Dev nD) (t : Fin cfg0.N) (h0 : ¬t.val % 5 = 0) (h1 : ¬t.val % 5 = 4) :
    outsAt0 m c t.val t.isLt = (out0_B_1 c (grid0.coords t) (ms0_0 t) (hs0_0 t) (ms0_1 t) (hs0_1 t) scM0_0 (Memref.isWhole_whole _) scM0_1 (Memref.isWhole_whole _) (fun h => h0 ((hcond0_0 t).mp h)) (fun h => h1 ((hcond0_1 t).mp h)) (iblk m c 0 t) (outsAt0 m c (t.val - 1) (Nat.lt_of_le_of_lt (Nat.sub_le _ _) t.isLt)).2.1 (outsAt0 m c (t.val - 1) (Nat.lt_of_le_of_lt (Nat.sub_le _ _) t.isLt)).2.2, sout0_B_0 c (grid0.coords t) (ms0_0 t) (hs0_0 t) (ms0_1 t) (hs0_1 t) scM0_0 (Memref.isWhole_whole _) scM0_1 (Memref.isWhole_whole _) (fun h => h0 ((hcond0_0 t).mp h)) (fun h => h1 ((hcond0_1 t).mp h)) (iblk m c 0 t) (outsAt0 m c (t.val - 1) (Nat.lt_of_le_of_lt (Nat.sub_le _ _) t.isLt)).2.1 (outsAt0 m c (t.val - 1) (Nat.lt_of_le_of_lt (Nat.sub_le _ _) t.isLt)).2.2, sout0_B_1 c (grid0.coords t) (ms0_0 t) (hs0_0 t) (ms0_1 t) (hs0_1 t) scM0_0 (Memref.isWhole_whole _) scM0_1 (Memref.isWhole_whole _) (fun h => h0 ((hcond0_0 t).mp h)) (fun h => h1 ((hcond0_1 t).mp h)) (iblk m c 0 t) (outsAt0 m c (t.val - 1) (Nat.lt_of_le_of_lt (Nat.sub_le _ _) t.isLt)).2.1 (outsAt0 m c (t.val - 1) (Nat.lt_of_le_of_lt (Nat.sub_le _ _) t.isLt)).2.2) := by
  obtain ⟨n, hn⟩ := t
  cases n with
  | zero => exact (by exfalso; (try dsimp only at h0); exact absurd (Nat.zero_mod _) h0)
  | succ n => exact (dif_neg h0).trans ((dif_neg h1).trans rfl)

theorem outsAt0_C (c : Dev nD) (t : Fin cfg0.N) (h0 : ¬t.val % 5 = 0) (h1 : t.val % 5 = 4) :
    outsAt0 m c t.val t.isLt = (out0_C_1 c (grid0.coords t) (ms0_0 t) (hs0_0 t) (ms0_1 t) (hs0_1 t) scM0_0 (Memref.isWhole_whole _) scM0_1 (Memref.isWhole_whole _) (fun h => h0 ((hcond0_0 t).mp h)) ((hcond0_1 t).mpr h1) (iblk m c 0 t) (outsAt0 m c (t.val - 1) (Nat.lt_of_le_of_lt (Nat.sub_le _ _) t.isLt)).2.1 (outsAt0 m c (t.val - 1) (Nat.lt_of_le_of_lt (Nat.sub_le _ _) t.isLt)).2.2, sout0_C_0 c (grid0.coords t) (ms0_0 t) (hs0_0 t) (ms0_1 t) (hs0_1 t) scM0_0 (Memref.isWhole_whole _) scM0_1 (Memref.isWhole_whole _) (fun h => h0 ((hcond0_0 t).mp h)) ((hcond0_1 t).mpr h1) (iblk m c 0 t) (outsAt0 m c (t.val - 1) (Nat.lt_of_le_of_lt (Nat.sub_le _ _) t.isLt)).2.1 (outsAt0 m c (t.val - 1) (Nat.lt_of_le_of_lt (Nat.sub_le _ _) t.isLt)).2.2, sout0_C_1 c (grid0.coords t) (ms0_0 t) (hs0_0 t) (ms0_1 t) (hs0_1 t) scM0_0 (Memref.isWhole_whole _) scM0_1 (Memref.isWhole_whole _) (fun h => h0 ((hcond0_0 t).mp h)) ((hcond0_1 t).mpr h1) (iblk m c 0 t) (outsAt0 m c (t.val - 1) (Nat.lt_of_le_of_lt (Nat.sub_le _ _) t.isLt)).2.1 (outsAt0 m c (t.val - 1) (Nat.lt_of_le_of_lt (Nat.sub_le _ _) t.isLt)).2.2) := by
  obtain ⟨n, hn⟩ := t
  cases n with
  | zero => exact (by exfalso; (try dsimp only at h0); exact absurd (Nat.zero_mod _) h0)
  | succ n => exact (dif_neg h0).trans ((dif_pos h1).trans rfl)

/-- The region's invariant before position `n`: before the first point both scratch buffers hold anything; afterwards
    each holds what the point before left in it. The generator register is at some state throughout. -/
def PhiS (c : Dev nD) : (n : ℕ) → n ≤ cfg0.N → sProp 𝕄
  | 0, _ => Pipeline.ΦA spec0 c
  | n + 1, hn => iprop(iprop(owns (c : Thread nD τ) scM0_0 fullShare ((outsAt0 m c n hn).2.1) ∗ owns (c : Thread nD τ) scM0_1 fullShare ((outsAt0 m c n hn).2.2)) ∗ (∃ r, prngReg c r))

theorem PhiS_zero (c : Dev nD) (n : ℕ) (h : n ≤ cfg0.N) (hz : n = 0) : PhiS m c n h = Pipeline.ΦA spec0 c := by
  subst hz; rfl

theorem PhiS_succ (c : Dev nD) (n : ℕ) (hn : n < cfg0.N) :
    PhiS m c (n + 1) hn = iprop(iprop(owns (c : Thread nD τ) scM0_0 fullShare ((outsAt0 m c n hn).2.1) ∗ owns (c : Thread nD τ) scM0_1 fullShare ((outsAt0 m c n hn).2.2)) ∗ (∃ r, prngReg c r)) := rfl

theorem PhiS_pos (c : Dev nD) (n : ℕ) (h : n ≤ cfg0.N) (hz : n ≠ 0) :
    PhiS m c n h = iprop(iprop(owns (c : Thread nD τ) scM0_0 fullShare ((outsAt0 m c (n - 1) (by omega)).2.1) ∗ owns (c : Thread nD τ) scM0_1 fullShare ((outsAt0 m c (n - 1) (by omega)).2.2)) ∗ (∃ r, prngReg c r)) := by
  cases n with
  | zero => exact absurd rfl hz
  | succ n => rfl

/-! ## The pipeline's proof data -/

/-- The arrays as the region finds them; after the body at a point the input buffer at its block and the output
    buffer at the accumulation's first component; the invariant above; nothing owed; full shares. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => (outsAt0 m c t.val t.isLt).1
  Φ t := PhiS m c t.val (Nat.le_of_lt_succ t.isLt)
  q _ := fullShare
  owed _ := 0

theorem A_eq (c : Dev nD) (w : Fin cfg0.W) : (dats m 0 c).A w = V m c (Pipeline.arrRef spec0 w) := by
  dsimp only [dats]

theorem PhiS_castSucc (c : Dev nD) (t : Fin cfg0.N) :
    (dats m 0 c).Φ t.castSucc = PhiS m c t.val (Nat.le_of_lt t.isLt) := by
  dsimp only [dats]; simp only [Fin.coe_castSucc]

theorem after0_0 (c : Dev nD) (t : Fin cfg0.N) : (dats m 0 c).after 0 t = iblk m c 0 t := by dsimp only [dats]
theorem after0_1 (c : Dev nD) (t : Fin cfg0.N) : (dats m 0 c).after 1 t = (outsAt0 m c t.val t.isLt).1 := by dsimp only [dats]

theorem before0_0 (c : Dev nD) (t : Fin cfg0.N) (d) : (dats m 0 c).before 0 t d = iblk m c 0 t :=
  before0_0_of m (dats m 0 c) (A_eq m c 0) (after0_0 m c) t d

/-! ## The body obligation -/

def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d)))

def bodyPost (c : Dev nD) (t : Fin cfg0.N) : sProp 𝕄 :=
  iprop((dats m 0 c).Φ t.succ ∗ (dats m 0 c).owesAt () t.succ
    ∗ (dats m 0 c).leavesExact 0 t
    ∗ (dats m 0 c).leavesExact 1 t)

set_option maxHeartbeats 4800000 in
/-- The body at any point: the input buffer holds its block; the point's reduction coordinate says which case it is
    in; the invariant hands over the scratch buffers (at anything at the first point, else at what the point before
    left) and takes them back at this point's contents, which the case's stores cover. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0]
  rw [show (dats m 0 c).owesAt () t.succ = (dats m 0 c).owesAt () t.castSucc from rfl]
  rw [show (dats m 0 c).Φ t.succ = PhiS m c (t.val + 1) t.isLt from rfl, PhiS_succ]
  have hN : t.val < 20 := lt_of_lt_of_eq t.isLt (show cfg0.N = 20 from N_0)
  by_cases h0 : t.val % 5 = 0
  · by_cases h1 : t.val % 5 = 4
    · exfalso; omega
    · rw [show (dats m 0 c).leavesExact 0 t = owns (c : Thread nD τ) (ms0_0 t) fullShare ((dats m 0 c).after 0 t) from by
        unfold Dat.leavesExact; rw [liveAt0_0 t], after0_0]
      rw [Dat.leavesExact_idle (dats m 0 c) 1 t (idleAt0_1 t (fun h => h1 ((hcond0_1 t).mp h))) (noFlush0_1 t (fun h => h1 ((hcond0_1 t).mp h)))]
      rw [outsAt0_A m c t h0 h1]
      unfold sout0_A_0 sout0_A_1; (try dsimp only)
      by_cases hz : t.val = 0
      · rw [PhiS_castSucc m c t, PhiS_zero m c _ _ hz, PhiA0_eq]
        iintro ⟨⟨⟨HS0, HS1⟩, Hg⟩, Ho, ⟨%d0, H0⟩, ⟨%d1, H1⟩⟩
        iapply ((kernelRun0_A c (grid0.coords t) _ _ _ _ _ _ _ _ ((hcond0_0 t).mpr h0) (fun h => h1 ((hcond0_1 t).mp h)) (iblk m c 0 t)).2.2.2 _ Set.univ _)
        isplitl [H0]; · iexact H0
        isplitl [H1]; · iexact H1
        isplitl [HS0]; · iexact HS0
        isplitl [HS1]; · iexact HS1
        iintro ⟨H0, H1, ⟨%es0, HS0⟩, ⟨%es1, HS1⟩⟩
        isplitl [HS0 HS1 Hg]
        · isplitl [HS0 HS1]
          · isplitl [HS0]
            · unfold owns; iexists _; isplitr
              swap; · iexact HS0
              ipureintro; exact View.read_writes_of_cover _ _ _ _ _ (scover0_A_0 c _ _ _ _ _ _ _ _ _ _ _ _)
            · unfold owns; iexists _; isplitr
              swap; · iexact HS1
              ipureintro; exact View.read_writes_of_cover _ _ _ _ _ (scover0_A_1 c _ _ _ _ _ _ _ _ _ _ _ _)
          iexact Hg
        isplitl [Ho]; · iexact Ho
        isplitl [H0]; · iexact H0
        iexists _; iexact H1
      · rw [PhiS_castSucc m c t, PhiS_pos m c _ _ hz]
        iintro ⟨⟨⟨HS0, HS1⟩, Hg⟩, Ho, ⟨%d0, H0⟩, ⟨%d1, H1⟩⟩
        iapply ((kernelRun0_A c (grid0.coords t) _ _ _ _ _ _ _ _ ((hcond0_0 t).mpr h0) (fun h => h1 ((hcond0_1 t).mp h)) (iblk m c 0 t)).2.2.2 _ Set.univ _)
        isplitl [H0]; · iexact H0
        isplitl [H1]; · iexact H1
        isplitl [HS0]; · iexists _; iexact HS0
        isplitl [HS1]; · iexists _; iexact HS1
        iintro ⟨H0, H1, ⟨%es0, HS0⟩, ⟨%es1, HS1⟩⟩
        isplitl [HS0 HS1 Hg]
        · isplitl [HS0 HS1]
          · isplitl [HS0]
            · unfold owns; iexists _; isplitr
              swap; · iexact HS0
              ipureintro; exact View.read_writes_of_cover _ _ _ _ _ (scover0_A_0 c _ _ _ _ _ _ _ _ _ _ _ _)
            · unfold owns; iexists _; isplitr
              swap; · iexact HS1
              ipureintro; exact View.read_writes_of_cover _ _ _ _ _ (scover0_A_1 c _ _ _ _ _ _ _ _ _ _ _ _)
          iexact Hg
        isplitl [Ho]; · iexact Ho
        isplitl [H0]; · iexact H0
        iexists _; iexact H1
  · have hz : t.val ≠ 0 := fun hz => h0 (by rw [hz])
    by_cases h1 : t.val % 5 = 4
    · rw [show (dats m 0 c).leavesExact 0 t = owns (c : Thread nD τ) (ms0_0 t) fullShare ((dats m 0 c).after 0 t) from by
        unfold Dat.leavesExact; rw [liveAt0_0 t], after0_0]
      rw [show (dats m 0 c).leavesExact 1 t = owns (c : Thread nD τ) (ms0_1 t) fullShare ((dats m 0 c).after 1 t) from by
        unfold Dat.leavesExact; rw [liveAt0_1 t ((hcond0_1 t).mpr h1)], after0_1]
      rw [outsAt0_C m c t h0 h1]
      unfold out0_C_1 sout0_C_0 sout0_C_1; (try dsimp only)
      · rw [PhiS_castSucc m c t, PhiS_pos m c _ _ hz]
        iintro ⟨⟨⟨HS0, HS1⟩, Hg⟩, Ho, ⟨%d0, H0⟩, ⟨%d1, H1⟩⟩
        iapply ((kernelRun0_C c (grid0.coords t) _ _ _ _ _ _ _ _ (fun h => h0 ((hcond0_0 t).mp h)) ((hcond0_1 t).mpr h1) (iblk m c 0 t) _ _).2.2.2 Set.univ _)
        isplitl [H0]; · iexact H0
        isplitl [H1]; · iexists _; iexact H1
        isplitl [HS0]; · iexact HS0
        isplitl [HS1]; · iexact HS1
        iintro ⟨H0, ⟨%e1, H1⟩, ⟨%es0, HS0⟩, ⟨%es1, HS1⟩⟩
        isplitl [HS0 HS1 Hg]
        · isplitl [HS0 HS1]
          · isplitl [HS0]
            · unfold owns; iexists _; isplitr
              swap; · iexact HS0
              ipureintro; exact View.read_writes_of_cover _ _ _ _ _ (scover0_C_0 c _ _ _ _ _ _ _ _ _ _ _ _ _ _)
            · unfold owns; iexists _; isplitr
              swap; · iexact HS1
              ipureintro; exact View.read_writes_of_cover _ _ _ _ _ (scover0_C_1 c _ _ _ _ _ _ _ _ _ _ _ _ _ _)
          iexact Hg
        isplitl [Ho]; · iexact Ho
        isplitl [H0]; · iexact H0
        unfold owns; iexists _; isplitr
        swap; · iexact H1
        ipureintro; exact View.read_writes_of_cover _ _ _ _ _ (cover0_C_1 c _ _ _ _ _ _ _ _ _ _ _ _ _ _)
    · rw [show (dats m 0 c).leavesExact 0 t = owns (c : Thread nD τ) (ms0_0 t) fullShare ((dats m 0 c).after 0 t) from by
        unfold Dat.leavesExact; rw [liveAt0_0 t], after0_0]
      rw [Dat.leavesExact_idle (dats m 0 c) 1 t (idleAt0_1 t (fun h => h1 ((hcond0_1 t).mp h))) (noFlush0_1 t (fun h => h1 ((hcond0_1 t).mp h)))]
      rw [outsAt0_B m c t h0 h1]
      unfold sout0_B_0 sout0_B_1; (try dsimp only)
      · rw [PhiS_castSucc m c t, PhiS_pos m c _ _ hz]
        iintro ⟨⟨⟨HS0, HS1⟩, Hg⟩, Ho, ⟨%d0, H0⟩, ⟨%d1, H1⟩⟩
        iapply ((kernelRun0_B c (grid0.coords t) _ _ _ _ _ _ _ _ (fun h => h0 ((hcond0_0 t).mp h)) (fun h => h1 ((hcond0_1 t).mp h)) (iblk m c 0 t) _ _).2.2.2 _ Set.univ _)
        isplitl [H0]; · iexact H0
        isplitl [H1]; · iexact H1
        isplitl [HS0]; · iexact HS0
        isplitl [HS1]; · iexact HS1
        iintro ⟨H0, H1, ⟨%es0, HS0⟩, ⟨%es1, HS1⟩⟩
        isplitl [HS0 HS1 Hg]
        · isplitl [HS0 HS1]
          · isplitl [HS0]
            · unfold owns; iexists _; isplitr
              swap; · iexact HS0
              ipureintro; exact View.read_writes_of_cover _ _ _ _ _ (scover0_B_0 c _ _ _ _ _ _ _ _ _ _ _ _ _ _)
            · unfold owns; iexists _; isplitr
              swap; · iexact HS1
              ipureintro; exact View.read_writes_of_cover _ _ _ _ _ (scover0_B_1 c _ _ _ _ _ _ _ _ _ _ _ _ _ _)
          iexact Hg
        isplitl [Ho]; · iexact Ho
        isplitl [H0]; · iexact H0
        iexists _; iexact H1

theorem body_obligation (c : Dev nD) : BodyObligation (dats (F := F) m 0 c) (defs₀ (F := F)) Variants.none () Set.univ := fun t => by
  rw [bigSep_W0, bigSep_W0]
  exact sound_body m c t

theorem hin (c : Dev nD) : Pipeline.ΦA spec0 c ⊢ (dats m 0 c).Φ 0 := by
  rw [show (dats m 0 c).Φ 0 = PhiS m c 0 (Nat.zero_le _) from rfl, PhiS_zero m c 0 _ rfl]
  try exact Idealize.SL.BI.Entails.refl _

/-- After any point but the first the invariant gives the launch's invariant back: the scratch buffers' contents are
    forgotten. -/
theorem Phi_out (c : Dev nD) (t : Fin (cfg0.N + 1)) (ht : t.val ≠ 0) : (dats m 0 c).Φ t ⊢ Pipeline.ΦA spec0 c := by
  rw [show (dats m 0 c).Φ t = PhiS m c t.val (Nat.le_of_lt_succ t.isLt) from rfl, PhiS_pos m c _ _ ht, PhiA0_eq]
  iintro ⟨⟨HS0, HS1⟩, Hg⟩
  isplitl [HS0 HS1]
  · isplitl [HS0]
    · iexists _; iexact HS0
    · iexists _; iexact HS1
  iexact Hg

theorem hout (c : Dev nD) : (dats m 0 c).Φ (Fin.last cfg0.N) ⊢ Pipeline.ΦA spec0 c :=
  Phi_out m c _ (by rw [Fin.val_last]; have : cfg0.N = 20 := N_0; omega)

/-! ## The run and the frame -/

set_option maxHeartbeats 8000000 in
set_option backward.isDefEq.respectTransparency.types false in
/-- Every weakly fair execution of @main terminates, every array of the pipeline ending at what the library computes
    from the proof data and every other unscoped buffer as the operations after the region leave it. -/
theorem run_main : θ_run defs (onTc (τ := τ) (main (F := F))) (s₀ m ρ) (Pipeline.FramePost cfgs (dats m) 0 (Pipeline.afterTail₀ cfgs (dats m) 0 (V0 m) sfx)) :=
  Pipeline.θ_run_frame_around_track cfgs (dats m) (0 : Fin 1) launch0 defs₀ Variants.none m ρ main
    (hbody := fun c => (body_obligation m c).loose) (hshare := fun c => (dats m 0 c).share_full fun _ => rfl)
    (howed := fun _ _ => rfl) (V₀ := V0 m) (opss := sfx) (hsub := sfx_sub) (hfresh := sfx_fresh) (hkeep := sfx_keeps)
    (hmain := hmain m Variants.none) (hA := A_eq m) (hin := hin m) (hout := hout m)

/-- The frame: @main runs to the end, faults nowhere, and leaves its eight arguments as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)) :=
  frame_of m ρ (dats m) (run_main m ρ)

end Cert.KernelIdeal.Frame

end
-- ==== Proof.KernelTail.lean ====
/-
  The host side of the kernel program as pure terms.

  After the region has written the column of softmax denominators, the program's remaining operations form a straight
  line: the denominators are reshaped to one per (batch row, position), inverted into token confidences, averaged per
  batch row, compared with a target computed from two other arguments, and squared, averaged and added to a penalty term
  that does not read the denominators. `tailK` is that line as one function of the buffers it starts from; it is the
  value of the result buffer after the line has run from ANY contents of the device's buffers.
-/
import proofs.«163289_j51866025067153_2_alg».proof.Proof.Gen.KernelIdeal.Launch
import Idealize.ShloMosaic.Lib.StableHlo.Run
import Idealize.ShloMosaic.PureOps.Ideal

noncomputable section

namespace Cert.KernelTail

open Cert.KernelIdeal Cert.KernelIdeal.Gen Idealize.ShloMosaic Idealize.ShloMosaic.TcCoe Idealize.SL.Sem
  Idealize.ShloMosaic.StableHlo

/-- The contents of a buffer of shape `S` and element type `e`, over the extended reals. -/
abbrev Arr (S : Shape) (e : EltTy) : Type := (⟨S, e⟩ : BufTy).Contents (Elt Ideal)

/-- The token confidences: one over the region's denominators, laid out as batch row × position. -/
def confK (v7 : Arr S1024x1 .f32) : Arr S8x128 .f32 :=
  Host.divf (F := Ideal) (φ := .f32) (broadcastInDim S8x128 ![] bcast_S_S8x128 (constant (F := Ideal) S_ .f32 0x3F800000#32))
    (shapeCast S8x128 (shapeCast S1024 v7 shapeCasts_S1024x1_S1024) shapeCasts_S1024_S8x128)

/-- How many positions of each batch row hold one of the listed token ids (six ids). -/
def count6 (a4 : Arr S8x128 .i32) (ids : Arr S6 .i32) : Arr S8 .i32 :=
  Host.reduce IntOp.addi
    (extui 32
      (Host.reduce IntOp.ori
        (cmpi .eq
          (broadcastInDim S8x128x6 ![0, 1, 2] bcast_S8x128x1_S8x128x6_0_1_2
            (broadcastInDim S8x128x1 ![0, 1] bcast_S8x128_S8x128x1_0_1 a4))
          (broadcastInDim S8x128x6 ![0, 1, 2] bcast_S1x1x6_S8x128x6_0_1_2
            (broadcastInDim S1x1x6 ![2] bcast_S6_S1x1x6_2 ids)))
        (constantI S_ 1 0#1) reducesTo_S8x128x6_S8x128_d2 h_S_)
      natLt_1_32)
    (constantI S_ 32 0#32) reducesTo_S8x128_S8_d1 h_S_

/-- The same count for a list of five ids. -/
def count5 (a4 : Arr S8x128 .i32) (ids : Arr S5 .i32) : Arr S8 .i32 :=
  Host.reduce IntOp.addi
    (extui 32
      (Host.reduce IntOp.ori
        (cmpi .eq
          (broadcastInDim S8x128x5 ![0, 1, 2] bcast_S8x128x1_S8x128x5_0_1_2
            (broadcastInDim S8x128x1 ![0, 1] bcast_S8x128_S8x128x1_0_1 a4))
          (broadcastInDim S8x128x5 ![0, 1, 2] bcast_S1x1x5_S8x128x5_0_1_2
            (broadcastInDim S1x1x5 ![2] bcast_S5_S1x1x5_2 ids)))
        (constantI S_ 1 0#1) reducesTo_S8x128x5_S8x128_d2 h_S_)
      natLt_1_32)
    (constantI S_ 32 0#32) reducesTo_S8x128_S8_d1 h_S_

/-- A scalar constant spread over the eight batch rows. -/
def row8 (bits : BitVec 32) : Arr S8 .f32 :=
  broadcastInDim S8 ![] bcast_S_S8 (constant (F := Ideal) S_ .f32 bits)

/-- The program's result from the contents of the buffers its last stretch starts from: the two per-row means `v2`,
    `v5` computed before the region, the region's denominators `v7`, and the arguments the stretch reads. -/
def tailK (v2 v5 : Arr S8 .f32) (v7 : Arr S1024x1 .f32) (a3 : Arr S8 .f32) (a4 : Arr S8x128 .i32)
    (a5 a6 : Arr S6 .i32) (a7 : Arr S5 .i32) : Arr S_ .f32 :=
  let v14 : Arr S8 .f32 :=
    Host.divf (F := Ideal) (φ := .f32)
      (Host.reduceAdd (F := Ideal) (φ := .f32) (confK v7) (constant (F := Ideal) S_ .f32 0x00000000#32) reducesTo_S8x128_S8_d1 h_S_)
      (row8 0x43000000#32)
  let v15 : Arr S8 .f32 := addf (F := Ideal) (φ := .f32) v2 v5
  let v17 : Arr S_ .f32 :=
    addf (F := Ideal) (φ := .f32)
      (Host.reduce (FloatOps.maximumf (F := Ideal) (φ := .f32)) v15 (constant (F := Ideal) S_ .f32 0xFF800000#32) reducesTo_S8_S_d0 h_S_)
      (constant (F := Ideal) S_ .f32 0x322BCC77#32)
  let v21 : Arr S8 .f32 :=
    subf (F := Ideal) (φ := .f32) (row8 0x3F800000#32) (Host.divf (F := Ideal) (φ := .f32) v15 (broadcastInDim S8 ![] bcast_S_S8 v17))
  let v22 : Arr S8 .f32 := subf (F := Ideal) (φ := .f32) v14 v21
  let v25 : Arr S_ .f32 :=
    Host.divf (F := Ideal) (φ := .f32)
      (Host.reduceAdd (F := Ideal) (φ := .f32) (mulf (F := Ideal) (φ := .f32) v22 v22) (constant (F := Ideal) S_ .f32 0x00000000#32)
        reducesTo_S8_S_d0 h_S_)
      (constant (F := Ideal) S_ .f32 0x41000000#32)
  let v33 : Arr S8 .i32 := count6 a4 a5
  let v41 : Arr S8 .i32 := count6 a4 a6
  let v49 : Arr S8 .i32 := count5 a4 a7
  let v54 : Arr S8 .f32 :=
    select (andi (cmpf (F := Ideal) (φ := .f32) .ogt v15 (row8 0x3F19999A#32)) (cmpi .sgt v33 v41))
      (row8 0x3F000000#32) (row8 0x00000000#32)
  let v59 : Arr S8 .f32 :=
    select (andi (cmpf (F := Ideal) (φ := .f32) .olt v15 (row8 0x3E99999A#32)) (cmpi .sgt v41 v33))
      (row8 0x3E99999A#32) (row8 0x00000000#32)
  let v66 : Arr S8 .f32 :=
    select
      (andi (cmpf (F := Ideal) (φ := .f32) .olt a3 (row8 0x3F000000#32))
        (cmpi .eq v49 (broadcastInDim S8 ![] bcast_S_S8 (constantI S_ 32 0#32))))
      (row8 0x3ECCCCCD#32) (row8 0x00000000#32)
  let v68 : Arr S8 .f32 := id (addf (F := Ideal) (φ := .f32) (addf (F := Ideal) (φ := .f32) v54 v59) v66)
  let v70 : Arr S_ .f32 :=
    Host.divf (F := Ideal) (φ := .f32)
      (Host.reduceAdd (F := Ideal) (φ := .f32) v68 (constant (F := Ideal) S_ .f32 0x00000000#32) reducesTo_S8_S_d0 h_S_)
      (constant (F := Ideal) S_ .f32 0x41000000#32)
  addf (F := Ideal) (φ := .f32) v25 (mulf (F := Ideal) (φ := .f32) (constant (F := Ideal) S_ .f32 0x3DCCCCCD#32) v70)

set_option maxHeartbeats 4000000 in
/-- The result buffer after the operations that follow the region, run from any contents `W`. -/
theorem kernel_tail (W : Valuation τ sig (Elt Ideal)) :
    StableHlo.after (List.flatten [hostOps1 (F := Ideal), hostOps1_1, hostOps1_2, hostOps1_3, hostOps1_4, hostOps1_5,
        hostOps1_6] : List (HloOp τ sig (Elt Ideal))) W (Proc.devRef .tc main_v72)
      = tailK (W (Proc.devRef .tc main_v2)) (W (Proc.devRef .tc main_v5)) (W (Proc.devRef .tc main_v7))
          (W (Proc.devRef .tc main_arg3)) (W (Proc.devRef .tc main_arg4)) (W (Proc.devRef .tc main_arg5))
          (W (Proc.devRef .tc main_arg6)) (W (Proc.devRef .tc main_arg7)) := by
  simp only [List.flatten_cons, List.flatten_nil, List.append_nil, List.cons_append, List.nil_append]
  after_results_simp
  rfl

/-! ## Before the region -/

/-- A per-row mean of an 8 × 14 argument: its row sums divided by a constant. -/
def meanK (a : Arr S8x14 .f32) : Arr S8 .f32 :=
  Host.divf (F := Ideal) (φ := .f32)
    (Host.reduceAdd (F := Ideal) (φ := .f32) a (constant (F := Ideal) S_ .f32 0x00000000#32) reducesTo_S8x14_S8_d1 h_S_)
    (row8 0x41600000#32)

/-- After the operations that precede the region, run from any contents `W`: the first per-row mean. -/
theorem kernel_prefix_v2 (W : Valuation τ sig (Elt Ideal)) :
    StableHlo.after (hostOps0 (F := Ideal)) W (Proc.devRef .tc main_v2) = meanK (W (Proc.devRef .tc main_arg1)) := by
  after_results
  rfl

/-- … the second per-row mean. -/
theorem kernel_prefix_v5 (W : Valuation τ sig (Elt Ideal)) :
    StableHlo.after (hostOps0 (F := Ideal)) W (Proc.devRef .tc main_v5) = meanK (W (Proc.devRef .tc main_arg2)) := by
  after_results
  rfl

/-- … the region's operand: the logits with their two leading axes merged. -/
theorem kernel_prefix_v6 (W : Valuation τ sig (Elt Ideal)) :
    StableHlo.after (hostOps0 (F := Ideal)) W (Proc.devRef .tc main_v6)
      = shapeCast S1024x32000 (W (Proc.devRef .tc main_arg0)) shapeCasts_S8x128x32000_S1024x32000 := by
  after_results
  rfl

/-- … and the arguments that only the last stretch reads are untouched. -/
theorem kernel_prefix_arg3 (W : Valuation τ sig (Elt Ideal)) :
    StableHlo.after (hostOps0 (F := Ideal)) W (Proc.devRef .tc main_arg3) = W (Proc.devRef .tc main_arg3) := by
  after_results
theorem kernel_prefix_arg4 (W : Valuation τ sig (Elt Ideal)) :
    StableHlo.after (hostOps0 (F := Ideal)) W (Proc.devRef .tc main_arg4) = W (Proc.devRef .tc main_arg4) := by
  after_results
theorem kernel_prefix_arg5 (W : Valuation τ sig (Elt Ideal)) :
    StableHlo.after (hostOps0 (F := Ideal)) W (Proc.devRef .tc main_arg5) = W (Proc.devRef .tc main_arg5) := by
  after_results
theorem kernel_prefix_arg6 (W : Valuation τ sig (Elt Ideal)) :
    StableHlo.after (hostOps0 (F := Ideal)) W (Proc.devRef .tc main_arg6) = W (Proc.devRef .tc main_arg6) := by
  after_results
theorem kernel_prefix_arg7 (W : Valuation τ sig (Elt Ideal)) :
    StableHlo.after (hostOps0 (F := Ideal)) W (Proc.devRef .tc main_arg7) = W (Proc.devRef .tc main_arg7) := by
  after_results

end Cert.KernelTail

end
-- ==== Proof.RefValue.lean ====
/-
  The reference program's result, read back as a function of its arguments.

  The reference's result depends on the logits only through the 8 × 128 array of token confidences (the largest softmax
  probability of each row). `tail` is the rest of the computation as a function of that array: the sum of each batch
  row's confidences divided by a constant, minus a per-row term computed from two other arguments, squared, summed over
  the batch rows and divided by a constant, plus a term that does not depend on the confidences at all.
-/
import proofs.«163289_j51866025067153_2_alg».proof.Proof.Gen.ReferenceIdeal.Read

noncomputable section

namespace Cert.RefValue

open Cert.ReferenceIdeal Cert.ReferenceIdeal.Gen Cert.ReferenceIdeal.Read Idealize.ShloMosaic Idealize.ShloMosaic.TcCoe
  Idealize.SL.Sem Idealize.ShloMosaic.StableHlo

/-- The reference's result as a function of the token confidences `conf` and of the other seven arguments: with
    `d b = (Σ_s conf b s) / c₁ − t b`, the result is `(Σ_b d b · d b) / c₂ + p`, for constants `c₁`, `c₂`, a per-row term
    `t` that is a function of `x1`, `x2` only, and a term `p` that is a function of `x1 … x7` only. -/
def tail (conf : (⟨S8x128, .f32⟩ : BufTy).Contents (Elt Ideal))
    (x1 x2 : (⟨S8x14, .f32⟩ : BufTy).Contents (Elt Ideal)) (x3 : (⟨S8, .f32⟩ : BufTy).Contents (Elt Ideal))
    (x4 : (⟨S8x128, .i32⟩ : BufTy).Contents (Elt Ideal)) (x5 x6 : (⟨S6, .i32⟩ : BufTy).Contents (Elt Ideal))
    (x7 : (⟨S5, .i32⟩ : BufTy).Contents (Elt Ideal)) : (⟨S_, .f32⟩ : BufTy).Contents (Elt Ideal) :=
  addf (F := Ideal) (φ := .f32)
    (Host.divf (F := Ideal) (φ := .f32)
      (Host.reduceAdd (F := Ideal) (φ := .f32)
        (mulf (F := Ideal) (φ := .f32)
          (subf (F := Ideal) (φ := .f32)
            (Host.divf (F := Ideal) (φ := .f32)
              (Host.reduceAdd (F := Ideal) (φ := .f32) conf (val_main_cst_7 (F := Ideal)) reducesTo_S8x128_S8_d1 h_S_)
              (val_main_v19 (F := Ideal)))
            (val_main_v27 (F := Ideal) x1 x2))
          (subf (F := Ideal) (φ := .f32)
            (Host.divf (F := Ideal) (φ := .f32)
              (Host.reduceAdd (F := Ideal) (φ := .f32) conf (val_main_cst_7 (F := Ideal)) reducesTo_S8x128_S8_d1 h_S_)
              (val_main_v19 (F := Ideal)))
            (val_main_v27 (F := Ideal) x1 x2)))
        (val_main_cst_12 (F := Ideal)) reducesTo_S8_S_d0 h_S_)
      (val_main_cst_13 (F := Ideal)))
    (val_main_v77 (F := Ideal) x1 x2 x3 x4 x5 x6 x7)

/-- The reference's result is `tail` of its token confidences. -/
theorem ref_tail (x0 : (⟨S8x128x32000, .f32⟩ : BufTy).Contents (Elt Ideal))
    (x1 x2 : (⟨S8x14, .f32⟩ : BufTy).Contents (Elt Ideal)) (x3 : (⟨S8, .f32⟩ : BufTy).Contents (Elt Ideal))
    (x4 : (⟨S8x128, .i32⟩ : BufTy).Contents (Elt Ideal)) (x5 x6 : (⟨S6, .i32⟩ : BufTy).Contents (Elt Ideal))
    (x7 : (⟨S5, .i32⟩ : BufTy).Contents (Elt Ideal)) :
    Cert.ReferenceIdeal.Read.val_main_v78 (F := Ideal) x0 x1 x2 x3 x4 x5 x6 x7
      = tail (Cert.ReferenceIdeal.Read.val_main_v17 (F := Ideal) x0) x1 x2 x3 x4 x5 x6 x7 := by
  unfold tail val_main_v78 val_main_v31 val_main_v30 val_main_v29 val_main_v28 val_main_v20 val_main_v18
  rfl

end Cert.RefValue

end
-- ==== Proof.KernelTailEq.lean ====
/-
  The kernel program's host side and the reference's are the same function of the token confidences.

  Both programs finish with the same operations in the same order; they differ only in where the token confidences come
  from (one over the region's denominators in the kernel program, the largest softmax probability in the reference) and
  in that the kernel program computes the two per-row means before its region. So the kernel program's last stretch,
  fed the two means of the arguments, is the reference's tail at the kernel program's confidences.
-/
import proofs.«163289_j51866025067153_2_alg».proof.Proof.KernelTail
import proofs.«163289_j51866025067153_2_alg».proof.Proof.RefValue

noncomputable section

namespace Cert.KernelTail

open Cert.KernelIdeal Idealize.ShloMosaic Idealize.ShloMosaic.TcCoe Idealize.SL.Sem

/-- The kernel program's last stretch, at the per-row means of the two 8 × 14 arguments, is the reference's tail at the
    confidences `confK v7`. -/
theorem tailK_eq (a1 a2 : Arr S8x14 .f32) (v7 : Arr S1024x1 .f32) (a3 : Arr S8 .f32) (a4 : Arr S8x128 .i32)
    (a5 a6 : Arr S6 .i32) (a7 : Arr S5 .i32) :
    tailK (meanK a1) (meanK a2) v7 a3 a4 a5 a6 a7 = Cert.RefValue.tail (confK v7) a1 a2 a3 a4 a5 a6 a7 := rfl

end Cert.KernelTail

end
-- ==== Proof.KI.TailGlue.lean ====
/-
  The kernel program's result buffer after the whole run, as the reference's tail at the kernel program's confidences.

  When the region ends, the pipeline's output array holds the softmax denominators and every other buffer holds what the
  operations before the region left in it. The operations after the region read, besides that array, the two per-row
  means computed before the region and five arguments that nothing has written. So the result buffer is the last
  stretch's function at those contents, which is the reference's tail at one over the denominators.
-/
import proofs.«163289_j51866025067153_2_alg».proof.Proof.KI.FrameKit
import proofs.«163289_j51866025067153_2_alg».proof.Proof.KernelTailEq

set_option maxRecDepth 16384

noncomputable section

namespace Cert.KernelIdeal.Frame

open Cert.KernelIdeal Cert.KernelIdeal.Gen
open Idealize.ShloMosaic Idealize.ShloMosaic.TcCoe
open Idealize.SL Idealize.SL.Sem
open Idealize.ShloMosaic.Pipeline (Dat)

/-- The contents the region is entered with are the launch memory after the operations that precede it. -/
theorem V0_eq (m : (ℓ : Loc nD τ sig) → Buf (Elt Ideal) ℓ) (c : Dev nD) :
    V0 m c = StableHlo.after (hostOps0 (F := Ideal)) (fun b => m (c, b)) := rfl

/-- The result buffer after the operations that follow the region: the reference's tail at one over the denominators
    the region left in its output array, and at the launch contents of the other arguments. -/
theorem afterTail_v72 (m : (ℓ : Loc nD τ sig) → Buf (Elt Ideal) ℓ)
    (dats : (p : Fin 1) → (c : Dev nD) → Dat τ (Elt Ideal) Unit ℕ (UR sig nD τ) ℕ (cfgs p) c) (c : Dev nD) :
    Pipeline.afterTail₀ cfgs dats 0 (V0 m) sfx c main_v72
      = Cert.RefValue.tail (Cert.KernelTail.confK ((dats 0 c).arrAt 1 cfg0.N))
          (m ((c : Thread nD τ).loc main_arg1)) (m ((c : Thread nD τ).loc main_arg2))
          (m ((c : Thread nD τ).loc main_arg3)) (m ((c : Thread nD τ).loc main_arg4))
          (m ((c : Thread nD τ).loc main_arg5)) (m ((c : Thread nD τ).loc main_arg6))
          (m ((c : Thread nD τ).loc main_arg7)) := by
  unfold Pipeline.afterTail₀
  refine (Cert.KernelTail.kernel_tail _).trans ?_
  rw [Pipeline.withArrays_of_ne _ c (V0 m c) _ main_v2 (by exact (by decide : ∀ w, Pipeline.arrRef spec0 w ≠ main_v2)),
    Pipeline.withArrays_of_ne _ c (V0 m c) _ main_v5 (by exact (by decide : ∀ w, Pipeline.arrRef spec0 w ≠ main_v5)),
    Pipeline.withArrays_of_ne _ c (V0 m c) _ main_arg3 (by exact (by decide : ∀ w, Pipeline.arrRef spec0 w ≠ main_arg3)),
    Pipeline.withArrays_of_ne _ c (V0 m c) _ main_arg4 (by exact (by decide : ∀ w, Pipeline.arrRef spec0 w ≠ main_arg4)),
    Pipeline.withArrays_of_ne _ c (V0 m c) _ main_arg5 (by exact (by decide : ∀ w, Pipeline.arrRef spec0 w ≠ main_arg5)),
    Pipeline.withArrays_of_ne _ c (V0 m c) _ main_arg6 (by exact (by decide : ∀ w, Pipeline.arrRef spec0 w ≠ main_arg6)),
    Pipeline.withArrays_of_ne _ c (V0 m c) _ main_arg7 (by exact (by decide : ∀ w, Pipeline.arrRef spec0 w ≠ main_arg7)),
    show Pipeline.withArrays (cfgs 0).spec c (V0 m c) (fun w => (dats 0 c).arrAt w (cfgs 0).N) (Proc.devRef .tc main_v7)
        = (dats 0 c).arrAt 1 cfg0.N from Pipeline.withArrays_arr spec0 launch0.win.arr_inj c (V0 m c) _ 1,
    show V0 m c (Proc.devRef .tc main_v2) = Cert.KernelTail.meanK (m ((c : Thread nD τ).loc main_arg1)) from
      Cert.KernelTail.kernel_prefix_v2 _,
    show V0 m c (Proc.devRef .tc main_v5) = Cert.KernelTail.meanK (m ((c : Thread nD τ).loc main_arg2)) from
      Cert.KernelTail.kernel_prefix_v5 _,
    show V0 m c (Proc.devRef .tc main_arg3) = m ((c : Thread nD τ).loc main_arg3) from V_main_arg3 m c,
    show V0 m c (Proc.devRef .tc main_arg4) = m ((c : Thread nD τ).loc main_arg4) from V_main_arg4 m c,
    show V0 m c (Proc.devRef .tc main_arg5) = m ((c : Thread nD τ).loc main_arg5) from V_main_arg5 m c,
    show V0 m c (Proc.devRef .tc main_arg6) = m ((c : Thread nD τ).loc main_arg6) from V_main_arg6 m c,
    show V0 m c (Proc.devRef .tc main_arg7) = m ((c : Thread nD τ).loc main_arg7) from V_main_arg7 m c]
  exact Cert.KernelTail.tailK_eq _ _ _ _ _ _ _ _

end Cert.KernelIdeal.Frame

end
-- ==== Proof.KI.Pieces.lean ====
/-
  What each case of the body leaves in the two scratch columns and in the output column, as the body's arithmetic.

  On the first tile of a row block the columns are first filled with −∞ and 0 and read back, so the new running
  maximum and denominator are formed from those; the later store into each column covers it, so only that store is
  read back. On a middle or last tile they are formed from what the tile before left. On the last tile the output
  column receives the new denominator.
-/
import proofs.«163289_j51866025067153_2_alg».proof.Proof.KI.Frame
import Idealize.ShloMosaic.Lib.Pipeline.Value

set_option maxRecDepth 16384

noncomputable section

namespace Cert.KernelIdeal.Frame

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

theorem hz : (![0, 0] : Fin 2 → Nat) = fun _ => 0 := funext fun a => by fin_cases a <;> rfl

/-- First tile: the running maximum left is the new maximum formed from the column of −∞. -/
theorem sout0_A_0_eq (c : Dev nD) (i : grid0.Coords) (arg2 : Memref sig .tc .vmem S256x6400 .f32) (harg2 : arg2.IsWhole) (arg3 : Memref sig .tc .vmem S256x1 .f32) (harg3 : arg3.IsWhole) (arg4 : Memref sig .tc .vmem S256x1 .f32) (harg4 : arg4.IsWhole) (arg5 : Memref sig .tc .vmem S256x1 .f32) (harg5 : arg5.IsWhole) (hc0 : cond0_0 i) (hc1 : ¬cond0_1 i)
    (x0 : Vec F S256x6400 .f32) :
    sout0_A_0 c i arg2 harg2 arg3 harg3 arg4 harg4 arg5 harg5 hc0 hc1 x0 = k0_pay6 x0 (k0_pay1 (F := F)) := by
  unfold sout0_A_0
  rw [View.read_writes_eq_canon _ _ _ (scover0_A_0 c i arg2 harg2 arg3 harg3 arg4 harg4 arg5 harg5 hc0 hc1 x0)]
  unfold kernelRun0_A
  dsimp only
  sl_unfold_words
  rw [View.canon_cons_unit_zero (S := S256x1) hz]
  simp only [View.readCov_unit_zero (S := S256x1) _ hz]
  simp only [View.readAt_eq_ld, harg2.read_unread, harg3.read_unread, harg4.read_unread, harg5.read_unread, View.ld_unit_zero (S := S256x6400) hz, View.ld_unit_zero (S := S256x1) hz]

/-- First tile: the running denominator left is the new denominator formed from the columns of −∞ and 0. -/
theorem sout0_A_1_eq (c : Dev nD) (i : grid0.Coords) (arg2 : Memref sig .tc .vmem S256x6400 .f32) (harg2 : arg2.IsWhole) (arg3 : Memref sig .tc .vmem S256x1 .f32) (harg3 : arg3.IsWhole) (arg4 : Memref sig .tc .vmem S256x1 .f32) (harg4 : arg4.IsWhole) (arg5 : Memref sig .tc .vmem S256x1 .f32) (harg5 : arg5.IsWhole) (hc0 : cond0_0 i) (hc1 : ¬cond0_1 i)
    (x0 : Vec F S256x6400 .f32) :
    sout0_A_1 c i arg2 harg2 arg3 harg3 arg4 harg4 arg5 harg5 hc0 hc1 x0 = k0_pay5 x0 (k0_pay1 (F := F)) (k0_pay2 (F := F)) := by
  unfold sout0_A_1
  rw [View.read_writes_eq_canon _ _ _ (scover0_A_1 c i arg2 harg2 arg3 harg3 arg4 harg4 arg5 harg5 hc0 hc1 x0)]
  unfold kernelRun0_A
  dsimp only
  sl_unfold_words
  rw [View.canon_cons_unit_zero (S := S256x1) hz]
  simp only [View.readCov_unit_zero (S := S256x1) _ hz]
  simp only [View.readAt_eq_ld, harg2.read_unread, harg3.read_unread, harg4.read_unread, harg5.read_unread, View.ld_unit_zero (S := S256x6400) hz, View.ld_unit_zero (S := S256x1) hz]

/-- Middle tile: the running maximum left is the new maximum formed from the one found. -/
theorem sout0_B_0_eq (c : Dev nD) (i : grid0.Coords) (arg2 : Memref sig .tc .vmem S256x6400 .f32) (harg2 : arg2.IsWhole) (arg3 : Memref sig .tc .vmem S256x1 .f32) (harg3 : arg3.IsWhole) (arg4 : Memref sig .tc .vmem S256x1 .f32) (harg4 : arg4.IsWhole) (arg5 : Memref sig .tc .vmem S256x1 .f32) (harg5 : arg5.IsWhole) (hc0 : ¬cond0_0 i) (hc1 : ¬cond0_1 i)
    (x0 : Vec F S256x6400 .f32) (xs0 xs1 : Vec F S256x1 .f32) :
    sout0_B_0 c i arg2 harg2 arg3 harg3 arg4 harg4 arg5 harg5 hc0 hc1 x0 xs0 xs1 = k0_pay6 x0 xs0 := by
  unfold sout0_B_0
  rw [View.read_writes_eq_canon _ _ _ (scover0_B_0 c i arg2 harg2 arg3 harg3 arg4 harg4 arg5 harg5 hc0 hc1 x0 xs0 xs1)]
  unfold kernelRun0_B
  dsimp only
  try sl_unfold_words
  rw [View.canon_unit_zero hz]
  simp only [View.readAt_eq_ld, harg2.read_unread, harg3.read_unread, harg4.read_unread, harg5.read_unread, View.ld_unit_zero (S := S256x6400) hz, View.ld_unit_zero (S := S256x1) hz]

/-- Middle tile: the running denominator left is the new denominator formed from the pair found. -/
theorem sout0_B_1_eq (c : Dev nD) (i : grid0.Coords) (arg2 : Memref sig .tc .vmem S256x6400 .f32) (harg2 : arg2.IsWhole) (arg3 : Memref sig .tc .vmem S256x1 .f32) (harg3 : arg3.IsWhole) (arg4 : Memref sig .tc .vmem S256x1 .f32) (harg4 : arg4.IsWhole) (arg5 : Memref sig .tc .vmem S256x1 .f32) (harg5 : arg5.IsWhole) (hc0 : ¬cond0_0 i) (hc1 : ¬cond0_1 i)
    (x0 : Vec F S256x6400 .f32) (xs0 xs1 : Vec F S256x1 .f32) :
    sout0_B_1 c i arg2 harg2 arg3 harg3 arg4 harg4 arg5 harg5 hc0 hc1 x0 xs0 xs1 = k0_pay5 x0 xs0 xs1 := by
  unfold sout0_B_1
  rw [View.read_writes_eq_canon _ _ _ (scover0_B_1 c i arg2 harg2 arg3 harg3 arg4 harg4 arg5 harg5 hc0 hc1 x0 xs0 xs1)]
  unfold kernelRun0_B
  dsimp only
  try sl_unfold_words
  rw [View.canon_unit_zero hz]
  simp only [View.readAt_eq_ld, harg2.read_unread, harg3.read_unread, harg4.read_unread, harg5.read_unread, View.ld_unit_zero (S := S256x6400) hz, View.ld_unit_zero (S := S256x1) hz]

/-- Last tile: the running maximum left is the new maximum formed from the one found. -/
theorem sout0_C_0_eq (c : Dev nD) (i : grid0.Coords) (arg2 : Memref sig .tc .vmem S256x6400 .f32) (harg2 : arg2.IsWhole) (arg3 : Memref sig .tc .vmem S256x1 .f32) (harg3 : arg3.IsWhole) (arg4 : Memref sig .tc .vmem S256x1 .f32) (harg4 : arg4.IsWhole) (arg5 : Memref sig .tc .vmem S256x1 .f32) (harg5 : arg5.IsWhole) (hc0 : ¬cond0_0 i) (hc1 : cond0_1 i)
    (x0 : Vec F S256x6400 .f32) (xs0 xs1 : Vec F S256x1 .f32) :
    sout0_C_0 c i arg2 harg2 arg3 harg3 arg4 harg4 arg5 harg5 hc0 hc1 x0 xs0 xs1 = k0_pay6 x0 xs0 := by
  unfold sout0_C_0
  rw [View.read_writes_eq_canon _ _ _ (scover0_C_0 c i arg2 harg2 arg3 harg3 arg4 harg4 arg5 harg5 hc0 hc1 x0 xs0 xs1)]
  unfold kernelRun0_C
  dsimp only
  try sl_unfold_words
  rw [View.canon_unit_zero hz]
  simp only [View.readAt_eq_ld, harg2.read_unread, harg3.read_unread, harg4.read_unread, harg5.read_unread, View.ld_unit_zero (S := S256x6400) hz, View.ld_unit_zero (S := S256x1) hz]

/-- Last tile: the running denominator left is the new denominator formed from the pair found. -/
theorem sout0_C_1_eq (c : Dev nD) (i : grid0.Coords) (arg2 : Memref sig .tc .vmem S256x6400 .f32) (harg2 : arg2.IsWhole) (arg3 : Memref sig .tc .vmem S256x1 .f32) (harg3 : arg3.IsWhole) (arg4 : Memref sig .tc .vmem S256x1 .f32) (harg4 : arg4.IsWhole) (arg5 : Memref sig .tc .vmem S256x1 .f32) (harg5 : arg5.IsWhole) (hc0 : ¬cond0_0 i) (hc1 : cond0_1 i)
    (x0 : Vec F S256x6400 .f32) (xs0 xs1 : Vec F S256x1 .f32) :
    sout0_C_1 c i arg2 harg2 arg3 harg3 arg4 harg4 arg5 harg5 hc0 hc1 x0 xs0 xs1 = k0_pay5 x0 xs0 xs1 := by
  unfold sout0_C_1
  rw [View.read_writes_eq_canon _ _ _ (scover0_C_1 c i arg2 harg2 arg3 harg3 arg4 harg4 arg5 harg5 hc0 hc1 x0 xs0 xs1)]
  unfold kernelRun0_C
  dsimp only
  try sl_unfold_words
  rw [View.canon_unit_zero hz]
  simp only [View.readAt_eq_ld, harg2.read_unread, harg3.read_unread, harg4.read_unread, harg5.read_unread, View.ld_unit_zero (S := S256x6400) hz, View.ld_unit_zero (S := S256x1) hz]

/-- Last tile: the output column receives the new denominator. -/
theorem out0_C_1_eq (c : Dev nD) (i : grid0.Coords) (arg2 : Memref sig .tc .vmem S256x6400 .f32) (harg2 : arg2.IsWhole) (arg3 : Memref sig .tc .vmem S256x1 .f32) (harg3 : arg3.IsWhole) (arg4 : Memref sig .tc .vmem S256x1 .f32) (harg4 : arg4.IsWhole) (arg5 : Memref sig .tc .vmem S256x1 .f32) (harg5 : arg5.IsWhole) (hc0 : ¬cond0_0 i) (hc1 : cond0_1 i)
    (x0 : Vec F S256x6400 .f32) (xs0 xs1 : Vec F S256x1 .f32) :
    out0_C_1 c i arg2 harg2 arg3 harg3 arg4 harg4 arg5 harg5 hc0 hc1 x0 xs0 xs1 = k0_pay5 x0 xs0 xs1 := by
  unfold out0_C_1
  rw [View.read_writes_eq_canon _ _ _ (cover0_C_1 c i arg2 harg2 arg3 harg3 arg4 harg4 arg5 harg5 hc0 hc1 x0 xs0 xs1)]
  unfold kernelRun0_C
  dsimp only
  sl_unfold_words
  rw [View.canon_unit_zero hz]
  simp only [View.readCov_unit_zero (S := S256x1) _ hz]
  simp only [View.readAt_eq_ld, harg2.read_unread, harg3.read_unread, harg4.read_unread, harg5.read_unread, View.ld_unit_zero (S := S256x6400) hz, View.ld_unit_zero (S := S256x1) hz]

end Cert.KernelIdeal.Frame

end
-- ==== Proof.SoftmaxSpec.lean ====
/-
  The two ways the largest softmax probability of a row is computed, as functions on the extended reals.

  One streaming pass over a row cut into tiles keeps a running maximum m and a running denominator l: a tile t
  replaces m by m' = max(m, max t) and l by l · exp(m − m') + Σ_j exp(t_j − m'), starting from m = −∞, l = 0.
  After all tiles l is Σ_v exp(y_v − max y), and the largest softmax probability is 1 / l.
  The direct way forms every probability exp(y_v − max y) / Σ_w exp(y_w − max y) and takes the largest.
-/
import Idealize.ShloMosaic.PureOps.Ideal

open scoped BigOperators

noncomputable section

namespace Cert.Softmax

open Idealize.ShloMosaic

/-- The largest entry of a finite family, from −∞. -/
def top {n : ℕ} (t : Fin n → EReal) : EReal := (Finset.univ : Finset (Fin n)).fold max ⊥ t

/-- The running maximum after a tile. -/
def stepM {n : ℕ} (m : EReal) (t : Fin n → EReal) : EReal := max m (top t)

/-- The running denominator after a tile: the old one rescaled to the new maximum, plus the tile's terms. -/
def stepL {n : ℕ} (m l : EReal) (t : Fin n → EReal) : EReal :=
  l * Ideal.exp (m - stepM m t) + ∑ j : Fin n, Ideal.exp (t j - stepM m t)

/-- The running pair (maximum, denominator) after the first `k` tiles of `x`. -/
def pass {n : ℕ} (x : ℕ → Fin n → EReal) : ℕ → EReal × EReal
  | 0 => (⊥, 0)
  | k + 1 => (stepM (pass x k).1 (x k), stepL (pass x k).1 (pass x k).2 (x k))

/-- The largest softmax probability of a row, formed directly. -/
def softmaxTop {N : ℕ} (y : Fin N → EReal) : EReal :=
  top fun v => Ideal.div (Ideal.exp (y v - top y)) (∑ w : Fin N, Ideal.exp (y w - top y))

end Cert.Softmax

end
-- ==== Proof.LibLaneSum.lean ====
/-
  The sum along the rows of a matrix, read at a row.

  Summing an [a, b] matrix over its second axis leaves a vector of length a whose entry i is the sum of the b entries
  of row i. The general statement names the summed entries through the index "entry i with coordinate k inserted on the
  summed axis"; for a matrix that index is simply (i, k).
-/
import Idealize.ShloMosaic.PureOps.Ideal.Laws
import Idealize.ShloMosaic.Lib.ValueIdx

open scoped BigOperators

namespace Idealize.ShloMosaic.ValueIdx

open Idealize.ShloMosaic

/-- Inserting coordinate `k` on axis 1 over the row index `i` gives the matrix index `(i, k)`. -/
theorem reduces_rows_lift {a b : ℕ} (h : (⟨2, ![a, b]⟩ : Shape).Reduces [1] ⟨1, ![a]⟩) (i : Fin a) (k : Fin b) :
    h.lift (ix1 i) k = ix2 i k := by
  funext ax; apply Fin.ext
  show h.liftVal (ix1 i) k.val ax = (ix2 i k ax).val
  unfold Shape.Reduces.liftVal
  match ax with
  | ⟨0, _⟩ => rfl
  | ⟨1, _⟩ => rfl

/-- The sum of an `[a, b]` matrix over axis 1, at the exact extended reals, read at row `i`: the sum of that row. -/
theorem multiReduction_add_rows_apply {a b : ℕ} {φ : FTy} (src : FVec Ideal ⟨2, ![a, b]⟩ φ) (acc : BitVec φ.bits)
    (h : (⟨2, ![a, b]⟩ : Shape).Reduces [1] ⟨1, ![a]⟩) (hφ : FKind.Formats φ) (hacc : acc = FKind.add.neutral φ hφ) (i : Fin a) :
    multiReduction .add [1] ⟨1, ![a]⟩ src acc h hφ hacc (ix1 i) = ∑ c : Fin b, src (ix2 i c) := by
  refine (Ideal.multiReduction_add_single src acc h hφ hacc (ix1 i)).trans ?_
  exact Finset.sum_congr rfl fun c _ => congrArg src (reduces_rows_lift h i c)

end Idealize.ShloMosaic.ValueIdx
-- ==== Proof.LibLaneMax.lean ====
/-
  The maximum along the rows of a matrix, read at a row.

  Taking the maximum of an [a, b] matrix over its second axis, started from an accumulator word, leaves a vector of
  length a whose entry i is the maximum of that word's value and the b entries of row i — the fold of `max` over the
  row's coordinates. The general statement names the entries through the index "entry i with coordinate k inserted
  on the reduced axis"; for a matrix that index is (i, k). (The companion for a sum is `multiReduction_add_rows_apply`.)
-/
import proofs.«163289_j51866025067153_2_alg».proof.Proof.LibLaneSum

namespace Idealize.ShloMosaic.ValueIdx

open Idealize.ShloMosaic

/-- The maximum of an `[a, b]` matrix over axis 1, at the exact extended reals, read at row `i`: the fold of `max`
    from the accumulator's value over that row. -/
theorem multiReduction_maximumf_rows_apply {a b : ℕ} {φ : FTy} (src : FVec Ideal ⟨2, ![a, b]⟩ φ) (acc : BitVec φ.bits)
    (h : (⟨2, ![a, b]⟩ : Shape).Reduces [1] ⟨1, ![a]⟩) (hφ : FKind.Formats φ) (hacc : acc = FKind.maximumf.neutral φ hφ) (i : Fin a) :
    multiReduction .maximumf [1] ⟨1, ![a]⟩ src acc h hφ hacc (ix1 i)
      = (Finset.univ : Finset (Fin b)).fold max (FloatOps.ofBits (F := Ideal) φ acc) (fun c => src (ix2 i c)) := by
  refine (Ideal.multiReduction_maximumf_single src acc h hφ hacc (ix1 i)).trans ?_
  exact congrArg (fun f => (Finset.univ : Finset (Fin b)).fold max (FloatOps.ofBits (F := Ideal) φ acc) f)
    (funext fun c => congrArg src (reduces_rows_lift h i c))

end Idealize.ShloMosaic.ValueIdx
-- ==== Proof.LibColumnCast.lean ====
/-
  A vector cast to a one-column matrix, read at an entry.

  The row-major position of entry (i, 0) of an [a, 1] matrix is i · 1 + 0 = i, the position of entry i of the
  [a] vector it was cast from; so the cast reads the vector's entry i there. (The companion forms for a leading
  unit axis, [a] → [1, a] and back, are the library's `shapeCast_a_1a_apply` and `shapeCast_1a_a_apply`.)
-/
import Idealize.ShloMosaic.Lib.ValueLayout

namespace Idealize.ShloMosaic.ValueIdx

open Idealize.ShloMosaic

variable {α : Type}

/-- An `[a]` array cast to `[a, 1]` reads, at `(i, u)`, the operand at `i`, whatever the unit coordinate `u`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- A `[a, 1]` array cast to `[a]` reads, at `i`, the operand at `(i, 0)`. -/
theorem shapeCast_a1_a_apply {a : ℕ} (x : (⟨2, ![a, 1]⟩ : Shape).Idx → α) (h : (⟨2, ![a, 1]⟩ : Shape).ShapeCasts ⟨1, ![a]⟩)
    (i : Fin a) : shapeCast ⟨1, ![a]⟩ x h (ix1 i) = x (ix2 i (0 : Fin 1)) :=
  shapeCast_apply x h _ _ (by
    rw [Shape.rowMajor_val_two, Shape.rowMajor_val_one]
    show i.val * 1 + 0 = i.val
    rw [Nat.mul_one, Nat.add_zero])

end Idealize.ShloMosaic.ValueIdx
-- ==== Proof.LibColumnBroadcast.lean ====
/-
  One column broadcast over many.

  An [a, 1] matrix broadcast to [a, b] repeats its one column: entry (p, c) of the result is entry (p, 0) of the
  operand, whatever the column c. (The companion form for one ROW, [1, b] → [a, b], is the library's
  `broadcastTo_1b_ab_apply`.)
-/
import Idealize.ShloMosaic.Lib.ValueLayout

namespace Idealize.ShloMosaic.ValueIdx

open Idealize.ShloMosaic

variable {α : Type}

/-- An `[a, 1]` array broadcast to `[a, b]` reads, at `(p, c)`, the operand's one column at row `p`. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

end Idealize.ShloMosaic.ValueIdx
-- ==== Proof.PayloadRead.lean ====
/-
  The kernel body's arithmetic, read entry by entry at the exact extended reals.

  One step of the streaming pass takes a tile x of 256 rows and 6400 columns, the running maxima m (one per row) and
  the running denominators l (one per row). Row p of the new maxima is max(m_p, max_j x_{p,j}); row p of the new
  denominators is l_p · exp(m_p − m'_p) + Σ_j exp(x_{p,j} − m'_p) with m' the new maximum. The columns written before
  the first tile are −∞ (maxima) and 0 (denominators). The casts between equal shapes are identities, the cast of a
  vector to a one-column matrix and the broadcast of one column over all columns only rename indices.
-/
import proofs.«163289_j51866025067153_2_alg».proof.Proof.Gen.KernelIdeal.Skeleton
import proofs.«163289_j51866025067153_2_alg».proof.Proof.SoftmaxSpec
import proofs.«163289_j51866025067153_2_alg».proof.Proof.LibLaneMax
import proofs.«163289_j51866025067153_2_alg».proof.Proof.LibColumnCast
import proofs.«163289_j51866025067153_2_alg».proof.Proof.LibColumnBroadcast
import Idealize.ShloMosaic.Lib.ValueIdx
import Idealize.ShloMosaic.Lib.ValueLayout
import Idealize.ShloMosaic.Lib.Pipeline.Value
import Idealize.ShloMosaic.PureOps.Ideal.Laws

open scoped BigOperators

noncomputable section

namespace Cert.KernelIdeal.PayRead

open Idealize.ShloMosaic Idealize.ShloMosaic.ValueIdx Cert.KernelIdeal Cert.KernelIdeal.Gen Cert.Softmax

/-- The word with sign 1, exponent all ones and fraction 0 denotes −∞. -/
theorem ofBits_negInf_f32 : Ideal.ofBits .f32 0xFF800000#32 = (⊥ : EReal) := by
  simp [Ideal.ofBits, Ideal.ieee]

/-- The column of maxima written before the first tile is −∞ in every row. -/
theorem pay1_apply (p : Fin 256) : k0_pay1 (F := Ideal) (ix2 p (0 : Fin 1)) = (⊥ : EReal) := by
  unfold k0_pay1
  refine (congrFun (shapeCast_self _ shapeCasts_S256x1_S256x1) (ix2 p (0 : Fin 1))).trans ?_
  exact ofBits_negInf_f32

/-- The column of denominators written before the first tile is 0 in every row. -/
theorem pay2_apply (p : Fin 256) : k0_pay2 (F := Ideal) (ix2 p (0 : Fin 1)) = (0 : EReal) := by
  unfold k0_pay2
  refine (congrFun (shapeCast_self _ shapeCasts_S256x1_S256x1) (ix2 p (0 : Fin 1))).trans ?_
  exact Ideal.ofBits_zero_f32

/-- The tile cast to its own shape is the tile. -/
theorem pay3_eq (x : Vec Ideal S256x6400 .f32) : k0_pay3 (F := Ideal) x = x := by
  unfold k0_pay3
  exact shapeCast_self x shapeCasts_S256x6400_S256x6400

/-- Row p of the new maxima: the larger of the old maximum and the largest entry of row p of the tile. -/
theorem pay4_apply (x : Vec Ideal S256x6400 .f32) (mp : Vec Ideal S256x1 .f32) (p : Fin 256) :
    k0_pay4 (F := Ideal) x mp (ix2 p (0 : Fin 1)) = stepM (mp (ix2 p (0 : Fin 1))) (fun j : Fin 6400 => x (ix2 p j)) := by
  unfold k0_pay4
  refine (maximumf_apply _ _ _).trans ?_
  unfold stepM
  refine congrArg (max (mp (ix2 p (0 : Fin 1)))) ?_
  refine (shapeCast_a_a1_apply _ shapeCasts_S256_S256x1 p (0 : Fin 1)).trans ?_
  refine (multiReduction_maximumf_rows_apply (k0_pay3 (F := Ideal) x) 0xFF800000#32 reduces_S256x6400_S256 (.inl rfl) rfl p).trans ?_
  unfold top
  rw [pay3_eq, Ideal.ofBits_def, ofBits_negInf_f32]

/-- The new maxima cast to their own shape: row p is again the larger of the old maximum and the row's largest entry. -/
theorem pay6_apply (x : Vec Ideal S256x6400 .f32) (mp : Vec Ideal S256x1 .f32) (p : Fin 256) :
    k0_pay6 (F := Ideal) x mp (ix2 p (0 : Fin 1)) = stepM (mp (ix2 p (0 : Fin 1))) (fun j : Fin 6400 => x (ix2 p j)) := by
  unfold k0_pay6
  refine (congrFun (shapeCast_self _ shapeCasts_S256x1_S256x1) (ix2 p (0 : Fin 1))).trans ?_
  exact pay4_apply x mp p

/-- Row p of the new denominators: the old denominator rescaled from the old maximum to the new one, plus the
    exponentials of row p of the tile taken relative to the new maximum. -/
theorem pay5_apply (x : Vec Ideal S256x6400 .f32) (mp lp : Vec Ideal S256x1 .f32) (p : Fin 256) :
    k0_pay5 (F := Ideal) x mp lp (ix2 p (0 : Fin 1))
      = stepL (mp (ix2 p (0 : Fin 1))) (lp (ix2 p (0 : Fin 1))) (fun j : Fin 6400 => x (ix2 p j)) := by
  unfold k0_pay5
  refine (congrFun (shapeCast_self _ shapeCasts_S256x1_S256x1) (ix2 p (0 : Fin 1))).trans ?_
  refine (addf_apply _ _ _).trans ?_
  unfold stepL
  refine congrArg₂ (· + ·) ?_ ?_
  · -- the old denominator times exp(old maximum − new maximum)
    refine (mulf_apply _ _ _).trans ?_
    refine congrArg (lp (ix2 p (0 : Fin 1)) * ·) ?_
    show Ideal.exp (mp (ix2 p (0 : Fin 1)) - k0_pay4 (F := Ideal) x mp (ix2 p (0 : Fin 1))) = _
    rw [pay4_apply]
  · -- the sum over row p of exp(entry − new maximum)
    refine (shapeCast_a_a1_apply _ shapeCasts_S256_S256x1 p (0 : Fin 1)).trans ?_
    refine (multiReduction_add_rows_apply _ 0x00000000#32 reduces_S256x6400_S256 (.inl rfl) rfl p).trans ?_
    refine Finset.sum_congr rfl fun c _ => ?_
    show Ideal.exp (k0_pay3 (F := Ideal) x (ix2 p c)
        - broadcastTo S256x6400 (k0_pay4 (F := Ideal) x mp) broadcasts_S256x1_S256x6400 (ix2 p c)) = _
    rw [pay3_eq, broadcastTo_a1_ab_apply, pay4_apply]

end Cert.KernelIdeal.PayRead

end
-- ==== Proof.KI.RowPass.lean ====
/-
  The streaming pass as the kernel's grid walks it, read row by row at the exact extended reals.

  A row block is walked in five consecutive grid points, one tile of 6400 columns each. For a row p of the block,
  after the k-th of these points (k = 0, …, 4) the two scratch columns hold at row p the running maximum and the
  running denominator of the streaming recurrence over the first k + 1 tiles of that row: the first point starts
  from −∞ and 0 (the columns are reset before they are read), every later point from what the point before left.
  After the fifth point the output column holds the final denominator.
-/
import proofs.«163289_j51866025067153_2_alg».proof.Proof.KI.Pieces
import proofs.«163289_j51866025067153_2_alg».proof.Proof.PayloadRead
import proofs.«163289_j51866025067153_2_alg».proof.Proof.SoftmaxSpec

set_option maxRecDepth 16384

noncomputable section

namespace Cert.KernelIdeal.Frame

open Cert.KernelIdeal Cert.KernelIdeal.Gen
open Idealize.ShloMosaic Idealize.ShloMosaic.TcCoe Idealize.ShloMosaic.Tactic Idealize.ShloMosaic.ValueIdx
open Idealize.SL Idealize.SL.Sem
open Idealize.ShloMosaic.Pipeline (Dat Cfg Window)
open Cert.Softmax Cert.KernelIdeal.PayRead

variable (m : (ℓ : Loc nD τ sig) → Buf (Elt Ideal) ℓ)

/-- The k-th point of row block ti is a point of the grid. -/
theorem pt_lt (ti : Fin 4) (k : ℕ) (hk : k < 5) : 5 * ti.val + k < cfg0.N :=
  lt_of_lt_of_eq (by have := ti.isLt; omega : 5 * ti.val + k < 20) N_0.symm

/-- Row p of the tile the input window holds at point t. -/
def rowAt (c : Dev nD) (t : Fin cfg0.N) (p : Fin 256) : Fin 6400 → EReal :=
  fun j => (iblk m c 0 t : Vec Ideal S256x6400 .f32) (ix2 p j)

/-- Row p of row block ti, cut into its five tiles (beyond the fifth: a filler the pass never reads). -/
def tile (c : Dev nD) (ti : Fin 4) (p : Fin 256) : ℕ → Fin 6400 → EReal :=
  fun k => if h : k < 5 then rowAt m c ⟨5 * ti.val + k, pt_lt ti k h⟩ p else fun _ => 0

theorem tile_eq (c : Dev nD) (ti : Fin 4) (p : Fin 256) (k : ℕ) (hk : k < 5) :
    tile m c ti p k = rowAt m c ⟨5 * ti.val + k, pt_lt ti k hk⟩ p := by
  unfold tile
  exact dif_pos hk

/-- The contents after a point depend on the point's position only. -/
theorem outsAt0_congr (c : Dev nD) {n n' : ℕ} (e : n = n') (h : n < cfg0.N) (h' : n' < cfg0.N) :
    outsAt0 m c n h = outsAt0 m c n' h' := by
  subst e; rfl

/-- On the first tile of a row block the scratch columns end at one step of the recurrence from (−∞, 0). -/
theorem scratch_first (c : Dev nD) (t : Fin cfg0.N) (h0 : t.val % 5 = 0) (p : Fin 256) :
    (outsAt0 m c t.val t.isLt).2.1 (ix2 p (0 : Fin 1)) = stepM ⊥ (rowAt m c t p)
    ∧ (outsAt0 m c t.val t.isLt).2.2 (ix2 p (0 : Fin 1)) = stepL ⊥ 0 (rowAt m c t p) := by
  have h1 : ¬t.val % 5 = 4 := by omega
  rw [outsAt0_A m c t h0 h1]
  dsimp only
  constructor
  · refine (congrFun (sout0_A_0_eq (F := Ideal) c (grid0.coords t) (ms0_0 t) (hs0_0 t) (ms0_1 t) (hs0_1 t) scM0_0 (Memref.isWhole_whole _) scM0_1 (Memref.isWhole_whole _) ((hcond0_0 t).mpr h0) (fun h => h1 ((hcond0_1 t).mp h)) (iblk m c 0 t)) (ix2 p (0 : Fin 1))).trans ?_
    refine (pay6_apply (iblk m c 0 t) (k0_pay1 (F := Ideal)) p).trans ?_
    exact congrArg (fun z => stepM z (rowAt m c t p)) (pay1_apply p)
  · refine (congrFun (sout0_A_1_eq (F := Ideal) c (grid0.coords t) (ms0_0 t) (hs0_0 t) (ms0_1 t) (hs0_1 t) scM0_0 (Memref.isWhole_whole _) scM0_1 (Memref.isWhole_whole _) ((hcond0_0 t).mpr h0) (fun h => h1 ((hcond0_1 t).mp h)) (iblk m c 0 t)) (ix2 p (0 : Fin 1))).trans ?_
    refine (pay5_apply (iblk m c 0 t) (k0_pay1 (F := Ideal)) (k0_pay2 (F := Ideal)) p).trans ?_
    exact congrArg₂ (fun z w => stepL z w (rowAt m c t p)) (pay1_apply p) (pay2_apply p)

/-- On a later tile they end at one step of the recurrence from what the point before left. -/
theorem scratch_step (c : Dev nD) (t : Fin cfg0.N) (h0 : ¬t.val % 5 = 0) (p : Fin 256) :
    (outsAt0 m c t.val t.isLt).2.1 (ix2 p (0 : Fin 1))
        = stepM ((outsAt0 m c (t.val - 1) (Nat.lt_of_le_of_lt (Nat.sub_le _ _) t.isLt)).2.1 (ix2 p (0 : Fin 1))) (rowAt m c t p)
    ∧ (outsAt0 m c t.val t.isLt).2.2 (ix2 p (0 : Fin 1))
        = stepL ((outsAt0 m c (t.val - 1) (Nat.lt_of_le_of_lt (Nat.sub_le _ _) t.isLt)).2.1 (ix2 p (0 : Fin 1))) ((outsAt0 m c (t.val - 1) (Nat.lt_of_le_of_lt (Nat.sub_le _ _) t.isLt)).2.2 (ix2 p (0 : Fin 1))) (rowAt m c t p) := by
  by_cases h1 : t.val % 5 = 4
  · rw [outsAt0_C m c t h0 h1]
    dsimp only
    generalize (outsAt0 m c (t.val - 1) (Nat.lt_of_le_of_lt (Nat.sub_le _ _) t.isLt)) = prev
    constructor
    · refine (congrFun (sout0_C_0_eq (F := Ideal) c (grid0.coords t) (ms0_0 t) (hs0_0 t) (ms0_1 t) (hs0_1 t) scM0_0 (Memref.isWhole_whole _) scM0_1 (Memref.isWhole_whole _) (fun h => h0 ((hcond0_0 t).mp h)) ((hcond0_1 t).mpr h1) (iblk m c 0 t) prev.2.1 prev.2.2) (ix2 p (0 : Fin 1))).trans ?_
      exact pay6_apply (iblk m c 0 t) prev.2.1 p
    · refine (congrFun (sout0_C_1_eq (F := Ideal) c (grid0.coords t) (ms0_0 t) (hs0_0 t) (ms0_1 t) (hs0_1 t) scM0_0 (Memref.isWhole_whole _) scM0_1 (Memref.isWhole_whole _) (fun h => h0 ((hcond0_0 t).mp h)) ((hcond0_1 t).mpr h1) (iblk m c 0 t) prev.2.1 prev.2.2) (ix2 p (0 : Fin 1))).trans ?_
      exact pay5_apply (iblk m c 0 t) prev.2.1 prev.2.2 p
  · rw [outsAt0_B m c t h0 h1]
    dsimp only
    generalize (outsAt0 m c (t.val - 1) (Nat.lt_of_le_of_lt (Nat.sub_le _ _) t.isLt)) = prev
    constructor
    · refine (congrFun (sout0_B_0_eq (F := Ideal) c (grid0.coords t) (ms0_0 t) (hs0_0 t) (ms0_1 t) (hs0_1 t) scM0_0 (Memref.isWhole_whole _) scM0_1 (Memref.isWhole_whole _) (fun h => h0 ((hcond0_0 t).mp h)) (fun h => h1 ((hcond0_1 t).mp h)) (iblk m c 0 t) prev.2.1 prev.2.2) (ix2 p (0 : Fin 1))).trans ?_
      exact pay6_apply (iblk m c 0 t) prev.2.1 p
    · refine (congrFun (sout0_B_1_eq (F := Ideal) c (grid0.coords t) (ms0_0 t) (hs0_0 t) (ms0_1 t) (hs0_1 t) scM0_0 (Memref.isWhole_whole _) scM0_1 (Memref.isWhole_whole _) (fun h => h0 ((hcond0_0 t).mp h)) (fun h => h1 ((hcond0_1 t).mp h)) (iblk m c 0 t) prev.2.1 prev.2.2) (ix2 p (0 : Fin 1))).trans ?_
      exact pay5_apply (iblk m c 0 t) prev.2.1 prev.2.2 p

/-- On the last tile the output column receives the running denominator the point leaves. -/
theorem out_step (c : Dev nD) (t : Fin cfg0.N) (h1 : t.val % 5 = 4) (p : Fin 256) :
    (outsAt0 m c t.val t.isLt).1 (ix2 p (0 : Fin 1)) = (outsAt0 m c t.val t.isLt).2.2 (ix2 p (0 : Fin 1)) := by
  have h0 : ¬t.val % 5 = 0 := by omega
  rw [outsAt0_C m c t h0 h1]
  dsimp only
  generalize (outsAt0 m c (t.val - 1) (Nat.lt_of_le_of_lt (Nat.sub_le _ _) t.isLt)) = prev
  exact (congrFun (out0_C_1_eq (F := Ideal) c (grid0.coords t) (ms0_0 t) (hs0_0 t) (ms0_1 t) (hs0_1 t) scM0_0 (Memref.isWhole_whole _) scM0_1 (Memref.isWhole_whole _) (fun h => h0 ((hcond0_0 t).mp h)) ((hcond0_1 t).mpr h1) (iblk m c 0 t) prev.2.1 prev.2.2) (ix2 p (0 : Fin 1))).trans
    (congrFun (sout0_C_1_eq (F := Ideal) c (grid0.coords t) (ms0_0 t) (hs0_0 t) (ms0_1 t) (hs0_1 t) scM0_0 (Memref.isWhole_whole _) scM0_1 (Memref.isWhole_whole _) (fun h => h0 ((hcond0_0 t).mp h)) ((hcond0_1 t).mpr h1) (iblk m c 0 t) prev.2.1 prev.2.2) (ix2 p (0 : Fin 1))).symm

/-- After the k-th point of a row block the scratch columns hold, at row p, the streaming pass over the first
    k + 1 tiles of that row. -/
theorem scratch_after (c : Dev nD) (ti : Fin 4) (k : ℕ) (hk : k < 5) (p : Fin 256) :
    (outsAt0 m c (5 * ti.val + k) (pt_lt ti k hk)).2.1 (ix2 p (0 : Fin 1)) = (pass (tile m c ti p) (k + 1)).1
    ∧ (outsAt0 m c (5 * ti.val + k) (pt_lt ti k hk)).2.2 (ix2 p (0 : Fin 1)) = (pass (tile m c ti p) (k + 1)).2 := by
  induction k with
  | zero =>
    have h := scratch_first m c ⟨5 * ti.val + 0, pt_lt ti 0 hk⟩ (by show (5 * ti.val + 0) % 5 = 0; omega) p
    rw [show pass (tile m c ti p) (0 + 1) = (stepM ⊥ (tile m c ti p 0), stepL ⊥ 0 (tile m c ti p 0)) from rfl,
      tile_eq m c ti p 0 hk]
    exact h
  | succ k ih =>
    have hk' : k < 5 := by omega
    have ihk := ih hk'
    have h := scratch_step m c ⟨5 * ti.val + (k + 1), pt_lt ti (k + 1) hk⟩
      (by show ¬(5 * ti.val + (k + 1)) % 5 = 0; omega) p
    dsimp only at h
    rw [outsAt0_congr m c (show 5 * ti.val + (k + 1) - 1 = 5 * ti.val + k by omega) _ (pt_lt ti k hk'),
      ihk.1, ihk.2] at h
    rw [show pass (tile m c ti p) (k + 1 + 1)
        = (stepM (pass (tile m c ti p) (k + 1)).1 (tile m c ti p (k + 1)),
            stepL (pass (tile m c ti p) (k + 1)).1 (pass (tile m c ti p) (k + 1)).2 (tile m c ti p (k + 1))) from rfl,
      tile_eq m c ti p (k + 1) hk]
    exact h

/-- After the fifth point of a row block the output column holds, at row p, the final denominator of the pass. -/
theorem out_last (c : Dev nD) (ti : Fin 4) (p : Fin 256) :
    (outsAt0 m c (5 * ti.val + 4) (pt_lt ti 4 (by norm_num))).1 (ix2 p (0 : Fin 1)) = (pass (tile m c ti p) 5).2 :=
  (out_step m c ⟨5 * ti.val + 4, pt_lt ti 4 (by norm_num)⟩ (by show (5 * ti.val + 4) % 5 = 4; omega) p).trans
    (scratch_after m c ti 4 (by norm_num) p).2

end Cert.KernelIdeal.Frame

end
-- ==== Proof.KI.OutArray.lean ====
/-
  The output array after the run.

  The grid has 4 row blocks of 256 rows and, along each, 5 tiles; grid point 5·q + k is tile k of row block q. The
  output window's block at that point is rows 256·q … 256·q + 255 of the one-column output array, and it is written
  back exactly once, after the last tile (k = 4). So row R of the output array ends holding row R mod 256 of what the
  body left in the output block at point 5·(R / 256) + 4: every written block is the matching block of that one
  function of the row, and the four written blocks cover the 1024 rows.
-/
import proofs.«163289_j51866025067153_2_alg».proof.Proof.KI.Frame
import Idealize.ShloMosaic.Lib.Pipeline.Value
import Idealize.ShloMosaic.Lib.ValueIdx

noncomputable section

namespace Cert.KernelIdeal.OutArray

open Cert.KernelIdeal Cert.KernelIdeal.Gen Cert.KernelIdeal.Frame
open Idealize.ShloMosaic Idealize.ShloMosaic.TcCoe
open Idealize.ShloMosaic.Pipeline (Dat Cfg Window)

variable {F : FTy → Type} [FloatOps F]
variable (m : (ℓ : Loc nD τ sig) → Buf (Elt F) ℓ)

/-- The last tile of the row block that holds row r is a grid point. -/
theorem lastTile_lt (r : ℕ) (hr : r < 1024) : 5 * (r / 256) + 4 < cfg0.N := by
  have hN : cfg0.N = 20 := N_0
  omega

/-- The last tile of row block q is a grid point. -/
theorem lastTile_lt_of_block (q : Fin 4) : 5 * q.val + 4 < cfg0.N := by
  have hN : cfg0.N = 20 := N_0
  have hq : q.val < 4 := q.isLt
  omega

/-- What the buffers hold after a point does not depend on how the point's position is written. -/
theorem outsAt0_congr (c : Dev nD) {n n' : ℕ} (e : n = n') (hn : n < cfg0.N) (hn' : n' < cfg0.N) :
    outsAt0 m c n hn = outsAt0 m c n' hn' := by
  subst e; rfl

/-- The output array after the run, as one function of the row: row r holds row r mod 256 of the output block left by
    the last tile of row block r / 256. -/
def outG (c : Dev nD) : S1024x1.Idx → Elt F .f32 := fun i =>
  (outsAt0 m c (5 * ((i 0).val / 256) + 4) (lastTile_lt _ (i 0).isLt)).1
    (ValueIdx.ix2 (⟨(i 0).val % 256, Nat.mod_lt _ (by decide)⟩ : Fin 256) (0 : Fin 1))

/-- The output window's index map, decided once over the grid: point t is in row block t / 5, and the column block is 0. -/
theorem idx_facts1 : ∀ t : Fin cfg0.N, win0_1.index t (0 : Fin 2) = t.val / 5 ∧ win0_1.index t (1 : Fin 2) = 0 :=
  (by decide +kernel : ∀ t : Fin grid0.N, win0_1.index t (0 : Fin 2) = t.val / 5 ∧ win0_1.index t (1 : Fin 2) = 0)

/-- What a last tile's point writes back is its block of that function: the point's block starts at row 256 · (t / 5),
    so a row of the block is in row block t / 5, whose last tile is the point itself. -/
theorem flushed1_eq (c : Dev nD) (t : Fin cfg0.N) (hf : (cfg0.win 1).flush t = true) :
    (dats m 0 c).flushed 1 t = ((cfg0.win 1).blk t).view.read (Elt F) (outG m c) := by
  have h4 : t.val % 5 = 4 := (flush0_1 t).mp hf
  obtain ⟨e0, e1⟩ := idx_facts1 t
  show (cfg0.win 1).cut (grid0.coords t) ((dats m 0 c).after 1 t) = _
  rw [after0_1]
  funext y
  have hy0 : (y 0).val < 256 := (y 0).isLt
  have hy1 : (y 1).val < 1 := (y 1).isLt
  show (outsAt0 m c t.val t.isLt).1 (win0_1.xinj (grid0.coords t) y) = outG m c (((cfg0.win 1).blk t).view.emb y)
  have hemb : ((((cfg0.win 1).blk t).view.emb y) 0).val = win0_1.index t (0 : Fin 2) * 256 + 1 * (y 0).val := rfl
  have hpt : 5 * (((((cfg0.win 1).blk t).view.emb y) 0).val / 256) + 4 = t.val := by rw [hemb, e0]; omega
  have hrow : ((((cfg0.win 1).blk t).view.emb y) 0).val % 256 = (y 0).val := by rw [hemb, e0]; omega
  unfold outG
  rw [outsAt0_congr m c hpt _ t.isLt]
  refine congrArg (outsAt0 m c t.val t.isLt).1 ?_
  funext a; apply Fin.ext
  match a with
  | ⟨0, _⟩ => exact hrow.symm
  | ⟨1, _⟩ => show (y 1).val = 0; omega

/-- Every row of the output array is in the block of the last tile of its row block. -/
theorem cover1 (i : S1024x1.Idx) :
    ∃ t : Fin cfg0.N, (cfg0.win 1).flush t = true ∧ i ∈ ((cfg0.win 1).blk t).view.set := by
  have hi0 : (i 0).val < 1024 := (i 0).isLt
  have hi1 : (i 1).val < 1 := (i 1).isLt
  obtain ⟨t, ht⟩ : ∃ t : Fin cfg0.N, t.val = 5 * ((i 0).val / 256) + 4 := ⟨⟨_, lastTile_lt _ hi0⟩, rfl⟩
  obtain ⟨e0, e1⟩ := idx_facts1 t
  refine ⟨t, (flush0_1 t).mpr (by omega), ?_⟩
  show i ∈ ((View.whole main_v7).slice (win0_1.rect t)).set
  rw [View.set_slice_whole, Rect.mem_set_unit]
  intro a
  match a with
  | ⟨0, _⟩ =>
    show win0_1.index t (0 : Fin 2) * 256 ≤ (i 0).val ∧ (i 0).val < win0_1.index t (0 : Fin 2) * 256 + 256
    rw [e0]; omega
  | ⟨1, _⟩ =>
    show win0_1.index t (1 : Fin 2) * 1 ≤ (i 1).val ∧ (i 1).val < win0_1.index t (1 : Fin 2) * 1 + 1
    rw [e1]; omega

/-- The output array after the run is that function of the row. -/
theorem arrAt1_eq (c : Dev nD) : (dats m 0 c).arrAt 1 cfg0.N = outG m c :=
  (dats m 0 c).arrAt_eq_of_cover 1 (outG m c) (flushed1_eq m c) cover1

/-- Row R = 256 · q + p of the output array after the run: row p of the output block left by the last tile of row
    block q. -/
theorem arrAt_out_gen (c : Dev nD) (ti : Fin 4) (p : Fin 256) (R : Fin 1024) (hR : R.val = ti.val * 256 + p.val) :
    ((dats m 0 c).arrAt 1 cfg0.N : S1024x1.Idx → Elt F .f32) (ValueIdx.ix2 R (0 : Fin 1))
      = (outsAt0 m c (5 * ti.val + 4) (lastTile_lt_of_block ti)).1 (ValueIdx.ix2 p (0 : Fin 1)) := by
  have hp : p.val < 256 := p.isLt
  have hq : ti.val < 4 := ti.isLt
  rw [arrAt1_eq]
  show (outsAt0 m c (5 * (R.val / 256) + 4) _).1 (ValueIdx.ix2 (⟨R.val % 256, _⟩ : Fin 256) (0 : Fin 1)) = _
  have hpt : 5 * (R.val / 256) + 4 = 5 * ti.val + 4 := by rw [hR]; omega
  have hrow : R.val % 256 = p.val := by rw [hR]; omega
  rw [outsAt0_congr m c hpt _ (lastTile_lt_of_block ti)]
  refine congrArg (outsAt0 m c (5 * ti.val + 4) (lastTile_lt_of_block ti)).1 ?_
  funext a; apply Fin.ext
  match a with
  | ⟨0, _⟩ => exact hrow
  | ⟨1, _⟩ => rfl

/-- The same at the exact extended reals. -/
theorem arrAt_out (m : (ℓ : Loc nD τ sig) → Buf (Elt Ideal) ℓ) (c : Dev nD) (ti : Fin 4) (p : Fin 256) (R : Fin 1024)
    (hR : R.val = ti.val * 256 + p.val) :
    ((dats m 0 c).arrAt 1 cfg0.N : S1024x1.Idx → EReal) (ValueIdx.ix2 R (0 : Fin 1))
      = (outsAt0 m c (5 * ti.val + 4) (lastTile_lt_of_block ti)).1 (ValueIdx.ix2 p (0 : Fin 1)) :=
  arrAt_out_gen m c ti p R hR

end Cert.KernelIdeal.OutArray

end
-- ==== Proof.KI.BlockRead.lean ====
/-
  A block of the region's operand, read off the array.

  The region's operand is a 1024 × 32000 array cut into 4 × 5 blocks of 256 × 6400; the grid visits them row block by
  row block, so point 5·ti + k holds block (ti, k). An entry (p, j) of that block is the array's entry
  (ti · 256 + p, k · 6400 + j): on each axis a block's coordinate is the block index times the block size plus the
  coordinate inside the block.
-/
import proofs.«163289_j51866025067153_2_alg».proof.Proof.KI.FrameKit
import Idealize.ShloMosaic.Lib.ValueIdx
import Idealize.ShloMosaic.Lib.Pipeline.Value

set_option maxRecDepth 16384

noncomputable section

namespace Cert.KernelIdeal.Frame

open Cert.KernelIdeal Cert.KernelIdeal.Gen
open Idealize.ShloMosaic Idealize.ShloMosaic.TcCoe Idealize.ShloMosaic.ValueIdx
open Idealize.SL Idealize.SL.Sem

/-- The block index of the operand's window at point `t`: row block `t / 5`, column block `t % 5`. -/
theorem index0_0 : ∀ t : Fin cfg0.N, win0_0.index t 0 = t.val / 5 ∧ win0_0.index t 1 = t.val % 5 :=
  (by decide +kernel : ∀ t : Fin grid0.N, win0_0.index t 0 = t.val / 5 ∧ win0_0.index t 1 = t.val % 5)

/-- Point `5·ti + k` is a point of the grid. -/
theorem point_lt (ti : Fin 4) (k : Fin 5) : 5 * ti.val + k.val < cfg0.N := by
  have := ti.isLt; have := k.isLt
  rw [show cfg0.N = 20 from N_0]; omega

/-- The operand's block at a point `t = 5·ti + k`, at (p, j), is the operand at (ti · 256 + p, k · 6400 + j). -/
theorem iblk_apply_at (m : (ℓ : Loc nD τ sig) → Buf (Elt Ideal) ℓ) (c : Dev nD) (t : Fin cfg0.N) (ti : Fin 4) (k : Fin 5)
    (ht : t.val = 5 * ti.val + k.val) (p : Fin 256) (j : Fin 6400) (R : Fin 1024) (hR : R.val = ti.val * 256 + p.val)
    (v : Fin 32000) (hv : v.val = k.val * 6400 + j.val) :
    (iblk m c 0 t : Vec Ideal S256x6400 .f32) (ix2 p j) = (V m c main_v6 : S1024x32000.Idx → EReal) (ix2 R v) := by
  have hi := index0_0 t
  have hk := k.isLt
  unfold iblk
  rw [View.read_apply]
  show (V m c main_v6 : S1024x32000.Idx → EReal) _ = (V m c main_v6 : S1024x32000.Idx → EReal) (ix2 R v)
  refine congrArg (V m c main_v6 : S1024x32000.Idx → EReal) (funext fun a => Fin.ext ?_)
  match a with
  | ⟨0, _⟩ => show win0_0.index t 0 * 256 + 1 * p.val = R.val; rw [hi.1, hR, ht]; omega
  | ⟨1, _⟩ => show win0_0.index t 1 * 6400 + 1 * j.val = v.val; rw [hi.2, hv, ht]; omega

/-- The same at the literal point `5·ti + k`. -/
theorem iblk_apply (m : (ℓ : Loc nD τ sig) → Buf (Elt Ideal) ℓ) (c : Dev nD) (ti : Fin 4) (k : Fin 5) (p : Fin 256)
    (j : Fin 6400) (R : Fin 1024) (hR : R.val = ti.val * 256 + p.val) (v : Fin 32000)
    (hv : v.val = k.val * 6400 + j.val) :
    (iblk m c 0 ⟨5 * ti.val + k.val, point_lt ti k⟩ : Vec Ideal S256x6400 .f32) (ix2 p j)
      = (V m c main_v6 : S1024x32000.Idx → EReal) (ix2 R v) :=
  iblk_apply_at m c ⟨5 * ti.val + k.val, point_lt ti k⟩ ti k rfl p j R hR v hv

end Cert.KernelIdeal.Frame

end
-- ==== Proof.LibFlattenCasts.lean ====
import Idealize.ShloMosaic.Lib.Pipeline.Value
import Idealize.ShloMosaic.Lib.ValueIdx

/-!
# Shape casts that merge, split or drop axes, read at an index given by coordinates

A rank-3 array `[a, b, c]` viewed as the matrix `[a·b, c]` (its two leading axes merged) and back, an `[a, 1, b]`
array viewed as the matrix `[a, b]` (its middle unit axis dropped), and a vector `[a]` viewed as `[1, 1, a]`: each
reads the operand at the index with the same row-major position. These are the forms a batched matrix product
`x.reshape(a·b, c) @ w`, reshaped back, and a bias `v[None, None, :]` are spelt with.
-/

namespace Idealize.ShloMosaic.ValueIdx

open Idealize.ShloMosaic

variable {α : Type}

/-- An `[a, b, c]` array cast to `[n, c]` reads, at `(R, j)` with `R = p·b + r`, the operand at `(p, r, j)`: both sit at
    row-major position `(p·b + r)·c + j`. -/
theorem shapeCast_abc_nc_apply {a b c n : ℕ} (x : (⟨3, ![a, b, c]⟩ : Shape).Idx → α)
    (h : (⟨3, ![a, b, c]⟩ : Shape).ShapeCasts ⟨2, ![n, c]⟩) (p : Fin a) (r : Fin b) (j : Fin c) (R : Fin n)
    (hR : R.val = p.val * b + r.val) :
    shapeCast ⟨2, ![n, c]⟩ x h (ix2 R j) = x (ix3 p r j) :=
  shapeCast_apply x h _ _ (by
    rw [Shape.rowMajor_val_three, Shape.rowMajor_val_two]
    show (p.val * b + r.val) * c + j.val = R.val * c + j.val
    rw [hR])

/-- An `[n, c]` matrix cast to `[a, b, c]` reads, at `(p, r, j)`, the operand at `(R, j)` with `R = p·b + r`. -/
theorem shapeCast_nc_abc_apply {a b c n : ℕ} (x : (⟨2, ![n, c]⟩ : Shape).Idx → α)
    (h : (⟨2, ![n, c]⟩ : Shape).ShapeCasts ⟨3, ![a, b, c]⟩) (p : Fin a) (r : Fin b) (j : Fin c) (R : Fin n)
    (hR : R.val = p.val * b + r.val) :
    shapeCast ⟨3, ![a, b, c]⟩ x h (ix3 p r j) = x (ix2 R j) :=
  shapeCast_apply x h _ _ (by
    rw [Shape.rowMajor_val_three, Shape.rowMajor_val_two]
    show R.val * c + j.val = (p.val * b + r.val) * c + j.val
    rw [hR])

/-- An `[a, 1, b]` array cast to `[a, b]` reads, at `(i, j)`, the operand at `(i, 0, j)`. -/
theorem shapeCast_a1b_ab_apply {a b : ℕ} (x : (⟨3, ![a, 1, b]⟩ : Shape).Idx → α)
    (h : (⟨3, ![a, 1, b]⟩ : Shape).ShapeCasts ⟨2, ![a, b]⟩) (i : Fin a) (j : Fin b) :
    shapeCast ⟨2, ![a, b]⟩ x h (ix2 i j) = x (ix3 i (0 : Fin 1) j) :=
  shapeCast_apply x h _ _ (by
    rw [Shape.rowMajor_val_three, Shape.rowMajor_val_two]
    show (i.val * 1 + 0) * b + j.val = i.val * b + j.val
    rw [Nat.mul_one, Nat.add_zero])

/-- A vector `[a]` cast to `[1, 1, a]` reads, at `(u, w, j)`, the operand at `j`. -/
theorem shapeCast_a_11a_apply {a : ℕ} (x : (⟨1, ![a]⟩ : Shape).Idx → α)
    (h : (⟨1, ![a]⟩ : Shape).ShapeCasts ⟨3, ![1, 1, a]⟩) (u w : Fin 1) (j : Fin a) :
    shapeCast ⟨3, ![1, 1, a]⟩ x h (ix3 u w j) = x (ix1 j) :=
  shapeCast_apply x h _ _ (by
    have hu : u.val = 0 := by omega
    have hw : w.val = 0 := by omega
    rw [Shape.rowMajor_val_three, Shape.rowMajor_val_one]
    show j.val = (u.val * 1 + w.val) * a + j.val
    rw [hu, hw]
    simp)

end Idealize.ShloMosaic.ValueIdx
-- ==== Proof.ConfKRead.lean ====
/-
  The kernel program's token confidences and its region's operand, read at an entry.

  The region leaves a column of 1024 denominators, one per (batch row, position) pair in row-major order. The program
  drops the unit axis, splits the 1024 rows into 8 × 128, and divides one by each entry; so the confidence at
  (b, s) is one over the denominator in row b · 128 + s. In the other direction, the region's operand is the logits
  with the two leading axes merged: its row b · 128 + s is the logits' row (b, s).
-/
import proofs.«163289_j51866025067153_2_alg».proof.Proof.KernelTail
import proofs.«163289_j51866025067153_2_alg».proof.Proof.LibFlattenCasts
import proofs.«163289_j51866025067153_2_alg».proof.Proof.LibColumnCast
import Idealize.ShloMosaic.Lib.ValueIdx
import Idealize.ShloMosaic.Lib.ValueLayout
import Idealize.ShloMosaic.Lib.Pipeline.Value
import Idealize.ShloMosaic.PureOps.Ideal.Laws

noncomputable section

namespace Idealize.ShloMosaic.ValueIdx

open Idealize.ShloMosaic

variable {α : Type}

/-- A vector `[n]` cast to the matrix `[a, b]` reads, at `(p, r)`, the operand at `R = p·b + r`: both sit at that
    row-major position. -/
theorem shapeCast_n_ab_apply {a b n : ℕ} (x : (⟨1, ![n]⟩ : Shape).Idx → α)
    (h : (⟨1, ![n]⟩ : Shape).ShapeCasts ⟨2, ![a, b]⟩) (p : Fin a) (r : Fin b) (R : Fin n)
    (hR : R.val = p.val * b + r.val) :
    shapeCast ⟨2, ![a, b]⟩ x h (ix2 p r) = x (ix1 R) :=
  shapeCast_apply x h _ _ (by
    rw [Shape.rowMajor_val_two, Shape.rowMajor_val_one]
    show R.val = p.val * b + r.val
    exact hR)

end Idealize.ShloMosaic.ValueIdx

namespace Cert.KernelTail

open Cert.KernelIdeal Cert.KernelIdeal.Gen Idealize.ShloMosaic Idealize.ShloMosaic.ValueIdx

/-- The bit pattern 0x3F800000 denotes the number one. -/
theorem ofBits_one_f32 : Ideal.ofBits .f32 0x3F800000#32 = 1 := by
  simp [Ideal.ofBits, Ideal.ieee]
  rw [← EReal.coe_mul, ← EReal.coe_one]
  exact congrArg _ (by norm_num)

/-- The confidence at (b, s) is one over the denominator in row `b · 128 + s` of the region's output column. -/
theorem confK_apply (v7 : Arr S1024x1 .f32) (b : Fin 8) (s : Fin 128) (R : Fin 1024)
    (hR : R.val = b.val * 128 + s.val) :
    confK v7 (ix2 b s) = Ideal.div 1 (v7 (ix2 R (0 : Fin 1))) := by
  unfold confK
  show Ideal.div
      (broadcastInDim S8x128 ![] bcast_S_S8x128 (constant (F := Ideal) S_ .f32 0x3F800000#32) (ix2 b s))
      (shapeCast S8x128 (shapeCast S1024 v7 shapeCasts_S1024x1_S1024) shapeCasts_S1024_S8x128 (ix2 b s)) = _
  rw [broadcastInDim_apply _ bcast_S_S8x128 (constant (F := Ideal) S_ .f32 0x3F800000#32) (ix2 b s)
      (fun a => a.elim0) (fun a => a.elim0),
    shapeCast_n_ab_apply (shapeCast S1024 v7 shapeCasts_S1024x1_S1024) shapeCasts_S1024_S8x128 b s R hR,
    shapeCast_a1_a_apply v7 shapeCasts_S1024x1_S1024 R]
  show Ideal.div (Ideal.ofBits .f32 0x3F800000#32) _ = _
  rw [ofBits_one_f32]

/-- The region's operand at (R, v) with `R = b · 128 + s` is the logits at (b, s, v). -/
theorem logits_apply (a0 : Arr S8x128x32000 .f32) (b : Fin 8) (s : Fin 128) (v : Fin 32000) (R : Fin 1024)
    (hR : R.val = b.val * 128 + s.val) :
    shapeCast S1024x32000 a0 shapeCasts_S8x128x32000_S1024x32000 (ix2 R v) = a0 (ix3 b s v) :=
  shapeCast_abc_nc_apply a0 shapeCasts_S8x128x32000_S1024x32000 b s v R hR

end Cert.KernelTail

end
-- ==== Proof.KI.BlockLogits.lean ====
/-
  A block of the region's operand, read off the logits.

  The region's operand is the logits with their two leading axes merged, so its row b · 128 + s is the logits' row
  (b, s); and a block's entry (p, j) at point 5·ti + k is the operand's entry (ti · 256 + p, k · 6400 + j). Together:
  when b · 128 + s = ti · 256 + p, the block's entry is the logit at (b, s, k · 6400 + j).
-/
import proofs.«163289_j51866025067153_2_alg».proof.Proof.KI.BlockRead
import proofs.«163289_j51866025067153_2_alg».proof.Proof.ConfKRead

set_option maxRecDepth 16384

noncomputable section

namespace Cert.KernelIdeal.Frame

open Cert.KernelIdeal Cert.KernelIdeal.Gen
open Idealize.ShloMosaic Idealize.ShloMosaic.TcCoe Idealize.ShloMosaic.ValueIdx
open Idealize.SL Idealize.SL.Sem

/-- The region's operand is the launched logits with their two leading axes merged. -/
theorem V_main_v6 (m : (ℓ : Loc nD τ sig) → Buf (Elt Ideal) ℓ) (c : Dev nD) :
    (V m c main_v6 : S1024x32000.Idx → EReal)
      = shapeCast S1024x32000 (m ((c : Thread nD τ).loc main_arg0) : S8x128x32000.Idx → EReal)
          shapeCasts_S8x128x32000_S1024x32000 :=
  Cert.KernelTail.kernel_prefix_v6 (fun b => m (c, b))

/-- The operand's block at point `5·ti + k`, at (p, j), is the logit at (b, s, k · 6400 + j) whenever row
    `ti · 256 + p` of the operand is row (b, s) of the logits. -/
theorem iblk_logits_at (m : (ℓ : Loc nD τ sig) → Buf (Elt Ideal) ℓ) (c : Dev nD) (t : Fin cfg0.N) (ti : Fin 4) (k : Fin 5)
    (ht : t.val = 5 * ti.val + k.val) (p : Fin 256) (j : Fin 6400) (b : Fin 8) (s : Fin 128)
    (hbs : b.val * 128 + s.val = ti.val * 256 + p.val) (v : Fin 32000) (hv : v.val = k.val * 6400 + j.val) :
    (iblk m c 0 t : Vec Ideal S256x6400 .f32) (ix2 p j)
      = (m ((c : Thread nD τ).loc main_arg0) : S8x128x32000.Idx → EReal) (ix3 b s v) := by
  have hb := b.isLt
  have hs := s.isLt
  have hR : b.val * 128 + s.val < 1024 := by omega
  rw [iblk_apply_at m c t ti k ht p j ⟨b.val * 128 + s.val, hR⟩ hbs v hv, V_main_v6 m c]
  exact Cert.KernelTail.logits_apply _ b s v ⟨b.val * 128 + s.val, hR⟩ rfl

/-- The same at the literal point `5·ti + k`. -/
theorem iblk_logits (m : (ℓ : Loc nD τ sig) → Buf (Elt Ideal) ℓ) (c : Dev nD) (ti : Fin 4) (k : Fin 5) (p : Fin 256)
    (j : Fin 6400) (b : Fin 8) (s : Fin 128) (hbs : b.val * 128 + s.val = ti.val * 256 + p.val) (v : Fin 32000)
    (hv : v.val = k.val * 6400 + j.val) :
    (iblk m c 0 ⟨5 * ti.val + k.val, point_lt ti k⟩ : Vec Ideal S256x6400 .f32) (ix2 p j)
      = (m ((c : Thread nD τ).loc main_arg0) : S8x128x32000.Idx → EReal) (ix3 b s v) :=
  iblk_logits_at m c ⟨5 * ti.val + k.val, point_lt ti k⟩ ti k rfl p j b s hbs v hv

end Cert.KernelIdeal.Frame

end
-- ==== Proof.RefConf.lean ====
/-
  The reference's token confidence, read entry by entry at the exact extended reals.

  For batch b and position s the reference takes the row y = x(b, s, ·) of 32000 logits, subtracts its largest entry,
  exponentiates, divides each exponential by the sum of all of them, and takes the largest quotient: the largest
  softmax probability of the row. Each stage is read at an index; the broadcasts of the row's maximum and of the row's
  sum back over the row only rename indices, a maximum started from −∞ is the maximum, and a sum started from 0 is the sum.
-/
import proofs.«163289_j51866025067153_2_alg».proof.Proof.Gen.ReferenceIdeal.Read
import proofs.«163289_j51866025067153_2_alg».proof.Proof.SoftmaxSpec
import Idealize.ShloMosaic.Lib.ValueIdx
import Idealize.ShloMosaic.PureOps.Reduce
import Idealize.ShloMosaic.PureOps.Ideal.Laws

open scoped BigOperators

noncomputable section

namespace Cert.RefConf

open Idealize.ShloMosaic Idealize.ShloMosaic.ValueIdx Cert.ReferenceIdeal Cert.ReferenceIdeal.Read Cert.Softmax

/-- The word with sign 1, exponent all ones and fraction 0 denotes −∞. -/
theorem negInf_word : Ideal.ofBits .f32 0xFF800000#32 = (⊥ : EReal) := by
  simp [Ideal.ofBits, Ideal.ieee]

/-- Inserting coordinate v on the last axis over the index (p, q) gives the index (p, q, v). -/
theorem lift_last {a b n : ℕ} (h : (⟨3, ![a, b, n]⟩ : Shape).Reduces [2] ⟨2, ![a, b]⟩) (p : Fin a) (q : Fin b) (v : Fin n) :
    h.lift (ix2 p q) v = ix3 p q v := by
  funext ax; apply Fin.ext
  show h.liftVal (ix2 p q) v.val ax = (ix3 p q v ax).val
  unfold Shape.Reduces.liftVal
  match ax with
  | ⟨0, _⟩ => rfl
  | ⟨1, _⟩ => rfl
  | ⟨2, _⟩ => rfl

/-- The maximum of an [a, b, n] array over its last axis, started from −∞, read at (p, q): the largest of the n
    entries (p, q, ·). -/
theorem hostMax_last_apply {a b n : ℕ} (x : FVec Ideal ⟨3, ![a, b, n]⟩ .f32)
    (h' : (⟨3, ![a, b, n]⟩ : Shape).ReducesTo [2] ⟨2, ![a, b]⟩) (h : (⟨3, ![a, b, n]⟩ : Shape).Reduces [2] ⟨2, ![a, b]⟩)
    (hu : 0 < (⟨0, ![]⟩ : Shape).numel) (p : Fin a) (q : Fin b) :
    Host.reduce FloatOps.maximumf x (constant (F := Ideal) (⟨0, ![]⟩ : Shape) .f32 0xFF800000#32) h' hu (ix2 p q)
      = top (fun v : Fin n => x (ix3 p q v)) := by
  refine (Host.reduce_eq_fold_single FloatOps.maximumf x _ h' h hu (ix2 p q)).trans ?_
  unfold top
  show (Finset.univ : Finset (Fin n)).fold max (Ideal.ofBits .f32 0xFF800000#32) (x ∘ h.lift (ix2 p q)) = _
  rw [negInf_word]
  exact congrArg (fun f => (Finset.univ : Finset (Fin n)).fold max ⊥ f) (funext fun v => congrArg x (lift_last h p q v))

section
variable (x0 : (⟨S8x128x32000, .f32⟩ : BufTy).Contents (Elt Ideal)) (b : Fin 8) (s : Fin 128)

/-- The maximum of the row of logits (b, s, ·), before it is compared with −∞. -/
theorem rowmax0_apply : val_main_v6 (F := Ideal) x0 (ix2 b s) = top (fun v : Fin 32000 => x0 (ix3 b s v)) := by
  unfold val_main_v6 val_main_cst_3
  exact hostMax_last_apply x0 _ (by decide) _ b s

/-- The row's maximum: the largest of the 32000 logits of (b, s). -/
theorem rowmax_apply : val_main_v8 (F := Ideal) x0 (ix2 b s) = top (fun v : Fin 32000 => x0 (ix3 b s v)) := by
  rw [val_main_v8_apply, val_main_v7_apply, val_main_cst_4_apply, Ideal.maximumf_def, Ideal.ofBits_def, negInf_word,
    max_bot_left]
  exact rowmax0_apply x0 b s

/-- The exponential of a logit relative to the row's maximum. -/
theorem exp_apply (v : Fin 32000) : val_main_v12 (F := Ideal) x0 (ix3 b s v)
    = Ideal.exp (x0 (ix3 b s v) - top (fun w : Fin 32000 => x0 (ix3 b s w))) := by
  have e : idx_main_v9 (idx_main_v10 (ix3 b s v)) = ix2 b s :=
    funext fun a => Fin.ext (by match a with | ⟨0, _⟩ => rfl | ⟨1, _⟩ => rfl)
  rw [val_main_v12_apply, val_main_v11_apply, val_main_v10_apply, val_main_v9_apply, e, rowmax_apply,
    Ideal.hostUnary_exp_def, Ideal.subf_def]

/-- The row's denominator: the sum of those exponentials over the row. -/
theorem denom_apply : val_main_v13 (F := Ideal) x0 (ix2 b s)
    = ∑ w : Fin 32000, Ideal.exp (x0 (ix3 b s w) - top (fun w' : Fin 32000 => x0 (ix3 b s w'))) := by
  rw [val_main_v13_apply, val_main_cst_5_apply, Ideal.ofBits_def, Ideal.ofBits_zero_f32, zero_add]
  refine Finset.sum_congr rfl fun k _ => ?_
  have e : idx_main_v13 (ix2 b s) k = ix3 b s k :=
    funext fun a => Fin.ext (by match a with | ⟨0, _⟩ => rfl | ⟨1, _⟩ => rfl | ⟨2, _⟩ => rfl)
  rw [e, exp_apply]

/-- A softmax probability of the row: the exponential over the denominator. -/
theorem prob_apply (v : Fin 32000) : val_main_v16 (F := Ideal) x0 (ix3 b s v)
    = Ideal.div (Ideal.exp (x0 (ix3 b s v) - top (fun w : Fin 32000 => x0 (ix3 b s w))))
        (∑ w : Fin 32000, Ideal.exp (x0 (ix3 b s w) - top (fun w' : Fin 32000 => x0 (ix3 b s w')))) := by
  have e : idx_main_v14 (idx_main_v15 (ix3 b s v)) = ix2 b s :=
    funext fun a => Fin.ext (by match a with | ⟨0, _⟩ => rfl | ⟨1, _⟩ => rfl)
  rw [val_main_v16_apply, val_main_v15_apply, val_main_v14_apply, e, denom_apply, exp_apply, Ideal.hostDivf_def]

/-- The reference's confidence at (b, s) is the largest softmax probability of the row of logits (b, s, ·). -/
theorem conf_ref_apply : val_main_v17 (F := Ideal) x0 (ix2 b s)
    = softmaxTop (fun v : Fin 32000 => x0 (ix3 b s v)) := by
  unfold val_main_v17 val_main_cst_6
  refine (hostMax_last_apply (val_main_v16 (F := Ideal) x0) _ (by decide) _ b s).trans ?_
  unfold softmaxTop
  exact congrArg (top (n := 32000)) (funext fun v => prob_apply x0 b s v)

end

end Cert.RefConf

end
-- ==== Proof.LibERealSums.lean ====
/-
  Finite sums of real numbers inside the extended reals. The inclusion of the reals into [−∞, +∞] carries a finite
  sum to the sum of the inclusions (by induction on the index set, from the two-term case), so a sum of products of
  included reals is the included sum of the real products.
-/
import Idealize.ShloMosaic.PureOps.Ideal

noncomputable section

namespace Cert.Attn

/-- The inclusion ℝ → [−∞, +∞] commutes with a finite sum. -/
theorem coe_sum {ι : Type} (s : Finset ι) (f : ι → ℝ) :
    ((∑ k ∈ s, f k : ℝ) : EReal) = ∑ k ∈ s, ((f k : ℝ) : EReal) := by
  classical
  induction s using Finset.induction_on with
  | empty => simp
  | insert a s ha ih => rw [Finset.sum_insert ha, Finset.sum_insert ha, EReal.coe_add, ih]

/-- The same over a whole finite type. -/
theorem coe_sum_univ {ι : Type} [Fintype ι] (f : ι → ℝ) :
    ((∑ k, f k : ℝ) : EReal) = ∑ k, ((f k : ℝ) : EReal) := coe_sum _ _

/-- A sum of products of included reals is the included sum of the products. -/
theorem sum_coe_mul_coe {ι : Type} [Fintype ι] (f g : ι → ℝ) :
    ∑ k, ((f k : ℝ) : EReal) * ((g k : ℝ) : EReal) = ((∑ k, f k * g k : ℝ) : EReal) := by
  rw [coe_sum_univ]
  exact Finset.sum_congr rfl fun k _ => (EReal.coe_mul _ _).symm

/-- The maximum, from −∞, of finitely many included reals over a nonempty index set is an included real. -/
theorem fold_max_coe_exists {ι : Type} (s : Finset ι) (hs : s.Nonempty) (f : ι → ℝ) :
    ∃ ρ : ℝ, s.fold max (⊥ : EReal) (fun k => ((f k : ℝ) : EReal)) = (ρ : EReal) := by
  classical
  induction hs using Finset.Nonempty.cons_induction with
  | singleton a => exact ⟨f a, by simp⟩
  | cons a s ha hs ih =>
    obtain ⟨ρ, hρ⟩ := ih
    refine ⟨max (f a) ρ, ?_⟩
    rw [Finset.fold_cons, hρ]
    exact (EReal.coe_strictMono.monotone.map_max).symm

end Cert.Attn

end
-- ==== Proof.SoftmaxLawStep.lean ====
/-
  One step of the streaming softmax recurrence on real data.

  For a tile t of real numbers with largest entry T, a real running pair (M, L) becomes
  (max(M, T), L · exp(M − max(M, T)) + Σ_j exp(t_j − max(M, T))), and the initial pair (−∞, 0) becomes
  (T, Σ_j exp(t_j − T)): exp(−∞) = 0 and 0 · 0 = 0, so the empty history contributes nothing.
  Rescaling a sum of exponentials from one reference point to another multiplies it by the exponential of the difference.
-/
import proofs.«163289_j51866025067153_2_alg».proof.Proof.SoftmaxSpec
import proofs.«163289_j51866025067153_2_alg».proof.Proof.LibERealSums

open scoped BigOperators

noncomputable section

namespace Cert.Softmax

open Idealize.ShloMosaic

/-- The largest entry, from −∞, of finitely many included reals is the included real upper bound that some entry
    attains. -/
theorem top_coe_eq {n : ℕ} (f : Fin n → ℝ) (M : ℝ) (hle : ∀ j, f j ≤ M) (hat : ∃ j, f j = M) :
    top (fun j => ((f j : ℝ) : EReal)) = (M : EReal) := by
  obtain ⟨j0, hj0⟩ := hat
  unfold top
  refine le_antisymm ?_ ?_
  · exact (Finset.fold_max_le _).mpr ⟨bot_le, fun j _ => EReal.coe_le_coe_iff.mpr (hle j)⟩
  · exact (Finset.le_fold_max _).mpr (Or.inr ⟨j0, Finset.mem_univ _, by rw [hj0]⟩)

/-- A nonempty finite family of reals has a largest entry. -/
theorem exists_max_entry {n : ℕ} (hn : 0 < n) (f : Fin n → ℝ) : ∃ j0, ∀ j, f j ≤ f j0 := by
  obtain ⟨j0, -, h⟩ := Finset.exists_max_image Finset.univ f ⟨⟨0, hn⟩, Finset.mem_univ _⟩
  exact ⟨j0, fun j => h j (Finset.mem_univ _)⟩

/-- The exponential of a difference of included reals is the included real exponential. -/
theorem exp_coe_sub_coe (a b : ℝ) : Ideal.exp ((a : EReal) - (b : EReal)) = ((Real.exp (a - b) : ℝ) : EReal) := by
  rw [← EReal.coe_sub, Ideal.exp_coe]

/-- The sum of the exponentials of a real tile shifted by a real is the included real sum. -/
theorem sum_exp_coe_sub_coe {n : ℕ} (t : Fin n → ℝ) (b : ℝ) :
    ∑ j, Ideal.exp (((t j : ℝ) : EReal) - (b : EReal)) = ((∑ j, Real.exp (t j - b) : ℝ) : EReal) := by
  rw [Cert.Attn.coe_sum_univ]
  exact Finset.sum_congr rfl fun j _ => exp_coe_sub_coe (t j) b

/-- The running maximum after a real tile with largest entry T, from a real maximum. -/
theorem stepM_coe {n : ℕ} (M T : ℝ) (t : Fin n → ℝ) (hle : ∀ j, t j ≤ T) (hat : ∃ j, t j = T) :
    stepM (M : EReal) (fun j => ((t j : ℝ) : EReal)) = ((max M T : ℝ) : EReal) := by
  rw [stepM, top_coe_eq t T hle hat]
  exact (EReal.coe_strictMono.monotone.map_max).symm

/-- The running maximum after a real tile with largest entry T, from −∞. -/
theorem stepM_bot {n : ℕ} (T : ℝ) (t : Fin n → ℝ) (hle : ∀ j, t j ≤ T) (hat : ∃ j, t j = T) :
    stepM ⊥ (fun j => ((t j : ℝ) : EReal)) = (T : EReal) := by
  rw [stepM, top_coe_eq t T hle hat]
  exact max_eq_right bot_le

/-- The running denominator after a real tile with largest entry T, from a real pair. -/
theorem stepL_coe {n : ℕ} (M L T : ℝ) (t : Fin n → ℝ) (hle : ∀ j, t j ≤ T) (hat : ∃ j, t j = T) :
    stepL (M : EReal) (L : EReal) (fun j => ((t j : ℝ) : EReal)) =
      ((L * Real.exp (M - max M T) + ∑ j, Real.exp (t j - max M T) : ℝ) : EReal) := by
  rw [stepL, stepM_coe M T t hle hat, exp_coe_sub_coe, sum_exp_coe_sub_coe, ← EReal.coe_mul, ← EReal.coe_add]

/-- The running denominator after a real tile with largest entry T, from the initial pair (−∞, 0). -/
theorem stepL_bot {n : ℕ} (T : ℝ) (t : Fin n → ℝ) (hle : ∀ j, t j ≤ T) (hat : ∃ j, t j = T) :
    stepL ⊥ 0 (fun j => ((t j : ℝ) : EReal)) = ((∑ j, Real.exp (t j - T) : ℝ) : EReal) := by
  rw [stepL, stepM_bot T t hle hat, zero_mul, zero_add, sum_exp_coe_sub_coe]

/-- Moving the reference point of a sum of exponentials over the first k tiles from M to M'. -/
theorem rescale_sums {n : ℕ} (xr : ℕ → Fin n → ℝ) (k : ℕ) (M M' : ℝ) :
    (∑ i ∈ Finset.range k, ∑ j, Real.exp (xr i j - M)) * Real.exp (M - M') =
      ∑ i ∈ Finset.range k, ∑ j, Real.exp (xr i j - M') := by
  rw [Finset.sum_mul]
  refine Finset.sum_congr rfl fun i _ => ?_
  rw [Finset.sum_mul]
  refine Finset.sum_congr rfl fun j _ => ?_
  rw [← Real.exp_add]
  congr 1
  ring

end Cert.Softmax

end
-- ==== Proof.SoftmaxLawPass.lean ====
/-
  The streaming pass on real tiles.

  After k ≥ 1 tiles the running maximum is the largest entry M of those tiles, and the running denominator is
  Σ over those tiles of exp(entry − M). By induction on k: the first tile starts from (−∞, 0); a later tile with
  largest entry T rescales the old denominator by exp(M − max(M, T)), which moves every old term to the new
  reference point, and adds the new tile's terms. The pass over k tiles reads only those k tiles.
-/
import proofs.«163289_j51866025067153_2_alg».proof.Proof.SoftmaxLawStep

open scoped BigOperators

noncomputable section

namespace Cert.Softmax

open Idealize.ShloMosaic

/-- The pass over the first k tiles depends on those tiles only. -/
theorem pass_congr {n : ℕ} (x x' : ℕ → Fin n → EReal) (k : ℕ) (h : ∀ i, i < k → x i = x' i) :
    pass x k = pass x' k := by
  induction k with
  | zero => rfl
  | succ k ih =>
    have hk := ih fun i hi => h i (Nat.lt_succ_of_lt hi)
    show (stepM (pass x k).1 (x k), stepL (pass x k).1 (pass x k).2 (x k)) =
      (stepM (pass x' k).1 (x' k), stepL (pass x' k).1 (pass x' k).2 (x' k))
    rw [hk, h k (Nat.lt_succ_self k)]

/-- After k + 1 real tiles: the running maximum is the largest entry M seen, the running denominator is the sum
    of exp(entry − M) over the entries seen. -/
theorem pass_coe {n : ℕ} (hn : 0 < n) (xr : ℕ → Fin n → ℝ) (k : ℕ) :
    ∃ M : ℝ, (∀ i, i < k + 1 → ∀ j, xr i j ≤ M) ∧ (∃ i, i < k + 1 ∧ ∃ j, xr i j = M) ∧
      pass (fun i j => ((xr i j : ℝ) : EReal)) (k + 1) =
        ((M : EReal), ((∑ i ∈ Finset.range (k + 1), ∑ j, Real.exp (xr i j - M) : ℝ) : EReal)) := by
  induction k with
  | zero =>
    obtain ⟨j0, hj0⟩ := exists_max_entry hn (xr 0)
    refine ⟨xr 0 j0, ?_, ⟨0, Nat.zero_lt_one, j0, rfl⟩, ?_⟩
    · intro i hi j
      have h0 : i = 0 := by omega
      subst h0
      exact hj0 j
    · show (stepM ⊥ (fun j => ((xr 0 j : ℝ) : EReal)), stepL ⊥ 0 (fun j => ((xr 0 j : ℝ) : EReal))) = _
      rw [stepM_bot (xr 0 j0) (xr 0) hj0 ⟨j0, rfl⟩, stepL_bot (xr 0 j0) (xr 0) hj0 ⟨j0, rfl⟩,
        Finset.sum_range_one]
  | succ k ih =>
    obtain ⟨M, hle, ⟨i1, hi1, j1, hj1⟩, hp⟩ := ih
    obtain ⟨j0, hj0⟩ := exists_max_entry hn (xr (k + 1))
    refine ⟨max M (xr (k + 1) j0), ?_, ?_, ?_⟩
    · intro i hi j
      rcases Nat.lt_succ_iff_lt_or_eq.mp hi with h | h
      · exact le_trans (hle i h j) (le_max_left _ _)
      · subst h
        exact le_trans (hj0 j) (le_max_right _ _)
    · rcases le_total M (xr (k + 1) j0) with h | h
      · exact ⟨k + 1, Nat.lt_succ_self _, j0, (max_eq_right h).symm⟩
      · exact ⟨i1, Nat.lt_succ_of_lt hi1, j1, by rw [hj1, max_eq_left h]⟩
    · show (stepM (pass (fun i j => ((xr i j : ℝ) : EReal)) (k + 1)).1 (fun j => ((xr (k + 1) j : ℝ) : EReal)),
          stepL (pass (fun i j => ((xr i j : ℝ) : EReal)) (k + 1)).1
            (pass (fun i j => ((xr i j : ℝ) : EReal)) (k + 1)).2 (fun j => ((xr (k + 1) j : ℝ) : EReal))) = _
      rw [hp]
      show (stepM (M : EReal) (fun j => ((xr (k + 1) j : ℝ) : EReal)),
          stepL (M : EReal) ((∑ i ∈ Finset.range (k + 1), ∑ j, Real.exp (xr i j - M) : ℝ) : EReal)
            (fun j => ((xr (k + 1) j : ℝ) : EReal))) = _
      rw [stepM_coe M (xr (k + 1) j0) (xr (k + 1)) hj0 ⟨j0, rfl⟩,
        stepL_coe M _ (xr (k + 1) j0) (xr (k + 1)) hj0 ⟨j0, rfl⟩, rescale_sums,
        ← Finset.sum_range_succ (fun i => ∑ j, Real.exp (xr i j - max M (xr (k + 1) j0))) (k + 1)]

end Cert.Softmax

end
-- ==== Proof.SoftmaxLawDirect.lean ====
/-
  The largest softmax probability of a real row, formed directly.

  With M the largest entry and S = Σ_w exp(y_w − M), every probability is the real exp(y_v − M) / S; S ≥ 1 > 0
  because the largest entry contributes exp 0 = 1. Each probability is at most 1 / S since exp(y_v − M) ≤ 1, and
  the largest entry attains 1 / S; so the largest probability is 1 / S.
-/
import proofs.«163289_j51866025067153_2_alg».proof.Proof.SoftmaxLawStep

open scoped BigOperators

noncomputable section

namespace Cert.Softmax

open Idealize.ShloMosaic

/-- The sum of exp(y_w − M) is positive once the row is nonempty. -/
theorem sum_exp_pos {N : ℕ} (y : Fin N → ℝ) (M : ℝ) (v0 : Fin N) : 0 < ∑ w, Real.exp (y w - M) :=
  Finset.sum_pos (fun w _ => Real.exp_pos _) ⟨v0, Finset.mem_univ _⟩

/-- The largest softmax probability of a real row with largest entry M is 1 / Σ_w exp(y_w − M). -/
theorem softmaxTop_coe {N : ℕ} (y : Fin N → ℝ) (M : ℝ) (hle : ∀ v, y v ≤ M) (hat : ∃ v, y v = M) :
    softmaxTop (fun v => ((y v : ℝ) : EReal)) = ((1 / ∑ w, Real.exp (y w - M) : ℝ) : EReal) := by
  obtain ⟨v0, hv0⟩ := hat
  have hSpos : 0 < ∑ w, Real.exp (y w - M) := sum_exp_pos y M v0
  have hterm : (fun v => Ideal.div (Ideal.exp (((y v : ℝ) : EReal) - top (fun v => ((y v : ℝ) : EReal))))
        (∑ w, Ideal.exp (((y w : ℝ) : EReal) - top (fun v => ((y v : ℝ) : EReal))))) =
      fun v => ((Real.exp (y v - M) * (1 / ∑ w, Real.exp (y w - M)) : ℝ) : EReal) := by
    funext v
    rw [top_coe_eq y M hle ⟨v0, hv0⟩, sum_exp_coe_sub_coe, Ideal.div_coe hSpos.ne', exp_coe_sub_coe,
      ← EReal.coe_mul]
  show top (fun v => Ideal.div (Ideal.exp (((y v : ℝ) : EReal) - top (fun v => ((y v : ℝ) : EReal))))
        (∑ w, Ideal.exp (((y w : ℝ) : EReal) - top (fun v => ((y v : ℝ) : EReal))))) = _
  rw [hterm]
  refine top_coe_eq (fun v => Real.exp (y v - M) * (1 / ∑ w, Real.exp (y w - M))) _ (fun v => ?_) ⟨v0, ?_⟩
  · exact mul_le_of_le_one_left (le_of_lt (one_div_pos.mpr hSpos))
      (Real.exp_le_one_iff.mpr (sub_nonpos.mpr (hle v)))
  · show Real.exp (y v0 - M) * (1 / ∑ w, Real.exp (y w - M)) = _
    rw [hv0, sub_self, Real.exp_zero, one_mul]

end Cert.Softmax

end
-- ==== Proof.SoftmaxLaw.lean ====
/-
  The streaming computation of the largest softmax probability of a row of 32000 reals, cut into five tiles of
  6400 consecutive entries, agrees with the direct one.

  The five tiles together are the whole row (index v = k · 6400 + j), so the largest entry seen by the pass is
  the largest entry M of the row, and its denominator Σ over tiles of exp(entry − M) regroups into
  S = Σ_v exp(y_v − M) > 0. The pass returns 1 / S, and so does the direct computation.
-/
import proofs.«163289_j51866025067153_2_alg».proof.Proof.SoftmaxLawPass
import proofs.«163289_j51866025067153_2_alg».proof.Proof.SoftmaxLawDirect

open scoped BigOperators

noncomputable section

namespace Cert.Softmax

open Idealize.ShloMosaic

/-- A sum over K tiles of n consecutive indices each is the sum over the first K · n indices. -/
theorem sum_tiles_eq_sum_range (K n : ℕ) (g : ℕ → ℝ) :
    ∑ i ∈ Finset.range K, ∑ j : Fin n, g (i * n + j.val) = ∑ v ∈ Finset.range (K * n), g v := by
  induction K with
  | zero => simp
  | succ K ih =>
    rw [Finset.sum_range_succ, ih, Nat.succ_mul, Finset.sum_range_add]
    congr 1
    exact Fin.sum_univ_eq_sum_range (fun j => g (K * n + j)) n

/-- The row cut into tiles of 6400 consecutive entries; the index is wrapped into the row, which changes nothing
    for the five tiles that make up the row. -/
def tiles (y : Fin 32000 → ℝ) (i : ℕ) (j : Fin 6400) : ℝ :=
  y ⟨(i * 6400 + j.val) % 32000, Nat.mod_lt _ (by norm_num)⟩

/-- On the five tiles of the row no wrapping happens. -/
theorem tiles_eq (y : Fin 32000 → ℝ) (k : Fin 5) (j : Fin 6400) :
    tiles y k.val j = y ⟨k.val * 6400 + j.val, by have := k.isLt; have := j.isLt; omega⟩ := by
  have hk := k.isLt
  have hj := j.isLt
  unfold tiles
  exact congrArg y (Fin.ext (by
    show (k.val * 6400 + j.val) % 32000 = k.val * 6400 + j.val
    omega))

/-- Every entry of the row sits in one of the five tiles. -/
theorem tiles_div_mod (y : Fin 32000 → ℝ) (v : Fin 32000) :
    tiles y (v.val / 6400) ⟨v.val % 6400, Nat.mod_lt _ (by norm_num)⟩ = y v := by
  have hv := v.isLt
  unfold tiles
  exact congrArg y (Fin.ext (by
    show (v.val / 6400 * 6400 + v.val % 6400) % 32000 = v.val
    omega))

/-- exp(y_m − M) with the index wrapped into the row. -/
def wrapExp (y : Fin 32000 → ℝ) (M : ℝ) (m : ℕ) : ℝ :=
  Real.exp (y ⟨m % 32000, Nat.mod_lt _ (by norm_num)⟩ - M)

/-- The sum of exp(entry − M) over the five tiles is the sum over the row. -/
theorem sum_tiles (y : Fin 32000 → ℝ) (M : ℝ) :
    ∑ i ∈ Finset.range 5, ∑ j, Real.exp (tiles y i j - M) = ∑ w, Real.exp (y w - M) :=
  calc ∑ i ∈ Finset.range 5, ∑ j, Real.exp (tiles y i j - M)
      = ∑ v ∈ Finset.range (5 * 6400), wrapExp y M v := sum_tiles_eq_sum_range 5 6400 (wrapExp y M)
    _ = ∑ v ∈ Finset.range 32000, wrapExp y M v := rfl
    _ = ∑ w : Fin 32000, wrapExp y M w.val := (Fin.sum_univ_eq_sum_range (wrapExp y M) 32000).symm
    _ = ∑ w, Real.exp (y w - M) := Finset.sum_congr rfl fun w _ => by
        unfold wrapExp
        exact congrArg (fun u => Real.exp (y u - M)) (Fin.ext (Nat.mod_eq_of_lt w.isLt))

theorem online_softmax (y : Fin 32000 → ℝ) (x : ℕ → Fin 6400 → EReal)
    (hx : ∀ (k : Fin 5) (j : Fin 6400),
      x k.val j = ((y ⟨k.val * 6400 + j.val, by have := k.isLt; have := j.isLt; omega⟩ : ℝ) : EReal)) :
    Ideal.div 1 (pass x 5).2 = softmaxTop (fun v => ((y v : ℝ) : EReal)) := by
  have hxx : ∀ i, i < 5 → x i = (fun i j => ((tiles y i j : ℝ) : EReal)) i := by
    intro i hi
    funext j
    show x i j = ((tiles y i j : ℝ) : EReal)
    rw [tiles_eq y ⟨i, hi⟩ j]
    exact hx ⟨i, hi⟩ j
  obtain ⟨M, hle, ⟨i1, hi1, j1, hj1⟩, hp⟩ := pass_coe (by norm_num : 0 < 6400) (tiles y) 4
  have hp5 : pass (fun i j => ((tiles y i j : ℝ) : EReal)) 5 =
      ((M : EReal), ((∑ i ∈ Finset.range 5, ∑ j, Real.exp (tiles y i j - M) : ℝ) : EReal)) := hp
  have hyle : ∀ v, y v ≤ M := by
    intro v
    have hv := v.isLt
    have h := hle (v.val / 6400) (by omega) ⟨v.val % 6400, Nat.mod_lt _ (by norm_num)⟩
    rwa [tiles_div_mod] at h
  have hyat : ∃ v, y v = M := ⟨⟨(i1 * 6400 + j1.val) % 32000, Nat.mod_lt _ (by norm_num)⟩, hj1⟩
  rw [pass_congr x (fun i j => ((tiles y i j : ℝ) : EReal)) 5 hxx, hp5, softmaxTop_coe y M hyle hyat]
  show Ideal.div 1 ((∑ i ∈ Finset.range 5, ∑ j, Real.exp (tiles y i j - M) : ℝ) : EReal) = _
  rw [sum_tiles y M, Ideal.div_coe (sum_exp_pos y M ⟨0, by norm_num⟩).ne', one_mul]

end Cert.Softmax

end
-- ==== Proof.LibFiniteEntry.lean ====
/-
  "|x| < +∞" on the extended reals means x is a real number.

  A precondition of the form "every entry is finite" compares max(x, −x) with the float word of +∞ (0x7F800000, which
  denotes ⊤). At x = ⊥ and at x = ⊤ that maximum is ⊤, and ⊤ < ⊤ fails; so where the comparison's bit is 1, x is the
  image of a real number.
-/
import Idealize.ShloMosaic.PureOps.Ideal

namespace Idealize.ShloMosaic.Ideal

/-- An extended real whose absolute value is below the float word of +∞ is a real number. -/
theorem real_of_abs_lt_inf (x : EReal) (h : Ideal.cmp .olt (max x (-x)) (Ideal.ofBits .f32 0x7F800000#32) = 1#1) :
    ∃ r : ℝ, x = (r : EReal) := by
  have hinf : Ideal.ofBits .f32 0x7F800000#32 = ⊤ := by simp [Ideal.ofBits, Ideal.ieee]
  rw [hinf] at h
  induction x using EReal.rec with
  | bot => exfalso; simp [Ideal.cmp] at h
  | coe r => exact ⟨r, rfl⟩
  | top => exfalso; simp [Ideal.cmp] at h

end Idealize.ShloMosaic.Ideal
-- ==== Proof.FiniteLogits.lean ====
/-
  The precondition "every input entry is finite", decoded for the logits.

  The precondition is a conjunction of four bits, one per floating-point argument array; the bit of an array is the
  conjunction, over all its entries x, of the comparison |x| < +∞. Where the whole conjunction is 1, the first
  conjunct is 1, so every entry of the logits passes its comparison, and an extended real with |x| < +∞ is a real number.
-/
import proofs.«163289_j51866025067153_2_alg».proof.Defs
import proofs.«163289_j51866025067153_2_alg».proof.Proof.LibFiniteEntry
import Idealize.ShloMosaic.Lib.ReduceAll
import Idealize.ShloMosaic.Lib.ValueIdx

noncomputable section

namespace Cert.KernelIdeal.PayRead

open Idealize.ShloMosaic

/-- The rank-0 shape has one index. -/
instance subsingleton_scalar_idx : Subsingleton Cert.Pre_finite_inputs.S_.Idx := ⟨fun a b => funext fun d => d.elim0⟩

/-- Under the precondition every entry of the logits is a real number. -/
theorem finite_logits [Cert.Pre_finite_inputs.Facts]
    (m : (ℓ : Loc Cert.KernelIdeal.nD Cert.KernelIdeal.τ Cert.KernelIdeal.sig) → Buf (Elt Ideal) ℓ)
    (h : Cert.Pre_KernelIdeal m) (c : Dev Cert.KernelIdeal.nD) (i : Cert.KernelIdeal.S8x128x32000.Idx) :
    ∃ r : ℝ, (m ((c.tc : Thread Cert.KernelIdeal.nD Cert.KernelIdeal.τ).loc Cert.KernelIdeal.main_arg0)
      : Cert.KernelIdeal.S8x128x32000.Idx → EReal) i = (r : EReal) := by
  have h0 := congrFun (h c) ValueIdx.ix0
  dsimp only [Cert.Pre_finite_inputs.fn, Cert.Pre_finite_inputs.fn_part1] at h0
  -- the conjunction of the four arrays' bits is 1, so the first array's bit is 1
  have h1 := (IntOp.andi_eq_one.mp h0).1
  have h2 := (IntOp.andi_eq_one.mp h1).1
  have h3 := (IntOp.andi_eq_one.mp h2).1
  -- the bit of the first array is the conjunction over all its entries, so entry i passes its comparison
  have h4 := Host.reduce_andi_all _ _ _ _ ValueIdx.ix0 h3 i
  -- and the comparison is |x| < +∞
  exact Ideal.real_of_abs_lt_inf _ h4

end Cert.KernelIdeal.PayRead

end
-- ==== Proof.ConfBridge.lean ====
/-
  The kernel program's token confidences are the reference's.

  At batch b and position s the kernel program holds 1 / l, where l is what the streaming pass over the five tiles of
  row b·128 + s of the reshaped logits leaves as its denominator: the row lies in row block (b·128 + s) / 256 at row
  (b·128 + s) mod 256, its block is written back to the output array once, after the last tile, and tile k of the row
  is the logits at (b, s, k·6400 + j). The reference holds the largest softmax probability of the same 32000 logits.
  The logits being finite, the two are equal by the law of the streaming pass.
-/
import proofs.«163289_j51866025067153_2_alg».proof.Proof.KI.RowPass
import proofs.«163289_j51866025067153_2_alg».proof.Proof.KI.OutArray
import proofs.«163289_j51866025067153_2_alg».proof.Proof.KI.BlockLogits
import proofs.«163289_j51866025067153_2_alg».proof.Proof.ConfKRead
import proofs.«163289_j51866025067153_2_alg».proof.Proof.RefConf
import proofs.«163289_j51866025067153_2_alg».proof.Proof.SoftmaxLaw
import proofs.«163289_j51866025067153_2_alg».proof.Proof.FiniteLogits

noncomputable section

namespace Cert.KernelIdeal.Frame

open Cert.KernelIdeal Cert.KernelIdeal.Gen
open Idealize.ShloMosaic Idealize.ShloMosaic.TcCoe Idealize.ShloMosaic.ValueIdx Idealize.SL.Sem

/-- Index by index, one over the streamed denominator is the largest softmax probability. -/
theorem conf_eq [hF : Cert.Pre_finite_inputs.Facts] (m : (ℓ : Loc nD τ sig) → Buf (Elt Ideal) ℓ) (hpre : Cert.Pre_KernelIdeal m) (c : Dev nD) :
    Cert.KernelTail.confK ((dats m 0 c).arrAt 1 cfg0.N)
      = Cert.ReferenceIdeal.Read.val_main_v17 (F := Ideal) (m ((c : Thread nD τ).loc main_arg0)) := by
  funext i
  obtain ⟨b, s, rfl⟩ : ∃ (b : Fin 8) (s : Fin 128), i = ix2 b s := ⟨i 0, i 1, eq_ix2 i⟩
  have hb := b.isLt
  have hs := s.isLt
  -- the row of the reshaped logits, its row block and its place in the block
  obtain ⟨R, hRv⟩ : ∃ R : Fin 1024, R.val = b.val * 128 + s.val := ⟨⟨b.val * 128 + s.val, by omega⟩, rfl⟩
  obtain ⟨ti, hti⟩ : ∃ ti : Fin 4, ti.val = b.val / 2 := ⟨⟨b.val / 2, by omega⟩, rfl⟩
  obtain ⟨p, hp⟩ : ∃ p : Fin 256, p.val = (b.val % 2) * 128 + s.val := ⟨⟨(b.val % 2) * 128 + s.val, by omega⟩, rfl⟩
  have hR : R.val = ti.val * 256 + p.val := by rw [hRv, hti, hp]; omega
  have hbs : b.val * 128 + s.val = ti.val * 256 + p.val := by rw [← hRv]; exact hR
  -- every logit of the row is a real number
  choose y hy using fun v : Fin 32000 => Cert.KernelIdeal.PayRead.finite_logits m hpre c (ix3 b s v)
  have htiles : ∀ (k : Fin 5) (j : Fin 6400),
      tile m c ti p k.val j = ((y ⟨k.val * 6400 + j.val, by have := k.isLt; have := j.isLt; omega⟩ : ℝ) : EReal) := by
    intro k j
    have hk := k.isLt
    have hj := j.isLt
    rw [tile_eq m c ti p k.val hk]
    exact (iblk_logits m c ti k p j b s hbs ⟨k.val * 6400 + j.val, by omega⟩ rfl).trans (hy _)
  rw [Cert.KernelTail.confK_apply _ b s R hRv, Cert.KernelIdeal.OutArray.arrAt_out m c ti p R hR, out_last m c ti p,
    Cert.Softmax.online_softmax y (tile m c ti p) htiles, Cert.RefConf.conf_ref_apply]
  exact congrArg Cert.Softmax.softmaxTop (funext fun v => (hy v).symm)

end Cert.KernelIdeal.Frame

end
-- ==== Proof.KI.ValueRun.lean ====
/-
  The kernel program's run with its result named: every weakly fair execution of @main ends with the scalar result
  at the shared host tail applied to the reference's token confidences and the arguments, and with the arguments as
  launched. The frame run leaves the result at what the host operations after the region compute from the
  pallas_call's output array; that is the tail applied to one over the streamed denominators, which index by index is
  the largest softmax probability.
-/
import proofs.«163289_j51866025067153_2_alg».proof.Proof.KI.Frame
import proofs.«163289_j51866025067153_2_alg».proof.Proof.KI.TailGlue
import proofs.«163289_j51866025067153_2_alg».proof.Proof.ConfBridge

noncomputable section

namespace Cert.KernelIdeal.Frame

open Cert.KernelIdeal Cert.KernelIdeal.Gen
open Idealize.ShloMosaic Idealize.ShloMosaic.TcCoe Idealize.SL.Sem

theorem kernel_value [hF : Cert.Pre_finite_inputs.Facts] (m : (ℓ : Loc nD τ sig) → Buf (Elt Ideal) ℓ) (ρ : Dev nD → PrngReg) (hpre : Cert.Pre_KernelIdeal m) :
    θ_run (defs (F := Ideal)) (onTc (τ := τ) (main (F := Ideal))) ⟨m, fun _ => 0, ρ⟩ (fun r => ∀ c : Dev nD,
      r.2.mem ((c.tc : Thread nD τ).loc main_v72)
        = Cert.RefValue.tail (Cert.ReferenceIdeal.Read.val_main_v17 (F := Ideal) (m ((c.tc : Thread nD τ).loc main_arg0)))
            (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)) :=
  (θ_run defs _ _).mono (fun _ h c =>
    ⟨(((h c).2 main_v72 (Pipeline.mem_restRefs_of main_v72 (by decide) (by decide))).trans (afterTail_v72 m (dats m) c)).trans
        (congrArg (fun cf => Cert.RefValue.tail cf (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)))
          (conf_eq m hpre c)),
    ((h c).2 main_arg0 (Pipeline.mem_restRefs_of main_arg0 (by decide) (by decide))).trans (W_main_arg0 m (dats m) c),
    ((h c).2 main_arg1 (Pipeline.mem_restRefs_of main_arg1 (by decide) (by decide))).trans (W_main_arg1 m (dats m) c),
    ((h c).2 main_arg2 (Pipeline.mem_restRefs_of main_arg2 (by decide) (by decide))).trans (W_main_arg2 m (dats m) c),
    ((h c).2 main_arg3 (Pipeline.mem_restRefs_of main_arg3 (by decide) (by decide))).trans (W_main_arg3 m (dats m) c),
    ((h c).2 main_arg4 (Pipeline.mem_restRefs_of main_arg4 (by decide) (by decide))).trans (W_main_arg4 m (dats m) c),
    ((h c).2 main_arg5 (Pipeline.mem_restRefs_of main_arg5 (by decide) (by decide))).trans (W_main_arg5 m (dats m) c),
    ((h c).2 main_arg6 (Pipeline.mem_restRefs_of main_arg6 (by decide) (by decide))).trans (W_main_arg6 m (dats m) c),
    ((h c).2 main_arg7 (Pipeline.mem_restRefs_of main_arg7 (by decide) (by decide))).trans (W_main_arg7 m (dats m) c)⟩)
    (run_main (F := Ideal) m ρ)

end Cert.KernelIdeal.Frame

end
-- ==== Proof.lean ====
/-
  A streaming softmax denominator against the largest softmax probability.

  The kernel program reshapes the logits to 1024 rows of 32000, and a pallas_call on a 4 x 5 grid streams each row
  block's rows tile by tile, keeping per row a running maximum m and a running denominator l (a tile replaces m by
  m' = max(m, max of the tile) and l by l · exp(m − m') + Σ exp(entry − m')); after the last tile it writes l out. The host
  then takes 1 / l as the token confidence and computes a calibration loss and a keyword penalty from it and the other
  arguments. The reference takes the largest softmax probability as the confidence and computes the same loss.
  At the exact extended reals, for finite logits, l is Σ exp(entry − row maximum) and the largest softmax probability
  is exp 0 / l = 1 / l, so the two confidences agree and the shared host tail gives equal results.

  The frames: the reference is host operations only, and its run is read back operation by operation; the kernel
  program's frame (at both instances, the same text) is the launch of the region with the two scratch columns carried
  along the reduction axis, around which @main's host operations run. The idealization rewrote nothing.
-/
import proofs.«163289_j51866025067153_2_alg».proof.Defs
import proofs.«163289_j51866025067153_2_alg».proof.Proof.Gen.Kernel
import proofs.«163289_j51866025067153_2_alg».proof.Proof.Gen.KernelIdeal
import proofs.«163289_j51866025067153_2_alg».proof.Proof.Gen.ReferenceIdeal
import proofs.«163289_j51866025067153_2_alg».proof.Proof.Gen.Pre_finite_inputs
import proofs.«163289_j51866025067153_2_alg».proof.Proof.Gen.ReferenceIdeal.Run
import proofs.«163289_j51866025067153_2_alg».proof.Proof.Gen.ReferenceIdeal.Read
import proofs.«163289_j51866025067153_2_alg».proof.Proof.K.Frame
import proofs.«163289_j51866025067153_2_alg».proof.Proof.KI.Frame
import proofs.«163289_j51866025067153_2_alg».proof.Proof.KI.ValueRun
import proofs.«163289_j51866025067153_2_alg».proof.Proof.RefValue
import Idealize.ShloMosaic.Adequacy
import Idealize.ShloMosaic.Init

noncomputable section

namespace Cert.Proof

open Idealize.ShloMosaic Idealize.ShloMosaic.TcCoe Idealize.SL.Sem

theorem frame_k : Cert.frame_Kernel (hKernel := Cert.Kernel.Gen.facts) (hPre_finite_inputs := Cert.Pre_finite_inputs.Gen.facts) :=
  fun m ρ _ => Cert.Kernel.Frame.frame m ρ

theorem frame_ki : Cert.frame_KernelIdeal (hKernelIdeal := Cert.KernelIdeal.Gen.facts) (hPre_finite_inputs := Cert.Pre_finite_inputs.Gen.facts) :=
  fun m ρ _ => Cert.KernelIdeal.Frame.frame m ρ

/-- The reference's frame is its run with the result dropped. -/
theorem frame_ri : Cert.frame_ReferenceIdeal (hReferenceIdeal := Cert.ReferenceIdeal.Gen.facts) (hPre_finite_inputs := Cert.Pre_finite_inputs.Gen.facts) :=
  fun m ρ _ => (θ_run Cert.ReferenceIdeal.defs _ _).mono (fun _ h c => (h c).2) (Cert.ReferenceIdeal.Value.run (F := Ideal) m ρ)

/-- Both programs end with the shared host tail applied to the largest softmax probabilities of the logits. -/
theorem algebraic : Cert.algebraic_KernelIdeal_ReferenceIdeal (hKernelIdeal := Cert.KernelIdeal.Gen.facts)
    (hReferenceIdeal := Cert.ReferenceIdeal.Gen.facts) (hPre_finite_inputs := Cert.Pre_finite_inputs.Gen.facts) := by
  intro m ρ m' ρ' hpre hagree
  refine ⟨_, Cert.KernelIdeal.Frame.kernel_value (hF := Cert.Pre_finite_inputs.Gen.facts) m ρ hpre, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v78_eq, Cert.RefValue.ref_tail, (hagree c).1, (hagree c).2.1, (hagree c).2.2.1,
    (hagree c).2.2.2.1, (hagree c).2.2.2.2.1, (hagree c).2.2.2.2.2.1, (hagree c).2.2.2.2.2.2.1, (hagree c).2.2.2.2.2.2.2]

theorem claim : Cert.Claim := ⟨Cert.Kernel.Gen.facts, Cert.KernelIdeal.Gen.facts, Cert.ReferenceIdeal.Gen.facts, Cert.Pre_finite_inputs.Gen.facts,
  frame_k, frame_ki, frame_ri, trivial, algebraic⟩

end Cert.Proof

end
